-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x256x64 : Shape := ⟨4, ![256, 16, 256, 64]⟩
abbrev S_ : Shape := ⟨0, ![]⟩

class Facts : Prop where
  bcast_S_S256x16x256x64 : S_.BroadcastsInDim S256x16x256x64 (![] : Fin 0 → Fin S256x16x256x64.rank)
  reducesTo_S256x16x256x64_S_d0_1_2_3 : S256x16x256x64.ReducesTo [0, 1, 2, 3] S_
  h_S_ : 0 < S_.numel

variable [Facts]

def fn {F : FTy → Type} [FloatOps F] (main_arg0 : FVec F S256x16x256x64 .f32) (main_arg1 : FVec F S256x16x256x64 .f32) (main_arg2 : FVec F S256x16x256x64 .f32) : IVec S_ 1 :=
  let main_v0 : FVec F S256x16x256x64 .f32 := Host.absf main_arg0
  let main_cst : FVec F S_ .f32 := constant S_ .f32 0x7F800000#32
  let main_v1 : FVec F S256x16x256x64 .f32 := broadcastInDim S256x16x256x64 ![] bcast_S_S256x16x256x64 main_cst
  let main_v2 : IVec S256x16x256x64 1 := cmpf .olt main_v0 main_v1
  let main_c : IVec S_ 1 := constantI S_ 1 1#1
  let main_v3 : IVec S_ 1 := (fun x v => Host.reduce IntOp.andi x v reducesTo_S256x16x256x64_S_d0_1_2_3 h_S_) main_v2 main_c
  let main_v4 : FVec F S256x16x256x64 .f32 := Host.absf main_arg1
  let main_cst_0 : FVec F S_ .f32 := constant S_ .f32 0x7F800000#32
  let main_v5 : FVec F S256x16x256x64 .f32 := broadcastInDim S256x16x256x64 ![] bcast_S_S256x16x256x64 main_cst_0
  let main_v6 : IVec S256x16x256x64 1 := cmpf .olt main_v4 main_v5
  let main_c_1 : IVec S_ 1 := constantI S_ 1 1#1
  let main_v7 : IVec S_ 1 := (fun x v => Host.reduce IntOp.andi x v reducesTo_S256x16x256x64_S_d0_1_2_3 h_S_) main_v6 main_c_1
  let main_v8 : IVec S_ 1 := andi main_v3 main_v7
  let main_v9 : FVec F S256x16x256x64 .f32 := Host.absf main_arg2
  let main_cst_2 : FVec F S_ .f32 := constant S_ .f32 0x7F800000#32
  let main_v10 : FVec F S256x16x256x64 .f32 := broadcastInDim S256x16x256x64 ![] bcast_S_S256x16x256x64 main_cst_2
  let main_v11 : IVec S256x16x256x64 1 := cmpf .olt main_v9 main_v10
  let main_c_3 : IVec S_ 1 := constantI S_ 1 1#1
  let main_v12 : IVec S_ 1 := (fun x v => Host.reduce IntOp.andi x v reducesTo_S256x16x256x64_S_d0_1_2_3 h_S_) main_v11 main_c_3
  let main_v13 : IVec S_ 1 := andi main_v8 main_v12
  main_v13
-- ==== Kernel.lean ====
abbrev S256x16x256x64 : Shape := ⟨4, ![256, 16, 256, 64]⟩
abbrev S4096x256x64 : Shape := ⟨3, ![4096, 256, 64]⟩
abbrev S4096x8x2x8x2x64 : Shape := ⟨6, ![4096, 8, 2, 8, 2, 64]⟩
abbrev S_ : Shape := ⟨0, ![]⟩
abbrev S4096x8x8x64 : Shape := ⟨4, ![4096, 8, 8, 64]⟩
abbrev S4096x64x64 : Shape := ⟨3, ![4096, 64, 64]⟩
abbrev S128x64x64 : Shape := ⟨3, ![128, 64, 64]⟩
abbrev S4096x64 : Shape := ⟨2, ![4096, 64]⟩
abbrev S4096x256x1 : Shape := ⟨3, ![4096, 256, 1]⟩
abbrev S4096x256x65 : Shape := ⟨3, ![4096, 256, 65]⟩
abbrev S16x256x64 : Shape := ⟨3, ![16, 256, 64]⟩
abbrev S16x256x65 : Shape := ⟨3, ![16, 256, 65]⟩
abbrev S16x64x64 : Shape := ⟨3, ![16, 64, 64]⟩
abbrev S64x64 : Shape := ⟨2, ![64, 64]⟩
abbrev S1x64x64 : Shape := ⟨3, ![1, 64, 64]⟩
abbrev S16x64x256 : Shape := ⟨3, ![16, 64, 256]⟩
abbrev S16x64x65 : Shape := ⟨3, ![16, 64, 65]⟩
abbrev S16x256x1 : Shape := ⟨3, ![16, 256, 1]⟩

abbrev nBuf : Space → Nat
  | .hbm => 47
  | .vmem => 22
  | .smem => 0
  | _ => 0

abbrev bufTy : (tb : Table) → Fin (tcTables nBuf tb) → BufTy
  | .hbm, ⟨0, _⟩ => ⟨S256x16x256x64, .f32⟩
  | .hbm, ⟨1, _⟩ => ⟨S256x16x256x64, .f32⟩
  | .hbm, ⟨2, _⟩ => ⟨S256x16x256x64, .f32⟩
  | .hbm, ⟨3, _⟩ => ⟨S4096x256x64, .f32⟩
  | .hbm, ⟨4, _⟩ => ⟨S4096x256x64, .f32⟩
  | .hbm, ⟨5, _⟩ => ⟨S4096x256x64, .f32⟩
  | .hbm, ⟨6, _⟩ => ⟨S4096x8x2x8x2x64, .f32⟩
  | .hbm, ⟨7, _⟩ => ⟨S_, .f32⟩
  | .hbm, ⟨8, _⟩ => ⟨S4096x8x8x64, .f32⟩
  | .hbm, ⟨9, _⟩ => ⟨S_, .f32⟩
  | .hbm, ⟨10, _⟩ => ⟨S4096x8x8x64, .f32⟩
  | .hbm, ⟨11, _⟩ => ⟨S4096x8x8x64, .f32⟩
  | .hbm, ⟨12, _⟩ => ⟨S4096x64x64, .f32⟩
  | .hbm, ⟨13, _⟩ => ⟨S4096x8x2x8x2x64, .f32⟩
  | .hbm, ⟨14, _⟩ => ⟨S_, .f32⟩
  | .hbm, ⟨15, _⟩ => ⟨S4096x8x8x64, .f32⟩
  | .hbm, ⟨16, _⟩ => ⟨S_, .f32⟩
  | .hbm, ⟨17, _⟩ => ⟨S4096x8x8x64, .f32⟩
  | .hbm, ⟨18, _⟩ => ⟨S4096x8x8x64, .f32⟩
  | .hbm, ⟨19, _⟩ => ⟨S4096x64x64, .f32⟩
  | .hbm, ⟨20, _⟩ => ⟨S4096x64x64, .f32⟩
  | .hbm, ⟨21, _⟩ => ⟨S4096x64x64, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x64x64, .f32⟩
  | .hbm, ⟨34, _⟩ => ⟨S4096x64x64, .f32⟩
  | .hbm, ⟨35, _⟩ => ⟨S4096x64x64, .f32⟩
  | .hbm, ⟨36, _⟩ => ⟨S4096x256x1, .f32⟩
  | .hbm, ⟨37, _⟩ => ⟨S_, .f32⟩
  | .hbm, ⟨38, _⟩ => ⟨S4096x256x1, .f32⟩
  | .hbm, ⟨39, _⟩ => ⟨S4096x256x65, .f32⟩
  | .hbm, ⟨40, _⟩ => ⟨S4096x256x64, .bf16⟩
  | .hbm, ⟨41, _⟩ => ⟨S4096x256x64, .bf16⟩
  | .hbm, ⟨42, _⟩ => ⟨S4096x256x65, .bf16⟩
  | .hbm, ⟨43, _⟩ => ⟨S4096x64x64, .bf16⟩
  | .hbm, ⟨44, _⟩ => ⟨S4096x64x64, .bf16⟩
  | .hbm, ⟨45, _⟩ => ⟨S4096x256x64, .f32⟩
  | .hbm, ⟨46, _⟩ => ⟨S256x16x256x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | .local _ .vmem, ⟨4, _⟩ => ⟨S128x64x64, .f32⟩
  | .local _ .vmem, ⟨5, _⟩ => ⟨S128x64x64, .f32⟩
  | .local _ .vmem, ⟨6, _⟩ => ⟨S16x256x64, .bf16⟩
  | .local _ .vmem, ⟨7, _⟩ => ⟨S16x256x64, .bf16⟩
  | .local _ .vmem, ⟨8, _⟩ => ⟨S16x256x64, .bf16⟩
  | .local _ .vmem, ⟨9, _⟩ => ⟨S16x256x64, .bf16⟩
  | .local _ .vmem, ⟨10, _⟩ => ⟨S16x256x65, .bf16⟩
  | .local _ .vmem, ⟨11, _⟩ => ⟨S16x256x65, .bf16⟩
  | .local _ .vmem, ⟨12, _⟩ => ⟨S16x64x64, .bf16⟩
  | .local _ .vmem, ⟨13, _⟩ => ⟨S16x64x64, .bf16⟩
  | .local _ .vmem, ⟨14, _⟩ => ⟨S16x64x64, .bf16⟩
  | .local _ .vmem, ⟨15, _⟩ => ⟨S16x64x64, .bf16⟩
  | .local _ .vmem, ⟨16, _⟩ => ⟨S16x64x64, .f32⟩
  | .local _ .vmem, ⟨17, _⟩ => ⟨S16x64x64, .f32⟩
  | .local _ .vmem, ⟨18, _⟩ => ⟨S16x64x64, .f32⟩
  | .local _ .vmem, ⟨19, _⟩ => ⟨S16x64x64, .f32⟩
  | .local _ .vmem, ⟨20, _⟩ => ⟨S16x256x64, .f32⟩
  | .local _ .vmem, ⟨21, _⟩ => ⟨S16x256x64, .f32⟩
  | _, _ => ⟨S256x16x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256x65 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x64x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x64x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S256x16x256x64_S4096x256x64 : S256x16x256x64.ShapeCasts S4096x256x64
  shapeCasts_S4096x256x64_S4096x8x2x8x2x64 : S4096x256x64.ShapeCasts S4096x8x2x8x2x64
  reducesTo_S4096x8x2x8x2x64_S4096x8x8x64_d2_4 : S4096x8x2x8x2x64.ReducesTo [2, 4] S4096x8x8x64
  h_S_ : 0 < S_.numel
  bcast_S_S4096x8x8x64 : S_.BroadcastsInDim S4096x8x8x64 (![] : Fin 0 → Fin S4096x8x8x64.rank)
  shapeCasts_S4096x8x8x64_S4096x64x64 : S4096x8x8x64.ShapeCasts S4096x64x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  reducesTo_S4096x64x64_S4096x64_d2 : S4096x64x64.ReducesTo [2] S4096x64
  reducesTo_S4096x64x64_S4096x64_d1 : S4096x64x64.ReducesTo [1] S4096x64
  reducesTo_S4096x64_S_d0_1 : S4096x64.ReducesTo [0, 1] S_
  transposes_S4096x64x64_S4096x64x64_0_2_1 : S4096x64x64.Transposes [0, 2, 1] S4096x64x64
  bcast_S_S4096x64x64 : S_.BroadcastsInDim S4096x64x64 (![] : Fin 0 → Fin S4096x64x64.rank)
  slices_S4096x256x64_S4096x256x1_0_0_0 : S4096x256x64.Slices ![0, 0, 0] S4096x256x1
  bcast_S_S4096x256x1 : S_.BroadcastsInDim S4096x256x1 (![] : Fin 0 → Fin S4096x256x1.rank)
  concatenates_S4096x256x64_S4096x256x1_S4096x256x65_d2 : Shape.Concatenates [S4096x256x64, S4096x256x1] S4096x256x65 2
  bitsLt_bf16_f32 : FTy.bits .bf16 < FTy.bits .f32
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S16x256x65_S16x256x65_0_0_0 : ∀ a, (![0, 0, 0] : Fin 3 → Nat) a + S16x256x65.size a ≤ S16x256x65.size a
  h_S16x256x65 : 0 < S16x256x65.numel
  shapeCasts_S16x256x65_S16x256x65 : S16x256x65.ShapeCasts S16x256x65
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  iota_S64x64_d0_w32 : S64x64.Iotas .tc 32 [0]
  iota_S64x64_d1_w32 : S64x64.Iotas .tc 32 [1]
  shapeCasts_S64x64_S1x64x64 : S64x64.ShapeCasts S1x64x64
  broadcasts_S1x64x64_S16x64x64 : S1x64x64.Broadcasts S16x64x64
  slices_S16x256x65_o0_0_0_S16x256x64 : S16x256x65.Slices ![0, 0, 0] S16x256x64
  slices_S16x256x65_o0_0_64_S16x256x1 : S16x256x65.Slices ![0, 0, 64] S16x256x1
  broadcasts_S16x256x1_S16x256x64 : S16x256x1.Broadcasts S16x256x64
  shapeCasts_S4096x256x64_S256x16x256x64 : S4096x256x64.ShapeCasts S256x16x256x64
  dot_S128x64x64_S128x64x64_S128x64x64_2_2_1_1_0_0_wf : DotDims.WF S128x64x64 S128x64x64 S128x64x64 [2] [2] [1] [1] [0] [0]
  dot_S16x64x64_S16x64x64_S16x64x64_2_1_1_2_0_0_wf : DotDims.WF S16x64x64 S16x64x64 S16x64x64 [2] [1] [1] [2] [0] [0]
  dot_S16x64x64_S16x256x64_S16x64x256_2_2_1_1_0_0_wf : DotDims.WF S16x64x64 S16x256x64 S16x64x256 [2] [2] [1] [1] [0] [0]
  dot_S16x64x256_S16x256x65_S16x64x65_2_1_1_2_0_0_wf : DotDims.WF S16x64x256 S16x256x65 S16x64x65 [2] [1] [1] [2] [0] [0]
  dot_S16x256x64_S16x64x64_S16x256x64_2_2_1_1_0_0_wf : DotDims.WF S16x256x64 S16x64x64 S16x256x64 [2] [2] [1] [1] [0] [0]
  dot_S16x256x64_S16x64x64_S16x256x64_2_1_1_2_0_0_wf : DotDims.WF S16x256x64 S16x64x64 S16x256x64 [2] [1] [1] [2] [0] [0]
  dot_S16x256x64_S16x64x65_S16x256x65_2_1_1_2_0_0_wf : DotDims.WF S16x256x64 S16x64x65 S16x256x65 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .f32 = 32 ∨ (Rect.block (s := S4096x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .f32 = 32 ∨ (Rect.block (s := S4096x64x64) S128x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x64.size a ≤ S4096x256x64.size a
  hwx1_0 : ∀ i : grid1.Coords, EltTy.bits .bf16 = 32 ∨ (Rect.block (s := S4096x256x64) S16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x64.size a ≤ S4096x256x64.size a
  hwx1_1 : ∀ i : grid1.Coords, EltTy.bits .bf16 = 32 ∨ (Rect.block (s := S4096x256x64) S16x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x65.size a ≤ S4096x256x65.size a
  hwx1_2 : ∀ i : grid1.Coords, EltTy.bits .bf16 = 32 ∨ (Rect.block (s := S4096x256x65) S16x256x65.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x64x64.size a ≤ S4096x64x64.size a
  hwx1_3 : ∀ i : grid1.Coords, EltTy.bits .bf16 = 32 ∨ (Rect.block (s := S4096x64x64) S16x64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x64x64.size a ≤ S4096x64x64.size a
  hwx1_4 : ∀ i : grid1.Coords, EltTy.bits .bf16 = 32 ∨ (Rect.block (s := S4096x64x64) S16x64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x64x64.size a ≤ S4096x64x64.size a
  hwx1_5 : ∀ i : grid1.Coords, EltTy.bits .f32 = 32 ∨ (Rect.block (s := S4096x64x64) S16x64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x64x64.size a ≤ S4096x64x64.size a
  hwx1_6 : ∀ i : grid1.Coords, EltTy.bits .f32 = 32 ∨ (Rect.block (s := S4096x64x64) S16x64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16x256x64.size a ≤ S4096x256x64.size a
  hwx1_7 : ∀ i : grid1.Coords, EltTy.bits .f32 = 32 ∨ (Rect.block (s := S4096x256x64) S16x256x64.size (cc1_transform_7 i) (hinb1_7 i)).WholeWords (EltTy.packing .f32)

variable [Facts₀]

def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def dot_S16x64x64_S16x256x64_S16x64x256_2_2_1_1_0_0 : DotDims S16x64x64 S16x256x64 S16x64x256 where
  lhsContracting := [2]
  rhsContracting := [2]
  lhsNonContracting := [1]
  rhsNonContracting := [1]
  lhsBatch := [0]
  rhsBatch := [0]
  wf := dot_S16x64x64_S16x256x64_S16x64x256_2_2_1_1_0_0_wf
def dot_S16x64x256_S16x256x65_S16x64x65_2_1_1_2_0_0 : DotDims S16x64x256 S16x256x65 S16x64x65 where
  lhsContracting := [2]
  rhsContracting := [1]
  lhsNonContracting := [1]
  rhsNonContracting := [2]
  lhsBatch := [0]
  rhsBatch := [0]
  wf := dot_S16x64x256_S16x256x65_S16x64x65_2_1_1_2_0_0_wf
def dot_S16x256x64_S16x64x64_S16x256x64_2_2_1_1_0_0 : DotDims S16x256x64 S16x64x64 S16x256x64 where
  lhsContracting := [2]
  rhsContracting := [2]
  lhsNonContracting := [1]
  rhsNonContracting := [1]
  lhsBatch := [0]
  rhsBatch := [0]
  wf := dot_S16x256x64_S16x64x64_S16x256x64_2_2_1_1_0_0_wf
def dot_S16x256x64_S16x64x64_S16x256x64_2_1_1_2_0_0 : DotDims S16x256x64 S16x64x64 S16x256x64 where
  lhsContracting := [2]
  rhsContracting := [1]
  lhsNonContracting := [1]
  rhsNonContracting := [2]
  lhsBatch := [0]
  rhsBatch := [0]
  wf := dot_S16x256x64_S16x64x64_S16x256x64_2_1_1_2_0_0_wf
def dot_S16x256x64_S16x64x65_S16x256x65_2_1_1_2_0_0 : DotDims S16x256x64 S16x64x65 S16x256x65 where
  lhsContracting := [2]
  rhsContracting := [1]
  lhsNonContracting := [1]
  rhsNonContracting := [2]
  lhsBatch := [0]
  rhsBatch := [0]
  wf := dot_S16x256x64_S16x64x65_S16x256x65_2_1_1_2_0_0_wf

abbrev win0_0 : Pipeline.Window sig grid0 :=
  Pipeline.Window.ofSpec (Memref.whole main_v7) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S16x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S16x256x65.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S16x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S16x64x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S16x64x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23) S16x64x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S16x256x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S256x16x256x64 : Shape := ⟨4, ![256, 16, 256, 64]⟩
abbrev S256x16x8x2x8x2x64 : Shape := ⟨7, ![256, 16, 8, 2, 8, 2, 64]⟩
abbrev S_ : Shape := ⟨0, ![]⟩
abbrev S256x16x8x8x64 : Shape := ⟨5, ![256, 16, 8, 8, 64]⟩
abbrev S256x16x64x64 : Shape := ⟨4, ![256, 16, 64, 64]⟩
abbrev S256x16x64 : Shape := ⟨3, ![256, 16, 64]⟩
abbrev S64x64 : Shape := ⟨2, ![64, 64]⟩
abbrev S1x1x64x64 : Shape := ⟨4, ![1, 1, 64, 64]⟩
abbrev S256x16x256x1 : Shape := ⟨4, ![256, 16, 256, 1]⟩
abbrev S256x16x256x65 : Shape := ⟨4, ![256, 16, 256, 65]⟩
abbrev S256x16x64x256 : Shape := ⟨4, ![256, 16, 64, 256]⟩
abbrev S256x16x64x65 : Shape := ⟨4, ![256, 16, 64, 65]⟩

abbrev nBuf : Space → Nat
  | .hbm => 239
  | .vmem => 0
  | .smem => 0
  | _ => 0

abbrev hbmTy0_0 (i : Nat) : BufTy := match i % 128 with
  | 0 => ⟨S256x16x256x64, .f32⟩
  | 1 => ⟨S256x16x256x64, .f32⟩
  | 2 => ⟨S256x16x256x64, .f32⟩
  | 3 => ⟨S256x16x8x2x8x2x64, .f32⟩
  | 4 => ⟨S_, .f32⟩
  | 5 => ⟨S256x16x8x8x64, .f32⟩
  | 6 => ⟨S_, .f32⟩
  | 7 => ⟨S256x16x8x8x64, .f32⟩
  | 8 => ⟨S256x16x8x8x64, .f32⟩
  | 9 => ⟨S256x16x64x64, .f32⟩
  | 10 => ⟨S256x16x8x2x8x2x64, .f32⟩
  | 11 => ⟨S_, .f32⟩
  | 12 => ⟨S256x16x8x8x64, .f32⟩
  | 13 => ⟨S_, .f32⟩
  | 14 => ⟨S256x16x8x8x64, .f32⟩
  | 15 => ⟨S256x16x8x8x64, .f32⟩
  | 16 => ⟨S256x16x64x64, .f32⟩
  | 17 => ⟨S256x16x64x64, .f32⟩
  | 18 => ⟨S_, .f32⟩
  | 19 => ⟨S256x16x64x64, .f32⟩
  | 20 => ⟨S256x16x64x64, .f32⟩
  | 21 => ⟨S256x16x64x64, .f32⟩
  | 22 => ⟨S_, .f32⟩
  | 23 => ⟨S256x16x64x64, .f32⟩
  | 24 => ⟨S256x16x64x64, .f32⟩
  | 25 => ⟨S_, .f32⟩
  | 26 => ⟨S256x16x64x64, .f32⟩
  | 27 => ⟨S256x16x64x64, .f32⟩
  | 28 => ⟨S256x16x64x64, .f32⟩
  | 29 => ⟨S256x16x64x64, .f32⟩
  | 30 => ⟨S_, .f32⟩
  | 31 => ⟨S256x16x64, .f32⟩
  | 32 => ⟨S_, .f32⟩
  | 33 => ⟨S256x16x64, .f32⟩
  | 34 => ⟨S256x16x64x64, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S256x16x64x64, .f32⟩
  | 43 => ⟨S256x16x64x64, .f32⟩
  | 44 => ⟨S64x64, .i32⟩
  | 45 => ⟨S64x64, .i32⟩
  | 46 => ⟨S_, .i32⟩
  | 47 => ⟨S64x64, .i32⟩
  | 48 => ⟨S64x64, .i32⟩
  | 49 => ⟨S64x64, .i1⟩
  | 50 => ⟨S64x64, .f32⟩
  | 51 => ⟨S256x16x64x64, .f32⟩
  | 52 => ⟨S_, .f32⟩
  | 53 => ⟨S256x16x64x64, .f32⟩
  | 54 => ⟨S256x16x64x64, .f32⟩
  | 55 => ⟨S_, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S1x1x64x64, .f32⟩
  | 65 => ⟨S256x16x64x64, .f32⟩
  | 66 => ⟨S256x16x64x64, .f32⟩
  | 67 => ⟨S256x16x64x64, .f32⟩
  | 68 => ⟨S1x1x64x64, .f32⟩
  | 69 => ⟨S256x16x64x64, .f32⟩
  | 70 => ⟨S256x16x64x64, .f32⟩
  | 71 => ⟨S256x16x64x64, .f32⟩
  | 72 => ⟨S1x1x64x64, .f32⟩
  | 73 => ⟨S256x16x64x64, .f32⟩
  | 74 => ⟨S256x16x64x64, .f32⟩
  | 75 => ⟨S256x16x64x64, .f32⟩
  | 76 => ⟨S256x16x64x64, .f32⟩
  | 77 => ⟨S_, .f32⟩
  | 78 => ⟨S256x16x64x64, .f32⟩
  | 79 => ⟨S256x16x64x64, .f32⟩
  | 80 => ⟨S_, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S1x1x64x64, .f32⟩
  | 90 => ⟨S256x16x64x64, .f32⟩
  | 91 => ⟨S256x16x64x64, .f32⟩
  | 92 => ⟨S256x16x64x64, .f32⟩
  | 93 => ⟨S1x1x64x64, .f32⟩
  | 94 => ⟨S256x16x64x64, .f32⟩
  | 95 => ⟨S256x16x64x64, .f32⟩
  | 96 => ⟨S256x16x64x64, .f32⟩
  | 97 => ⟨S1x1x64x64, .f32⟩
  | 98 => ⟨S256x16x64x64, .f32⟩
  | 99 => ⟨S256x16x64x64, .f32⟩
  | 100 => ⟨S256x16x64x64, .f32⟩
  | 101 => ⟨S256x16x64x64, .f32⟩
  | 102 => ⟨S_, .f32⟩
  | 103 => ⟨S256x16x64x64, .f32⟩
  | 104 => ⟨S256x16x64x64, .f32⟩
  | 105 => ⟨S_, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S_, .f32⟩
  | 112 => ⟨S64x64, .f32⟩
  | 113 => ⟨S64x64, .f32⟩
  | 114 => ⟨S1x1x64x64, .f32⟩
  | 115 => ⟨S256x16x64x64, .f32⟩
  | 116 => ⟨S256x16x64x64, .f32⟩
  | 117 => ⟨S256x16x64x64, .f32⟩
  | 118 => ⟨S1x1x64x64, .f32⟩
  | 119 => ⟨S256x16x64x64, .f32⟩
  | 120 => ⟨S256x16x64x64, .f32⟩
  | 121 => ⟨S256x16x64x64, .f32⟩
  | 122 => ⟨S1x1x64x64, .f32⟩
  | 123 => ⟨S256x16x64x64, .f32⟩
  | 124 => ⟨S256x16x64x64, .f32⟩
  | 125 => ⟨S256x16x64x64, .f32⟩
  | 126 => ⟨S256x16x64x64, .f32⟩
  | 127 => ⟨S_, .f32⟩
  | _ => ⟨S256x16x256x64, .f32⟩

abbrev hbmTy0_1 (i : Nat) : BufTy := match i % 128 with
  | 0 => ⟨S256x16x64x64, .f32⟩
  | 1 => ⟨S256x16x64x64, .f32⟩
  | 2 => ⟨S_, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S1x1x64x64, .f32⟩
  | 12 => ⟨S256x16x64x64, .f32⟩
  | 13 => ⟨S256x16x64x64, .f32⟩
  | 14 => ⟨S256x16x64x64, .f32⟩
  | 15 => ⟨S1x1x64x64, .f32⟩
  | 16 => ⟨S256x16x64x64, .f32⟩
  | 17 => ⟨S256x16x64x64, .f32⟩
  | 18 => ⟨S256x16x64x64, .f32⟩
  | 19 => ⟨S1x1x64x64, .f32⟩
  | 20 => ⟨S256x16x64x64, .f32⟩
  | 21 => ⟨S256x16x64x64, .f32⟩
  | 22 => ⟨S256x16x64x64, .f32⟩
  | 23 => ⟨S256x16x64x64, .f32⟩
  | 24 => ⟨S_, .f32⟩
  | 25 => ⟨S256x16x64x64, .f32⟩
  | 26 => ⟨S256x16x64x64, .f32⟩
  | 27 => ⟨S_, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S1x1x64x64, .f32⟩
  | 37 => ⟨S256x16x64x64, .f32⟩
  | 38 => ⟨S256x16x64x64, .f32⟩
  | 39 => ⟨S256x16x64x64, .f32⟩
  | 40 => ⟨S1x1x64x64, .f32⟩
  | 41 => ⟨S256x16x64x64, .f32⟩
  | 42 => ⟨S256x16x64x64, .f32⟩
  | 43 => ⟨S256x16x64x64, .f32⟩
  | 44 => ⟨S1x1x64x64, .f32⟩
  | 45 => ⟨S256x16x64x64, .f32⟩
  | 46 => ⟨S256x16x64x64, .f32⟩
  | 47 => ⟨S256x16x64x64, .f32⟩
  | 48 => ⟨S256x16x64x64, .f32⟩
  | 49 => ⟨S_, .f32⟩
  | 50 => ⟨S256x16x64x64, .f32⟩
  | 51 => ⟨S256x16x64x64, .f32⟩
  | 52 => ⟨S_, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S1x1x64x64, .f32⟩
  | 62 => ⟨S256x16x64x64, .f32⟩
  | 63 => ⟨S256x16x64x64, .f32⟩
  | 64 => ⟨S256x16x64x64, .f32⟩
  | 65 => ⟨S1x1x64x64, .f32⟩
  | 66 => ⟨S256x16x64x64, .f32⟩
  | 67 => ⟨S256x16x64x64, .f32⟩
  | 68 => ⟨S256x16x64x64, .f32⟩
  | 69 => ⟨S1x1x64x64, .f32⟩
  | 70 => ⟨S256x16x64x64, .f32⟩
  | 71 => ⟨S256x16x64x64, .f32⟩
  | 72 => ⟨S256x16x64x64, .f32⟩
  | 73 => ⟨S256x16x256x1, .f32⟩
  | 74 => ⟨S_, .f32⟩
  | 75 => ⟨S256x16x256x1, .f32⟩
  | 76 => ⟨S256x16x256x65, .f32⟩
  | 77 => ⟨S256x16x64x256, .f32⟩
  | 78 => ⟨S_, .f32⟩
  | 79 => ⟨S256x16x64x256, .f32⟩
  | 80 => ⟨S256x16x64x256, .f32⟩
  | 81 => ⟨S256x16x64x256, .f32⟩
  | 82 => ⟨S_, .f32⟩
  | 83 => ⟨S256x16x64x256, .f32⟩
  | 84 => ⟨S256x16x64x256, .f32⟩
  | 85 => ⟨S_, .f32⟩
  | 86 => ⟨S256x16x64x256, .f32⟩
  | 87 => ⟨S256x16x64x256, .f32⟩
  | 88 => ⟨S256x16x64x256, .f32⟩
  | 89 => ⟨S256x16x64x65, .f32⟩
  | 90 => ⟨S256x16x256x64, .f32⟩
  | 91 => ⟨S_, .f32⟩
  | 92 => ⟨S256x16x256x64, .f32⟩
  | 93 => ⟨S256x16x256x64, .f32⟩
  | 94 => ⟨S256x16x256x64, .f32⟩
  | 95 => ⟨S_, .f32⟩
  | 96 => ⟨S256x16x256x64, .f32⟩
  | 97 => ⟨S256x16x256x64, .f32⟩
  | 98 => ⟨S_, .f32⟩
  | 99 => ⟨S256x16x256x64, .f32⟩
  | 100 => ⟨S256x16x256x64, .f32⟩
  | 101 => ⟨S256x16x256x64, .f32⟩
  | 102 => ⟨S256x16x256x64, .f32⟩
  | 103 => ⟨S256x16x256x65, .f32⟩
  | 104 => ⟨S256x16x256x64, .f32⟩
  | 105 => ⟨S256x16x256x1, .f32⟩
  | 106 => ⟨S_, .f32⟩
  | 107 => ⟨S256x16x256x1, .f32⟩
  | 108 => ⟨S256x16x256x1, .f32⟩
  | 109 => ⟨S256x16x256x64, .f32⟩
  | 110 => ⟨S256x16x256x64, .f32⟩
  | _ => ⟨S256x16x256x64, .f32⟩

abbrev hbmTy (i : Nat) : BufTy := match i / 128 with
  | 0 => hbmTy0_0 i
  | 1 => hbmTy0_1 i
  | _ => ⟨S256x16x256x64, .f32⟩

abbrev bufTy : (tb : Table) → Fin (tcTables nBuf tb) → BufTy
  | .hbm, ⟨i, _⟩ => hbmTy i
  | _, _ => ⟨S256x16x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_cst_21 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_cst_23 : Ref sig .tc := ⟨.hbm, 130, rfl⟩
abbrev main_v100 : Ref sig .tc := ⟨.hbm, 131, rfl⟩
abbrev main_v101 : Ref sig .tc := ⟨.hbm, 132, rfl⟩
abbrev main_cst_24 : Ref sig .tc := ⟨.hbm, 133, rfl⟩
abbrev main_v102 : Ref sig .tc := ⟨.hbm, 134, rfl⟩
abbrev main_v103 : Ref sig .tc := ⟨.hbm, 135, rfl⟩
abbrev main_cst_25 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_26 : Ref sig .tc := ⟨.hbm, 152, rfl⟩
abbrev main_v119 : Ref sig .tc := ⟨.hbm, 153, rfl⟩
abbrev main_v120 : Ref sig .tc := ⟨.hbm, 154, rfl⟩
abbrev main_cst_27 : Ref sig .tc := ⟨.hbm, 155, rfl⟩
abbrev main_v121 : Ref sig .tc := ⟨.hbm, 156, rfl⟩
abbrev main_v122 : Ref sig .tc := ⟨.hbm, 157, rfl⟩
abbrev main_cst_28 : Ref sig .tc := ⟨.hbm, 158, rfl⟩
abbrev main_v123 : Ref sig .tc := ⟨.hbm, 159, rfl⟩
abbrev main_v124 : Ref sig .tc := ⟨.hbm, 160, rfl⟩
abbrev main_cst_29 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_30 : Ref sig .tc := ⟨.hbm, 177, rfl⟩
abbrev main_v140 : Ref sig .tc := ⟨.hbm, 178, rfl⟩
abbrev main_v141 : Ref sig .tc := ⟨.hbm, 179, rfl⟩
abbrev main_cst_31 : Ref sig .tc := ⟨.hbm, 180, rfl⟩
abbrev main_v142 : Ref sig .tc := ⟨.hbm, 181, rfl⟩
abbrev main_v143 : Ref sig .tc := ⟨.hbm, 182, rfl⟩
abbrev main_cst_32 : Ref sig .tc := ⟨.hbm, 183, rfl⟩
abbrev main_v144 : Ref sig .tc := ⟨.hbm, 184, rfl⟩
abbrev main_v145 : Ref sig .tc := ⟨.hbm, 185, rfl⟩
abbrev main_cst_33 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_34 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_35 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_36 : Ref sig .tc := ⟨.hbm, 210, rfl⟩
abbrev main_v167 : Ref sig .tc := ⟨.hbm, 211, rfl⟩
abbrev main_v168 : Ref sig .tc := ⟨.hbm, 212, rfl⟩
abbrev main_call1_cst : Ref sig .tc := ⟨.hbm, 213, rfl⟩
abbrev main_call1_v0 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_37 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_38 : Ref sig .tc := ⟨.hbm, 223, rfl⟩
abbrev main_v176 : Ref sig .tc := ⟨.hbm, 224, rfl⟩
abbrev main_v177 : Ref sig .tc := ⟨.hbm, 225, rfl⟩
abbrev main_call2_cst : Ref sig .tc := ⟨.hbm, 226, rfl⟩
abbrev main_call2_v0 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_39 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩

abbrev nD : Nat := 1
abbrev τ : Topo := Topo.v7x

variable {F : FTy → Type} [FloatOps F]

class Facts₀ : Prop where
  shapeCasts_S256x16x256x64_S256x16x8x2x8x2x64 : S256x16x256x64.ShapeCasts S256x16x8x2x8x2x64
  reducesTo_S256x16x8x2x8x2x64_S256x16x8x8x64_d3_5 : S256x16x8x2x8x2x64.ReducesTo [3, 5] S256x16x8x8x64
  h_S_ : 0 < S_.numel
  bcast_S_S256x16x8x8x64 : S_.BroadcastsInDim S256x16x8x8x64 (![] : Fin 0 → Fin S256x16x8x8x64.rank)
  shapeCasts_S256x16x8x8x64_S256x16x64x64 : S256x16x8x8x64.ShapeCasts S256x16x64x64
  bcast_S_S256x16x64x64 : S_.BroadcastsInDim S256x16x64x64 (![] : Fin 0 → Fin S256x16x64x64.rank)
  reducesTo_S256x16x64x64_S256x16x64_d3 : S256x16x64x64.ReducesTo [3] S256x16x64
  reducesTo_S256x16x64x64_S256x16x64_d2 : S256x16x64x64.ReducesTo [2] S256x16x64
  transposes_S256x16x64x64_S256x16x64x64_0_1_3_2 : S256x16x64x64.Transposes [0, 1, 3, 2] S256x16x64x64
  reducesTo_S256x16x64_S_d0_1_2 : S256x16x64.ReducesTo [0, 1, 2] S_
  bcast_S_S64x64 : S_.BroadcastsInDim S64x64 (![] : Fin 0 → Fin S64x64.rank)
  bcast_S64x64_S1x1x64x64_2_3 : S64x64.BroadcastsInDim S1x1x64x64 (![2, 3] : Fin 2 → Fin S1x1x64x64.rank)
  bcast_S1x1x64x64_S256x16x64x64_0_1_2_3 : S1x1x64x64.BroadcastsInDim S256x16x64x64 (![0, 1, 2, 3] : Fin 4 → Fin S256x16x64x64.rank)
  slices_S256x16x256x64_S256x16x256x1_0_0_0_0 : S256x16x256x64.Slices ![0, 0, 0, 0] S256x16x256x1
  bcast_S_S256x16x256x1 : S_.BroadcastsInDim S256x16x256x1 (![] : Fin 0 → Fin S256x16x256x1.rank)
  concatenates_S256x16x256x64_S256x16x256x1_S256x16x256x65_d3 : Shape.Concatenates [S256x16x256x64, S256x16x256x1] S256x16x256x65 3
  bcast_S_S256x16x64x256 : S_.BroadcastsInDim S256x16x64x256 (![] : Fin 0 → Fin S256x16x64x256.rank)
  bcast_S_S256x16x256x64 : S_.BroadcastsInDim S256x16x256x64 (![] : Fin 0 → Fin S256x16x256x64.rank)
  slices_S256x16x256x65_S256x16x256x64_0_0_0_0 : S256x16x256x65.Slices ![0, 0, 0, 0] S256x16x256x64
  slices_S256x16x256x65_S256x16x256x1_0_0_0_64 : S256x16x256x65.Slices ![0, 0, 0, 64] S256x16x256x1
  bcast_S256x16x256x1_S256x16x256x64_0_1_2_3 : S256x16x256x1.BroadcastsInDim S256x16x256x64 (![0, 1, 2, 3] : Fin 4 → Fin S256x16x256x64.rank)
  dot_S256x16x64x64_S256x16x64x64_S256x16x64x64_3_3_2_2_01_01_wf : DotDims.WF S256x16x64x64 S256x16x64x64 S256x16x64x64 [3] [3] [2] [2] [0, 1] [0, 1]
  dot_S256x16x64x64_S256x16x64x64_S256x16x64x64_3_2_2_3_01_01_wf : DotDims.WF S256x16x64x64 S256x16x64x64 S256x16x64x64 [3] [2] [2] [3] [0, 1] [0, 1]
  dot_S256x16x64x64_S256x16x256x64_S256x16x64x256_3_3_2_2_01_01_wf : DotDims.WF S256x16x64x64 S256x16x256x64 S256x16x64x256 [3] [3] [2] [2] [0, 1] [0, 1]
  dot_S256x16x64x256_S256x16x256x65_S256x16x64x65_3_2_2_3_01_01_wf : DotDims.WF S256x16x64x256 S256x16x256x65 S256x16x64x65 [3] [2] [2] [3] [0, 1] [0, 1]
  dot_S256x16x256x64_S256x16x64x64_S256x16x256x64_3_3_2_2_01_01_wf : DotDims.WF S256x16x256x64 S256x16x64x64 S256x16x256x64 [3] [3] [2] [2] [0, 1] [0, 1]
  dot_S256x16x256x64_S256x16x64x64_S256x16x256x64_3_2_2_3_01_01_wf : DotDims.WF S256x16x256x64 S256x16x64x64 S256x16x256x64 [3] [2] [2] [3] [0, 1] [0, 1]
  dot_S256x16x256x64_S256x16x64x65_S256x16x256x65_3_2_2_3_01_01_wf : DotDims.WF S256x16x256x64 S256x16x64x65 S256x16x256x65 [3] [2] [2] [3] [0, 1] [0, 1]

variable [Facts₀]

def dot_S256x16x64x64_S256x16x64x64_S256x16x64x64_3_3_2_2_01_01 : DotDims S256x16x64x64 S256x16x64x64 S256x16x64x64 where
  lhsContracting := [3]
  rhsContracting := [3]
  lhsNonContracting := [2]
  rhsNonContracting := [2]
  lhsBatch := [0, 1]
  rhsBatch := [0, 1]
  wf := dot_S256x16x64x64_S256x16x64x64_S256x16x64x64_3_3_2_2_01_01_wf
def dot_S256x16x64x64_S256x16x64x64_S256x16x64x64_3_2_2_3_01_01 : DotDims S256x16x64x64 S256x16x64x64 S256x16x64x64 where
  lhsContracting := [3]
  rhsContracting := [2]
  lhsNonContracting := [2]
  rhsNonContracting := [3]
  lhsBatch := [0, 1]
  rhsBatch := [0, 1]
  wf := dot_S256x16x64x64_S256x16x64x64_S256x16x64x64_3_2_2_3_01_01_wf
def dot_S256x16x64x64_S256x16x256x64_S256x16x64x256_3_3_2_2_01_01 : DotDims S256x16x64x64 S256x16x256x64 S256x16x64x256 where
  lhsContracting := [3]
  rhsContracting := [3]
  lhsNonContracting := [2]
  rhsNonContracting := [2]
  lhsBatch := [0, 1]
  rhsBatch := [0, 1]
  wf := dot_S256x16x64x64_S256x16x256x64_S256x16x64x256_3_3_2_2_01_01_wf
def dot_S256x16x64x256_S256x16x256x65_S256x16x64x65_3_2_2_3_01_01 : DotDims S256x16x64x256 S256x16x256x65 S256x16x64x65 where
  lhsContracting := [3]
  rhsContracting := [2]
  lhsNonContracting := [2]
  rhsNonContracting := [3]
  lhsBatch := [0, 1]
  rhsBatch := [0, 1]
  wf := dot_S256x16x64x256_S256x16x256x65_S256x16x64x65_3_2_2_3_01_01_wf
def dot_S256x16x256x64_S256x16x64x64_S256x16x256x64_3_3_2_2_01_01 : DotDims S256x16x256x64 S256x16x64x64 S256x16x256x64 where
  lhsContracting := [3]
  rhsContracting := [3]
  lhsNonContracting := [2]
  rhsNonContracting := [2]
  lhsBatch := [0, 1]
  rhsBatch := [0, 1]
  wf := dot_S256x16x256x64_S256x16x64x64_S256x16x256x64_3_3_2_2_01_01_wf
def dot_S256x16x256x64_S256x16x64x64_S256x16x256x64_3_2_2_3_01_01 : DotDims S256x16x256x64 S256x16x64x64 S256x16x256x64 where
  lhsContracting := [3]
  rhsContracting := [2]
  lhsNonContracting := [2]
  rhsNonContracting := [3]
  lhsBatch := [0, 1]
  rhsBatch := [0, 1]
  wf := dot_S256x16x256x64_S256x16x64x64_S256x16x256x64_3_2_2_3_01_01_wf
def dot_S256x16x256x64_S256x16x64x65_S256x16x256x65_3_2_2_3_01_01 : DotDims S256x16x256x64 S256x16x64x65 S256x16x256x65 where
  lhsContracting := [3]
  rhsContracting := [2]
  lhsNonContracting := [2]
  rhsNonContracting := [3]
  lhsBatch := [0, 1]
  rhsBatch := [0, 1]
  wf := dot_S256x16x256x64_S256x16x64x65_S256x16x256x65_3_2_2_3_01_01_wf

class Facts : Prop extends Facts₀ where

variable [Facts]
-- ==== Proof.KRun.lean ====
/-
  The idealized kernel program, run whole, with its RESULT kept.

  @main is five stretches in order: host operations (reshapes, the 2 x 2 averaging, casts), the first kernel region
  (the landmark kernel, 32 blocks of 128 heads), host operations (absolute values, row and column sums, their maxima, the
  seed, the appended column of ones, casts), the second region (the iteration and the attention products, 256 blocks of
  16 heads), and one closing reshape. The generated frame certificate folds the buffers' contents through these five
  stretches — `Gen.W5 m ρ c` is what every buffer holds at the end, as a function of the launch memory — and
  shows every fair execution ends, faultless, with EVERY unscoped buffer at that fold; it then keeps only the three
  argument buffers. Here the same run is stated keeping the result buffer too: the final memory holds
  `Gen.W5 m ρ c` at `main_v33`. What that value IS, as a function of the arguments, is read off the fold elsewhere.
-/
import proofs.«114225_j21509196218786_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's value and the
    three arguments as launched. -/
theorem run : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end
-- ==== Proof.Spec.lean ====
/-
  One batch element of landmark attention with an iterated pseudo-inverse, on the extended reals.

  For one head the inputs are three 256 x 64 matrices q, k, v (256 = a 16 x 16 window of positions, 64 features).
  Averaging the positions over 2 x 2 patches gives 64 landmarks, hence the 64 x 64 matrices qm, km. With
  act x = exp (min x 5) + max (x - 5) 0 applied entry by entry,
      x    = act (qm kmᵀ)                        the landmark-landmark kernel            64 x 64
      z₀   = xᵀ / d                              d one positive scalar shared by every head
      zₙ₊₁ = ¼ zₙ (13 I - x zₙ (15 I - x zₙ (7 I - x zₙ)))    six times: the pseudo-inverse of x
      out  = the first 64 columns of P divided by (its last column + ε),
             P = act (q kmᵀ) z₆ (act (qm kᵀ) [v | 1])                                    256 x 65.
  The two programs differ in ONE place: where the factor ¼ of an iteration sits. One multiplies the product
  zₙ T by ¼ ("stepK" below), the other multiplies zₙ by ¼ before the product ("stepR"). On the extended reals
  a nonnegative REAL factor distributes over any finite sum — `c (a + b) = c a + c b` holds for `0 ≤ c < ∞`
  whatever a and b are, infinite or not — so the two steps are one function (`stepR_eq_stepK`), and no
  finiteness of the inputs is needed.
-/
import Idealize.ShloMosaic.PureOps.Ideal
import Idealize.ShloMosaic.PureOps.Ideal.Laws
import Idealize.ShloMosaic.Lib.ValueIdx

noncomputable section

namespace Cert.Landmark

open Idealize.ShloMosaic Idealize.ShloMosaic.ValueIdx

/-- An `a x b` matrix of extended reals. -/
abbrev Mat (a b : ℕ) := Fin a → Fin b → EReal

/-- The extended real an f32 word denotes. -/
abbrev W (b : BitVec 32) : EReal := Ideal.ofBits .f32 b

/-- The slice of a rank-3 array at one value of its leading (batch) coordinate. -/
def sl3 {a r c : ℕ} (X : (⟨3, ![a, r, c]⟩ : Shape).Idx → EReal) (β : Fin a) : Mat r c := fun i j => X (ix3 β i j)

/-- The slice of a rank-4 array at one value of its two leading (batch) coordinates. -/
def sl4 {a a' r c : ℕ} (X : (⟨4, ![a, a', r, c]⟩ : Shape).Idx → EReal) (β : Fin a) (β' : Fin a') : Mat r c :=
  fun i j => X (ix4 β β' i j)

/-- exp (min x 5) + max (x - 5) 0: exponential up to the threshold 5, linear beyond it. -/
def act (x : EReal) : EReal := Ideal.exp (min x (W 0x40A00000#32)) + max (x - W 0x40A00000#32) (W 0x00000000#32)

def actM {a b : ℕ} (A : Mat a b) : Mat a b := fun i j => act (A i j)

/-- The product A B. -/
def mm {a n b : ℕ} (A : Mat a n) (B : Mat n b) : Mat a b := fun i j => ∑ k : Fin n, A i k * B k j

/-- The product A Bᵀ (both last axes contracted). -/
def mmT {a n b : ℕ} (A : Mat a n) (B : Mat b n) : Mat a b := fun i j => ∑ k : Fin n, A i k * B j k

/-- The identity matrix. -/
def eye : Mat 64 64 := fun i j => if i = j then 1 else 0

/-- c I - A, the scalar c given by its f32 word. -/
def cIsub (c : BitVec 32) (A : Mat 64 64) : Mat 64 64 := fun i j => W c * eye i j - A i j

/-- 13 I - x z (15 I - x z (7 I - x z)). -/
def nsT (x z : Mat 64 64) : Mat 64 64 :=
  cIsub 0x41500000#32 (mm (mm x z) (cIsub 0x41700000#32 (mm (mm x z) (cIsub 0x40E00000#32 (mm x z)))))

/-- One iteration with the factor ¼ on the product: ¼ (z T). -/
def stepK (x z : Mat 64 64) : Mat 64 64 := fun i j => W 0x3E800000#32 * mm z (nsT x z) i j

/-- One iteration with the factor ¼ on z: (¼ z) T. -/
def stepR (x z : Mat 64 64) : Mat 64 64 := mm (fun i j => W 0x3E800000#32 * z i j) (nsT x z)

/-- Six iterations of a step from the seed z₀. -/
def iter6 (step : Mat 64 64 → Mat 64 64 → Mat 64 64) (x z0 : Mat 64 64) : Mat 64 64 :=
  step x (step x (step x (step x (step x (step x z0)))))

/-- The landmark-landmark kernel act (qm kmᵀ). -/
def temp (qm km : Mat 64 64) : Mat 64 64 := actM (mmT qm km)

/-- The seed xᵀ / d. -/
def seed (x : Mat 64 64) (d : EReal) : Mat 64 64 := fun i j => Ideal.div (x j i) d

/-- [v | 1]: a column of ones appended. -/
def withOnes (v : Mat 256 64) : Mat 256 65 := fun n e => if h : e.val < 64 then v n ⟨e.val, h⟩ else W 0x3F800000#32

/-- The output for one head from the pseudo-inverse `pinv`: with P = act (q kmᵀ) pinv (act (qm kᵀ) v1), entry (n, e) is
    P n e / (P n 64 + ε). -/
def attn (pinv : Mat 64 64) (q k : Mat 256 64) (v1 : Mat 256 65) (qm km : Mat 64 64) : Mat 256 64 := fun n e =>
  Ideal.div (mm (mm (actM (mmT q km)) pinv) (mm (actM (mmT qm k)) v1) n (Fin.castSucc e))
    (mm (mm (actM (mmT q km)) pinv) (mm (actM (mmT qm k)) v1) n (Fin.last 64) + W 0x2B8CBCCC#32)

/-! ## The words 0, 1 and ¼ -/

theorem W_zero : W 0x00000000#32 = 0 := Ideal.ofBits_zero_f32

theorem W_one : W 0x3F800000#32 = 1 := by
  simp [Ideal.ofBits, Ideal.ieee]
  norm_cast
  norm_num

theorem W_quarter : W 0x3E800000#32 = ((1 / 4 : ℝ) : EReal) := by
  simp [Ideal.ofBits, Ideal.ieee]
  norm_cast
  norm_num

/-! ## The factor ¼ may sit on either side of the product -/

/-- A nonnegative real factor distributes over a finite sum of extended reals, whatever the terms: for
    `0 ≤ c < ∞`, `c (a + b) = c a + c b` holds also when a and b are infinite of either sign. -/
theorem mul_sum_of_nonneg {ι : Type*} (s : Finset ι) {c : EReal} (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- (¼ z) T = ¼ (z T), entry by entry: ¼ moves out of each term by associativity and out of the sum because it is a
    nonnegative real. -/
theorem stepR_eq_stepK : stepR = stepK := by
  funext x z i j
  have h0 : (0 : EReal) ≤ W 0x3E800000#32 := by rw [W_quarter]; exact EReal.coe_nonneg.mpr (by norm_num)
  have h1 : W 0x3E800000#32 ≠ ⊤ := by rw [W_quarter]; exact EReal.coe_ne_top _
  show (∑ k : Fin 64, (W 0x3E800000#32 * z i k) * nsT x z k j) = W 0x3E800000#32 * ∑ k : Fin 64, z i k * nsT x z k j
  rw [mul_sum_of_nonneg _ h0 h1]
  exact Finset.sum_congr rfl fun k _ => mul_assoc _ _ _

theorem iter6_stepR_eq : iter6 stepR = iter6 stepK := by rw [stepR_eq_stepK]

end Cert.Landmark

end
-- ==== Proof.KHost.lean ====
/-
  The host side of the kernel program, as functions of arrays.

  Between its two kernel regions the program works on arrays whose 256 x 16 heads are laid out along ONE axis of 4096:
  head (b, h) sits at 16 b + h. Named here, one function per stretch of host operations, are: the flattening of the two
  head axes; the 2 x 2 averaging of the 256 = 16 x 16 positions down to 64 landmarks (positions regrouped as
  8 x 2 x 8 x 2, summed over the two axes of size 2, divided by 4); the scalar d = (largest row sum of |x|) x (largest column
  sum of |x|) + 1e-15, taken over ALL heads at once; the seed xᵀ / d; and the column of ones appended to v. Each is
  literally the program's own composition of operations, so that the value a buffer holds after a stretch is one of these
  functions of the buffers before it by unfolding alone.
-/
import proofs.«114225_j21509196218786_1_alg».proof.KernelIdeal
import proofs.«114225_j21509196218786_1_alg».proof.Proof.Gen.KernelIdeal
import proofs.«114225_j21509196218786_1_alg».proof.Proof.Spec

noncomputable section

namespace Cert.Landmark.KHost

open Cert.KernelIdeal Cert.KernelIdeal.Facts₀ Idealize.ShloMosaic

variable {F : FTy → Type} [FloatOps F]

/-- Head (b, h) of 256 x 16 along the flattened axis: 16 b + h. -/
def bh (b : Fin 256) (h : Fin 16) : Fin 4096 := ⟨16 * b.val + h.val, by have := b.isLt; have := h.isLt; omega⟩

/-- [256,16,256,64] laid out as [4096,256,64]. -/
def flat (x : FVec F S256x16x256x64 .f32) : FVec F S4096x256x64 .f32 :=
  shapeCast _ x shapeCasts_S256x16x256x64_S4096x256x64

/-- [4096,256,64] laid back out as [256,16,256,64]. -/
def unflat (x : FVec F S4096x256x64 .f32) : FVec F S256x16x256x64 .f32 :=
  shapeCast _ x shapeCasts_S4096x256x64_S256x16x256x64

/-- The 2 x 2 averaging of positions: [4096,256,64] to [4096,64,64]. -/
def pooled (x : FVec F S4096x256x64 .f32) : FVec F S4096x64x64 .f32 :=
  shapeCast _ (Host.divf
      (Host.reduceAdd (shapeCast _ x shapeCasts_S4096x256x64_S4096x8x2x8x2x64) (constant S_ .f32 0x00000000#32)
        reducesTo_S4096x8x2x8x2x64_S4096x8x8x64_d2_4 h_S_)
      (broadcastInDim S4096x8x8x64 ![] bcast_S_S4096x8x8x64 (constant S_ .f32 0x40800000#32)))
    shapeCasts_S4096x8x8x64_S4096x64x64

/-- The sums of |x| along the last axis, [4096,64]. -/
def absSumLast (t : FVec F S4096x64x64 .f32) : FVec F S4096x64 .f32 :=
  Host.reduceAdd (Host.absf t) (constant S_ .f32 0x00000000#32) reducesTo_S4096x64x64_S4096x64_d2 h_S_

/-- The sums of |x| along the middle axis, [4096,64]. -/
def absSumMid (t : FVec F S4096x64x64 .f32) : FVec F S4096x64 .f32 :=
  Host.reduceAdd (Host.absf t) (constant S_ .f32 0x00000000#32) reducesTo_S4096x64x64_S4096x64_d1 h_S_

/-- The largest entry of a [4096,64] array, starting from -∞. -/
def maxAll (s : FVec F S4096x64 .f32) : FVec F S_ .f32 :=
  Host.reduce FloatOps.maximumf s (constant S_ .f32 0xFF800000#32) reducesTo_S4096x64_S_d0_1 h_S_

/-- d = max (sums along the last axis) x max (sums along the middle axis) + 1e-15, one scalar for all heads. -/
def denom (t : FVec F S4096x64x64 .f32) : FVec F S_ .f32 :=
  addf (mulf (maxAll (absSumLast t)) (maxAll (absSumMid t))) (constant S_ .f32 0x26901D7D#32)

/-- The seed: every head's matrix transposed, divided by d. -/
def seedArr (t : FVec F S4096x64x64 .f32) : FVec F S4096x64x64 .f32 :=
  Host.divf (transpose S4096x64x64 [0, 2, 1] t transposes_S4096x64x64_S4096x64x64_0_2_1)
    (broadcastInDim S4096x64x64 ![] bcast_S_S4096x64x64 (denom t))

/-- [v | 1]: a last column of ones appended, [4096,256,65]. -/
def onesAppended (x : FVec F S4096x256x64 .f32) : FVec F S4096x256x65 .f32 :=
  concatenate S4096x256x65 2 [⟨S4096x256x64, x⟩, ⟨S4096x256x1, broadcastInDim S4096x256x1 ![] bcast_S_S4096x256x1 (constant S_ .f32 0x3F800000#32)⟩]
    concatenates_S4096x256x64_S4096x256x1_S4096x256x65_d2

end Cert.Landmark.KHost

end
-- ==== Proof.KRead.lean ====
/-
  What each region of the kernel program finds in its operand arrays, read back through the host stretches.

  The frame certificate folds the buffers' contents through @main: `W1` after the first host stretch, `W2` after the first
  region (its output array at what the blocks' write-backs leave, everything else untouched), `W3` after the second host
  stretch, `W4` after the second region, `W5` after the closing reshape. Unfolding one stretch at a time, each buffer a
  region reads is one of the host functions of KHost.lean applied to earlier buffers:
    first region  : the 2 x 2 averages of q and of k (flattened to 4096 heads);
    second region : q, k, [v | 1], the two averages (each cast to bf16 — the identity on the extended reals), the first
                    region's output x, and the seed xᵀ / d;
    the result    : the second region's output laid back out on 256 x 16 heads.
-/
import proofs.«114225_j21509196218786_1_alg».proof.Proof.Gen.KernelIdeal.Frame
import proofs.«114225_j21509196218786_1_alg».proof.Proof.KHost
import Idealize.ShloMosaic.Lib.StableHlo.Run

noncomputable section

namespace Cert.Landmark.KRead

open Cert.KernelIdeal Cert.KernelIdeal.Facts₀ Cert.KernelIdeal.Gen Cert.Landmark.KHost
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## After the first host stretch -/

theorem W1_v0 (c : Dev nD) : W1 m ρ c (Proc.devRef .tc main_v0) = flat (m ((c : Thread nD τ).loc main_arg0)) := by
  show StableHlo.after hostOps0 (W0 m ρ c) (Proc.devRef .tc main_v0) = _
  after_results_simp <;> rfl

theorem W1_v1 (c : Dev nD) : W1 m ρ c (Proc.devRef .tc main_v1) = flat (m ((c : Thread nD τ).loc main_arg1)) := by
  show StableHlo.after hostOps0 (W0 m ρ c) (Proc.devRef .tc main_v1) = _
  after_results_simp <;> rfl

theorem W1_v2 (c : Dev nD) : W1 m ρ c (Proc.devRef .tc main_v2) = flat (m ((c : Thread nD τ).loc main_arg2)) := by
  show StableHlo.after hostOps0 (W0 m ρ c) (Proc.devRef .tc main_v2) = _
  after_results_simp <;> rfl

theorem W1_v7 (c : Dev nD) : W1 m ρ c (Proc.devRef .tc main_v7) = pooled (flat (m ((c : Thread nD τ).loc main_arg0))) := by
  show StableHlo.after hostOps0 (W0 m ρ c) (Proc.devRef .tc main_v7) = _
  after_results_simp <;> rfl

theorem W1_v12 (c : Dev nD) : W1 m ρ c (Proc.devRef .tc main_v12) = pooled (flat (m ((c : Thread nD τ).loc main_arg1))) := by
  show StableHlo.after hostOps0 (W0 m ρ c) (Proc.devRef .tc main_v12) = _
  after_results_simp <;> rfl

/-! ## After the first region: its output array at the write-backs' fold, the rest untouched -/

theorem W2_v13 (c : Dev nD) : W2 m ρ c (Proc.devRef .tc main_v13) = (dat0 (V1 m ρ) c).arrAt 2 cfg0.N := W2_arr m ρ c 2

theorem W2_v0 (c : Dev nD) : W2 m ρ c (Proc.devRef .tc main_v0) = W1 m ρ c (Proc.devRef .tc main_v0) := W2_of_ne m ρ c main_v0 (by decide)
theorem W2_v1 (c : Dev nD) : W2 m ρ c (Proc.devRef .tc main_v1) = W1 m ρ c (Proc.devRef .tc main_v1) := W2_of_ne m ρ c main_v1 (by decide)
theorem W2_v2 (c : Dev nD) : W2 m ρ c (Proc.devRef .tc main_v2) = W1 m ρ c (Proc.devRef .tc main_v2) := W2_of_ne m ρ c main_v2 (by decide)

/-- An input array of the first region is never written back: it ends as entered. -/
theorem W2_v7 (c : Dev nD) : W2 m ρ c (Proc.devRef .tc main_v7) = W1 m ρ c (Proc.devRef .tc main_v7) :=
  (W2_arr m ρ c 0).trans (((dat0 (V1 m ρ) c).arrAt_in 0 rfl _).trans (A_eq0 (V1 m ρ) c 0))
theorem W2_v12 (c : Dev nD) : W2 m ρ c (Proc.devRef .tc main_v12) = W1 m ρ c (Proc.devRef .tc main_v12) :=
  (W2_arr m ρ c 1).trans (((dat0 (V1 m ρ) c).arrAt_in 1 rfl _).trans (A_eq0 (V1 m ρ) c 1))

/-! ## After the second host stretch -/

theorem W3_v27 (c : Dev nD) : W3 m ρ c (Proc.devRef .tc main_v27) = truncf .bf16 (W2 m ρ c (Proc.devRef .tc main_v0)) Facts₀.bitsLt_bf16_f32 := by
  show StableHlo.after hostOps1 (W2 m ρ c) (Proc.devRef .tc main_v27) = _
  after_results_simp <;> rfl
theorem W3_v28 (c : Dev nD) : W3 m ρ c (Proc.devRef .tc main_v28) = truncf .bf16 (W2 m ρ c (Proc.devRef .tc main_v1)) Facts₀.bitsLt_bf16_f32 := by
  show StableHlo.after hostOps1 (W2 m ρ c) (Proc.devRef .tc main_v28) = _
  after_results_simp <;> rfl
theorem W3_v29 (c : Dev nD) : W3 m ρ c (Proc.devRef .tc main_v29) = truncf .bf16 (onesAppended (W2 m ρ c (Proc.devRef .tc main_v2))) Facts₀.bitsLt_bf16_f32 := by
  show StableHlo.after hostOps1 (W2 m ρ c) (Proc.devRef .tc main_v29) = _
  after_results_simp <;> rfl
theorem W3_v30 (c : Dev nD) : W3 m ρ c (Proc.devRef .tc main_v30) = truncf .bf16 (W2 m ρ c (Proc.devRef .tc main_v7)) Facts₀.bitsLt_bf16_f32 := by
  show StableHlo.after hostOps1 (W2 m ρ c) (Proc.devRef .tc main_v30) = _
  after_results_simp <;> rfl
theorem W3_v31 (c : Dev nD) : W3 m ρ c (Proc.devRef .tc main_v31) = truncf .bf16 (W2 m ρ c (Proc.devRef .tc main_v12)) Facts₀.bitsLt_bf16_f32 := by
  show StableHlo.after hostOps1 (W2 m ρ c) (Proc.devRef .tc main_v31) = _
  after_results_simp <;> rfl
theorem W3_v13 (c : Dev nD) : W3 m ρ c (Proc.devRef .tc main_v13) = W2 m ρ c (Proc.devRef .tc main_v13) := by
  show StableHlo.after hostOps1 (W2 m ρ c) (Proc.devRef .tc main_v13) = _
  after_results_simp <;> rfl
theorem W3_v23 (c : Dev nD) : W3 m ρ c (Proc.devRef .tc main_v23) = seedArr (W2 m ρ c (Proc.devRef .tc main_v13)) := by
  show StableHlo.after hostOps1 (W2 m ρ c) (Proc.devRef .tc main_v23) = _
  after_results_simp <;> rfl

/-! ## The result -/

theorem W5_v33 (c : Dev nD) : W5 m ρ c (Proc.devRef .tc main_v33) = unflat ((dat1 (V3 m ρ) c).arrAt 7 cfg1.N) := by
  show StableHlo.after hostOps2 (W4 m ρ c) (Proc.devRef .tc main_v33) = _
  after_results_simp
  rw [show W4 m ρ c (Proc.devRef .tc main_v32) = (dat1 (V3 m ρ) c).arrAt 7 cfg1.N from W4_arr m ρ c 7]
  rfl

end Cert.Landmark.KRead

end
-- ==== Proof.KArr.lean ====
/-
  The two regions' output arrays, each as ONE function of the arrays the region finds.

  A region visits its grid points in order; at point t every operand's block — 128 heads in the first region, 16 in the
  second, all positions and features — is head range [B t, B t + B) of its array, and the body's result is written back to
  the same head range of the output array. So the slice of a block at local head c' is the slice of the array at head
  B t + c' (`blk_slice`), the blocks tile the output array (`cover`), and, the body computing head by head (the two
  hypotheses `hT`, `hB`: what a body leaves in its output block, sliced at a head, is Spec's function of its operand
  blocks sliced at that head), the output array is that function of the operand ARRAYS sliced at each head:
      first region   G0 : head β ↦ temp (qm_β) (km_β)
      second region  G1 : head β ↦ attn (six iterations from the seed z₀_β on x_β) q_β k_β [v|1]_β qm_β km_β.
  Everything is stated at a parameter V, the buffers' contents when the region is entered.
-/
import proofs.«114225_j21509196218786_1_alg».proof.Proof.Gen.KernelIdeal.Frame
import proofs.«114225_j21509196218786_1_alg».proof.Proof.Spec
import Idealize.ShloMosaic.Lib.Pipeline.Value

set_option maxRecDepth 16384

noncomputable section

namespace Cert.Landmark.KArr

open Cert.KernelIdeal Cert.KernelIdeal.Gen Cert.Landmark
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block sits at a grid point: block index (t, 0, 0), decided over the grid -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx1_5 : ∀ t : Fin cfg1.N, win1_5.index t (0 : Fin 3) = t.val ∧ win1_5.index t (1 : Fin 3) = 0 ∧ win1_5.index t (2 : Fin 3) = 0 :=
  (by decide +kernel : ∀ t : Fin grid1.N, _)
theorem idx1_6 : ∀ t : Fin cfg1.N, win1_6.index t (0 : Fin 3) = t.val ∧ win1_6.index t (1 : Fin 3) = 0 ∧ win1_6.index t (2 : Fin 3) = 0 :=
  (by decide +kernel : ∀ t : Fin grid1.N, _)
theorem idx1_7 : ∀ t : Fin cfg1.N, win1_7.index t (0 : Fin 3) = t.val ∧ win1_7.index t (1 : Fin 3) = 0 ∧ win1_7.index t (2 : Fin 3) = 0 :=
  (by decide +kernel : ∀ t : Fin grid1.N, _)

/-- Head 128 t + c' of the first region's point t. -/
def hd0 (t : Fin cfg0.N) (c' : Fin 128) : Fin 4096 :=
  ⟨128 * t.val + c'.val, by have h : t.val < 32 := lt_of_lt_of_eq t.isLt N_0; have := c'.isLt; omega⟩

/-- Head 16 t + c' of the second region's point t. -/
def hd1 (t : Fin cfg1.N) (c' : Fin 16) : Fin 4096 :=
  ⟨16 * t.val + c'.val, by have h : t.val < 256 := lt_of_lt_of_eq t.isLt N_1; have := c'.isLt; omega⟩

/-! ## A block sliced at a local head is the array sliced at the global head -/

theorem blk_slice0_0 (c : Dev nD) (t : Fin cfg0.N) (c' : Fin 128) :
    sl3 (a := 128) (r := 64) (c := 64) (iblk0 V c 0 t) c' = sl3 (a := 4096) (r := 64) (c := 64) (V c (Pipeline.arrRef spec0 0)) (hd0 t c') := by
  funext i j
  show V c (Pipeline.arrRef spec0 0) (((cfg0.win 0).blk t).view.emb (ix3 c' i j)) = V c (Pipeline.arrRef spec0 0) (ix3 (hd0 t c') i j)
  refine congrArg _ ?_
  obtain ⟨e0, e1, e2⟩ := idx0_0 t
  funext a; apply Fin.ext
  match a with
  | ⟨0, _⟩ => show win0_0.index t (0 : Fin 3) * 128 + 1 * c'.val = 128 * t.val + c'.val; omega
  | ⟨1, _⟩ => show win0_0.index t (1 : Fin 3) * 64 + 1 * i.val = i.val; omega
  | ⟨2, _⟩ => show win0_0.index t (2 : Fin 3) * 64 + 1 * j.val = j.val; omega
theorem blk_slice0_1 (c : Dev nD) (t : Fin cfg0.N) (c' : Fin 128) :
    sl3 (a := 128) (r := 64) (c := 64) (iblk0 V c 1 t) c' = sl3 (a := 4096) (r := 64) (c := 64) (V c (Pipeline.arrRef spec0 1)) (hd0 t c') := by
  funext i j
  show V c (Pipeline.arrRef spec0 1) (((cfg0.win 1).blk t).view.emb (ix3 c' i j)) = V c (Pipeline.arrRef spec0 1) (ix3 (hd0 t c') i j)
  refine congrArg _ ?_
  obtain ⟨e0, e1, e2⟩ := idx0_1 t
  funext a; apply Fin.ext
  match a with
  | ⟨0, _⟩ => show win0_1.index t (0 : Fin 3) * 128 + 1 * c'.val = 128 * t.val + c'.val; omega
  | ⟨1, _⟩ => show win0_1.index t (1 : Fin 3) * 64 + 1 * i.val = i.val; omega
  | ⟨2, _⟩ => show win0_1.index t (2 : Fin 3) * 64 + 1 * j.val = j.val; omega
theorem blk_slice1_0 (c : Dev nD) (t : Fin cfg1.N) (c' : Fin 16) :
    sl3 (a := 16) (r := 256) (c := 64) (iblk1 V c 0 t) c' = sl3 (a := 4096) (r := 256) (c := 64) (V c (Pipeline.arrRef spec1 0)) (hd1 t c') := by
  funext i j
  show V c (Pipeline.arrRef spec1 0) (((cfg1.win 0).blk t).view.emb (ix3 c' i j)) = V c (Pipeline.arrRef spec1 0) (ix3 (hd1 t c') i j)
  refine congrArg _ ?_
  obtain ⟨e0, e1, e2⟩ := idx1_0 t
  funext a; apply Fin.ext
  match a with
  | ⟨0, _⟩ => show win1_0.index t (0 : Fin 3) * 16 + 1 * c'.val = 16 * t.val + c'.val; omega
  | ⟨1, _⟩ => show win1_0.index t (1 : Fin 3) * 256 + 1 * i.val = i.val; omega
  | ⟨2, _⟩ => show win1_0.index t (2 : Fin 3) * 64 + 1 * j.val = j.val; omega
theorem blk_slice1_1 (c : Dev nD) (t : Fin cfg1.N) (c' : Fin 16) :
    sl3 (a := 16) (r := 256) (c := 64) (iblk1 V c 1 t) c' = sl3 (a := 4096) (r := 256) (c := 64) (V c (Pipeline.arrRef spec1 1)) (hd1 t c') := by
  funext i j
  show V c (Pipeline.arrRef spec1 1) (((cfg1.win 1).blk t).view.emb (ix3 c' i j)) = V c (Pipeline.arrRef spec1 1) (ix3 (hd1 t c') i j)
  refine congrArg _ ?_
  obtain ⟨e0, e1, e2⟩ := idx1_1 t
  funext a; apply Fin.ext
  match a with
  | ⟨0, _⟩ => show win1_1.index t (0 : Fin 3) * 16 + 1 * c'.val = 16 * t.val + c'.val; omega
  | ⟨1, _⟩ => show win1_1.index t (1 : Fin 3) * 256 + 1 * i.val = i.val; omega
  | ⟨2, _⟩ => show win1_1.index t (2 : Fin 3) * 64 + 1 * j.val = j.val; omega
theorem blk_slice1_2 (c : Dev nD) (t : Fin cfg1.N) (c' : Fin 16) :
    sl3 (a := 16) (r := 256) (c := 65) (iblk1 V c 2 t) c' = sl3 (a := 4096) (r := 256) (c := 65) (V c (Pipeline.arrRef spec1 2)) (hd1 t c') := by
  funext i j
  show V c (Pipeline.arrRef spec1 2) (((cfg1.win 2).blk t).view.emb (ix3 c' i j)) = V c (Pipeline.arrRef spec1 2) (ix3 (hd1 t c') i j)
  refine congrArg _ ?_
  obtain ⟨e0, e1, e2⟩ := idx1_2 t
  funext a; apply Fin.ext
  match a with
  | ⟨0, _⟩ => show win1_2.index t (0 : Fin 3) * 16 + 1 * c'.val = 16 * t.val + c'.val; omega
  | ⟨1, _⟩ => show win1_2.index t (1 : Fin 3) * 256 + 1 * i.val = i.val; omega
  | ⟨2, _⟩ => show win1_2.index t (2 : Fin 3) * 65 + 1 * j.val = j.val; omega
theorem blk_slice1_3 (c : Dev nD) (t : Fin cfg1.N) (c' : Fin 16) :
    sl3 (a := 16) (r := 64) (c := 64) (iblk1 V c 3 t) c' = sl3 (a := 4096) (r := 64) (c := 64) (V c (Pipeline.arrRef spec1 3)) (hd1 t c') := by
  funext i j
  show V c (Pipeline.arrRef spec1 3) (((cfg1.win 3).blk t).view.emb (ix3 c' i j)) = V c (Pipeline.arrRef spec1 3) (ix3 (hd1 t c') i j)
  refine congrArg _ ?_
  obtain ⟨e0, e1, e2⟩ := idx1_3 t
  funext a; apply Fin.ext
  match a with
  | ⟨0, _⟩ => show win1_3.index t (0 : Fin 3) * 16 + 1 * c'.val = 16 * t.val + c'.val; omega
  | ⟨1, _⟩ => show win1_3.index t (1 : Fin 3) * 64 + 1 * i.val = i.val; omega
  | ⟨2, _⟩ => show win1_3.index t (2 : Fin 3) * 64 + 1 * j.val = j.val; omega
theorem blk_slice1_4 (c : Dev nD) (t : Fin cfg1.N) (c' : Fin 16) :
    sl3 (a := 16) (r := 64) (c := 64) (iblk1 V c 4 t) c' = sl3 (a := 4096) (r := 64) (c := 64) (V c (Pipeline.arrRef spec1 4)) (hd1 t c') := by
  funext i j
  show V c (Pipeline.arrRef spec1 4) (((cfg1.win 4).blk t).view.emb (ix3 c' i j)) = V c (Pipeline.arrRef spec1 4) (ix3 (hd1 t c') i j)
  refine congrArg _ ?_
  obtain ⟨e0, e1, e2⟩ := idx1_4 t
  funext a; apply Fin.ext
  match a with
  | ⟨0, _⟩ => show win1_4.index t (0 : Fin 3) * 16 + 1 * c'.val = 16 * t.val + c'.val; omega
  | ⟨1, _⟩ => show win1_4.index t (1 : Fin 3) * 64 + 1 * i.val = i.val; omega
  | ⟨2, _⟩ => show win1_4.index t (2 : Fin 3) * 64 + 1 * j.val = j.val; omega
theorem blk_slice1_5 (c : Dev nD) (t : Fin cfg1.N) (c' : Fin 16) :
    sl3 (a := 16) (r := 64) (c := 64) (iblk1 V c 5 t) c' = sl3 (a := 4096) (r := 64) (c := 64) (V c (Pipeline.arrRef spec1 5)) (hd1 t c') := by
  funext i j
  show V c (Pipeline.arrRef spec1 5) (((cfg1.win 5).blk t).view.emb (ix3 c' i j)) = V c (Pipeline.arrRef spec1 5) (ix3 (hd1 t c') i j)
  refine congrArg _ ?_
  obtain ⟨e0, e1, e2⟩ := idx1_5 t
  funext a; apply Fin.ext
  match a with
  | ⟨0, _⟩ => show win1_5.index t (0 : Fin 3) * 16 + 1 * c'.val = 16 * t.val + c'.val; omega
  | ⟨1, _⟩ => show win1_5.index t (1 : Fin 3) * 64 + 1 * i.val = i.val; omega
  | ⟨2, _⟩ => show win1_5.index t (2 : Fin 3) * 64 + 1 * j.val = j.val; omega
theorem blk_slice1_6 (c : Dev nD) (t : Fin cfg1.N) (c' : Fin 16) :
    sl3 (a := 16) (r := 64) (c := 64) (iblk1 V c 6 t) c' = sl3 (a := 4096) (r := 64) (c := 64) (V c (Pipeline.arrRef spec1 6)) (hd1 t c') := by
  funext i j
  show V c (Pipeline.arrRef spec1 6) (((cfg1.win 6).blk t).view.emb (ix3 c' i j)) = V c (Pipeline.arrRef spec1 6) (ix3 (hd1 t c') i j)
  refine congrArg _ ?_
  obtain ⟨e0, e1, e2⟩ := idx1_6 t
  funext a; apply Fin.ext
  match a with
  | ⟨0, _⟩ => show win1_6.index t (0 : Fin 3) * 16 + 1 * c'.val = 16 * t.val + c'.val; omega
  | ⟨1, _⟩ => show win1_6.index t (1 : Fin 3) * 64 + 1 * i.val = i.val; omega
  | ⟨2, _⟩ => show win1_6.index t (2 : Fin 3) * 64 + 1 * j.val = j.val; omega

/-! ## The first region -/

/-- Head by head, the landmark kernel of the two averaged arrays. -/
def G0 (a0 a1 : S4096x64x64.Idx → EReal) : S4096x64x64.Idx → EReal := fun i =>
  temp (sl3 (a := 4096) (r := 64) (c := 64) a0 (i 0)) (sl3 (a := 4096) (r := 64) (c := 64) a1 (i 0)) (i 1) (i 2)

/-- What point t writes back is block t of `G0` of the operand arrays. -/
theorem flushed0
    (hT : ∀ (x0 x1 : Vec Ideal S128x64x64 .f32) (c' : Fin 128), sl3 (out0_2 (F := Ideal) x0 x1) c' = temp (sl3 x0 c') (sl3 x1 c'))
    (c : Dev nD) (t : Fin cfg0.N) :
    (dat0 V c).flushed 2 t = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  funext j
  obtain ⟨c', l, l', rfl⟩ : ∃ (c' : Fin 128) (l : Fin 64) (l' : Fin 64), j = ix3 c' l l' := ⟨j 0, j 1, j 2, eq_ix3 (n0 := 128) (n1 := 64) (n2 := 64) j⟩
  have hemb : ((cfg0.win 2).blk t).view.emb (ix3 c' l l') = ix3 (hd0 t c') l l' := by
    obtain ⟨e0, e1, e2⟩ := idx0_2 t
    funext a; apply Fin.ext
    match a with
    | ⟨0, _⟩ => show win0_2.index t (0 : Fin 3) * 128 + 1 * c'.val = 128 * t.val + c'.val; omega
    | ⟨1, _⟩ => show win0_2.index t (1 : Fin 3) * 64 + 1 * l.val = l.val; omega
    | ⟨2, _⟩ => show win0_2.index t (2 : Fin 3) * 64 + 1 * l'.val = l'.val; omega
  show sl3 (a := 128) (r := 64) (c := 64) (out0_2 (iblk0 V c 0 t) (iblk0 V c 1 t)) c' l l'
      = G0 (V c (Pipeline.arrRef spec0 0)) (V c (Pipeline.arrRef spec0 1)) (((cfg0.win 2).blk t).view.emb (ix3 c' l l'))
  rw [hemb]
  refine (congrFun (congrFun (hT (iblk0 V c 0 t) (iblk0 V c 1 t) c') l) l').trans ?_
  rw [blk_slice0_0 V c t c', blk_slice0_1 V c t c']
  rfl

/-- An index of the output array is in point t's block iff each coordinate is in the block's range. -/
theorem mem_blk0 (t : Fin cfg0.N) (i : S4096x64x64.Idx) :
    i ∈ ((cfg0.win 2).blk t).view.set ↔ ∀ a : Fin 3, win0_2.index t a * S128x64x64.size a ≤ (i a).val ∧ (i a).val < win0_2.index t a * S128x64x64.size a + S128x64x64.size a := by
  show i ∈ ((View.whole main_v13).slice (win0_2.rect t)).set ↔ _
  rw [View.set_slice_whole, Rect.mem_set_unit]
  exact Iff.rfl

/-- Head β lies in the block of point β / 128. -/
theorem cover0 (i : S4096x64x64.Idx) : ∃ t : Fin cfg0.N, (cfg0.win 2).flush t = true ∧ i ∈ ((cfg0.win 2).blk t).view.set := by
  have h0 : (i 0).val < 4096 := (i 0).isLt
  have h1 : (i 1).val < 64 := (i 1).isLt
  have h2 : (i 2).val < 64 := (i 2).isLt
  have ht : (i 0).val / 128 < cfg0.N := lt_of_lt_of_eq (by omega : (i 0).val / 128 < 32) N_0.symm
  obtain ⟨e0, e1, e2⟩ := idx0_2 ⟨(i 0).val / 128, ht⟩
  refine ⟨⟨(i 0).val / 128, ht⟩, flush0_2 _, ?_⟩
  rw [mem_blk0]
  intro a
  match a with
  | ⟨0, _⟩ => show win0_2.index ⟨(i 0).val / 128, ht⟩ (0 : Fin 3) * 128 ≤ (i 0).val ∧ (i 0).val < win0_2.index ⟨(i 0).val / 128, ht⟩ (0 : Fin 3) * 128 + 128; rw [e0]; show (i 0).val / 128 * 128 ≤ (i 0).val ∧ (i 0).val < (i 0).val / 128 * 128 + 128; omega
  | ⟨1, _⟩ => show win0_2.index ⟨(i 0).val / 128, ht⟩ (1 : Fin 3) * 64 ≤ (i 1).val ∧ (i 1).val < win0_2.index ⟨(i 0).val / 128, ht⟩ (1 : Fin 3) * 64 + 64; rw [e1]; omega
  | ⟨2, _⟩ => show win0_2.index ⟨(i 0).val / 128, ht⟩ (2 : Fin 3) * 64 ≤ (i 2).val ∧ (i 2).val < win0_2.index ⟨(i 0).val / 128, ht⟩ (2 : Fin 3) * 64 + 64; rw [e2]; omega

/-- The first region's output array after the region. -/
theorem final0
    (hT : ∀ (x0 x1 : Vec Ideal S128x64x64 .f32) (c' : Fin 128), sl3 (out0_2 (F := Ideal) x0 x1) c' = temp (sl3 x0 c') (sl3 x1 c'))
    (c : Dev nD) :
    (dat0 V c).arrAt 2 cfg0.N = G0 (V c (Pipeline.arrRef spec0 0)) (V c (Pipeline.arrRef spec0 1)) :=
  (dat0 V c).arrAt_eq_of_cover 2 _ (fun t _ => flushed0 V hT c t) cover0

/-! ## The second region -/

/-- Head by head, the attention output from the six-times iterated seed. -/
def G1 (a0 a1 : S4096x256x64.Idx → EReal) (a2 : S4096x256x65.Idx → EReal) (a3 a4 a5 a6 : S4096x64x64.Idx → EReal) :
    S4096x256x64.Idx → EReal := fun i =>
  attn (iter6 stepK (sl3 (a := 4096) (r := 64) (c := 64) a5 (i 0)) (sl3 (a := 4096) (r := 64) (c := 64) a6 (i 0)))
    (sl3 (a := 4096) (r := 256) (c := 64) a0 (i 0)) (sl3 (a := 4096) (r := 256) (c := 64) a1 (i 0)) (sl3 (a := 4096) (r := 256) (c := 65) a2 (i 0))
    (sl3 (a := 4096) (r := 64) (c := 64) a3 (i 0)) (sl3 (a := 4096) (r := 64) (c := 64) a4 (i 0)) (i 1) (i 2)

set_option maxHeartbeats 1000000 in
/-- What point t writes back is block t of `G1` of the operand arrays. -/
theorem flushed1
    (hB : ∀ (x0 x1 : Vec Ideal S16x256x64 .bf16) (x2 : Vec Ideal S16x256x65 .bf16) (x3 x4 : Vec Ideal S16x64x64 .bf16)
      (x5 x6 : Vec Ideal S16x64x64 .f32) (c' : Fin 16),
      sl3 (out1_7 (F := Ideal) x0 x1 x2 x3 x4 x5 x6) c'
        = attn (iter6 stepK (sl3 x5 c') (sl3 x6 c')) (sl3 x0 c') (sl3 x1 c') (sl3 x2 c') (sl3 x3 c') (sl3 x4 c'))
    (c : Dev nD) (t : Fin cfg1.N) :
    (dat1 V c).flushed 7 t = ((cfg1.win 7).blk t).view.read (Elt Ideal)
      (G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  show (cfg1.win 7).cut (grid1.coords t) ((dat1 V c).after 7 t) = _
  rw [after1_7]
  -- the body's result is kept as one opaque block O until the hypothesis about it is used
  have hO := hB (iblk1 V c 0 t) (iblk1 V c 1 t) (iblk1 V c 2 t) (iblk1 V c 3 t) (iblk1 V c 4 t) (iblk1 V c 5 t) (iblk1 V c 6 t)
  generalize out1_7 (iblk1 V c 0 t) (iblk1 V c 1 t) (iblk1 V c 2 t) (iblk1 V c 3 t) (iblk1 V c 4 t) (iblk1 V c 5 t) (iblk1 V c 6 t) = O at hO ⊢
  funext j
  obtain ⟨c', n, e, rfl⟩ : ∃ (c' : Fin 16) (n : Fin 256) (e : Fin 64), j = ix3 c' n e := ⟨j 0, j 1, j 2, eq_ix3 (n0 := 16) (n1 := 256) (n2 := 64) j⟩
  have hemb : ((cfg1.win 7).blk t).view.emb (ix3 c' n e) = ix3 (hd1 t c') n e := by
    obtain ⟨e0, e1, e2⟩ := idx1_7 t
    funext a; apply Fin.ext
    match a with
    | ⟨0, _⟩ => show win1_7.index t (0 : Fin 3) * 16 + 1 * c'.val = 16 * t.val + c'.val; omega
    | ⟨1, _⟩ => show win1_7.index t (1 : Fin 3) * 256 + 1 * n.val = n.val; omega
    | ⟨2, _⟩ => show win1_7.index t (2 : Fin 3) * 64 + 1 * e.val = e.val; omega
  show sl3 (a := 16) (r := 256) (c := 64) O c' n e
      = G1 (V c (Pipeline.arrRef spec1 0)) (V c (Pipeline.arrRef spec1 1)) (V c (Pipeline.arrRef spec1 2)) (V c (Pipeline.arrRef spec1 3))
          (V c (Pipeline.arrRef spec1 4)) (V c (Pipeline.arrRef spec1 5)) (V c (Pipeline.arrRef spec1 6)) (((cfg1.win 7).blk t).view.emb (ix3 c' n e))
  rw [hemb]
  refine (congrFun (congrFun (hO c') n) e).trans ?_
  rw [blk_slice1_0 V c t c', blk_slice1_1 V c t c', blk_slice1_2 V c t c', blk_slice1_3 V c t c', blk_slice1_4 V c t c', blk_slice1_5 V c t c', blk_slice1_6 V c t c']
  rfl

/-- An index of the output array is in point t's block iff each coordinate is in the block's range. -/
theorem mem_blk1 (t : Fin cfg1.N) (i : S4096x256x64.Idx) :
    i ∈ ((cfg1.win 7).blk t).view.set ↔ ∀ a : Fin 3, win1_7.index t a * S16x256x64.size a ≤ (i a).val ∧ (i a).val < win1_7.index t a * S16x256x64.size a + S16x256x64.size a := by
  show i ∈ ((View.whole main_v32).slice (win1_7.rect t)).set ↔ _
  rw [View.set_slice_whole, Rect.mem_set_unit]
  exact Iff.rfl

/-- Head β lies in the block of point β / 16. -/
theorem cover1 (i : S4096x256x64.Idx) : ∃ t : Fin cfg1.N, (cfg1.win 7).flush t = true ∧ i ∈ ((cfg1.win 7).blk t).view.set := by
  have h0 : (i 0).val < 4096 := (i 0).isLt
  have h1 : (i 1).val < 256 := (i 1).isLt
  have h2 : (i 2).val < 64 := (i 2).isLt
  have ht : (i 0).val / 16 < cfg1.N := lt_of_lt_of_eq (by omega : (i 0).val / 16 < 256) N_1.symm
  obtain ⟨e0, e1, e2⟩ := idx1_7 ⟨(i 0).val / 16, ht⟩
  refine ⟨⟨(i 0).val / 16, ht⟩, flush1_7 _, ?_⟩
  rw [mem_blk1]
  intro a
  match a with
  | ⟨0, _⟩ => show win1_7.index ⟨(i 0).val / 16, ht⟩ (0 : Fin 3) * 16 ≤ (i 0).val ∧ (i 0).val < win1_7.index ⟨(i 0).val / 16, ht⟩ (0 : Fin 3) * 16 + 16; rw [e0]; show (i 0).val / 16 * 16 ≤ (i 0).val ∧ (i 0).val < (i 0).val / 16 * 16 + 16; omega
  | ⟨1, _⟩ => show win1_7.index ⟨(i 0).val / 16, ht⟩ (1 : Fin 3) * 256 ≤ (i 1).val ∧ (i 1).val < win1_7.index ⟨(i 0).val / 16, ht⟩ (1 : Fin 3) * 256 + 256; rw [e1]; omega
  | ⟨2, _⟩ => show win1_7.index ⟨(i 0).val / 16, ht⟩ (2 : Fin 3) * 64 ≤ (i 2).val ∧ (i 2).val < win1_7.index ⟨(i 0).val / 16, ht⟩ (2 : Fin 3) * 64 + 64; rw [e2]; omega

/-- The second region's output array after the region. -/
theorem final1
    (hB : ∀ (x0 x1 : Vec Ideal S16x256x64 .bf16) (x2 : Vec Ideal S16x256x65 .bf16) (x3 x4 : Vec Ideal S16x64x64 .bf16)
      (x5 x6 : Vec Ideal S16x64x64 .f32) (c' : Fin 16),
      sl3 (out1_7 (F := Ideal) x0 x1 x2 x3 x4 x5 x6) c'
        = attn (iter6 stepK (sl3 x5 c') (sl3 x6 c')) (sl3 x0 c') (sl3 x1 c') (sl3 x2 c') (sl3 x3 c') (sl3 x4 c'))
    (c : Dev nD) :
    (dat1 V c).arrAt 7 cfg1.N
      = G1 (V c (Pipeline.arrRef spec1 0)) (V c (Pipeline.arrRef spec1 1)) (V c (Pipeline.arrRef spec1 2)) (V c (Pipeline.arrRef spec1 3))
          (V c (Pipeline.arrRef spec1 4)) (V c (Pipeline.arrRef spec1 5)) (V c (Pipeline.arrRef spec1 6)) :=
  (dat1 V c).arrAt_eq_of_cover 7 _ (fun t _ => flushed1 V hB c t) cover1

end Cert.Landmark.KArr

end
-- ==== Proof.Bridge.lean ====
/-
  The two programs compute one function: the assembly.

  Fix a head (b, h), at 16 b + h of the kernel program's flattened axis. Reading the kernel program's result there goes
  through: the closing reshape; the second region's output array, which head by head is `attn` of the six-times iterated
  seed (KArr.lean) of the region's seven operand arrays sliced at the head; and those slices — q, k, [v | 1] as given, the
  two averages, the first region's output x = temp (averages), the seed xᵀ / d. The reference's result at (b, h) is the same
  `attn`, of the same slices, with the factor ¼ of each iteration on the other side of the product: equal by
  `iter6_stepR_eq`. The two programs' averages agree head by head, as do their [v | 1]; their scalars d agree because
  their landmark kernels x agree at every head.
-/
import proofs.«114225_j21509196218786_1_alg».proof.Proof.Spec
import proofs.«114225_j21509196218786_1_alg».proof.Proof.KHost
import proofs.«114225_j21509196218786_1_alg».proof.Proof.KArr
import proofs.«114225_j21509196218786_1_alg».proof.Proof.RefRead

noncomputable section

namespace Cert.Landmark.Bridge

open Cert.Landmark Cert.Landmark.KHost Cert.Landmark.KArr Cert.ReferenceIdeal.ReadP
open Idealize.ShloMosaic Idealize.ShloMosaic.ValueIdx

abbrev S4 : Shape := ⟨4, ![256, 16, 256, 64]⟩

/-- The kernel program's result array, from its three argument arrays: the second region's array `G1` of the operand
    arrays the host stretches and the first region prepare, laid back out on 256 x 16 heads. -/
def kernelResult (q k v : FVec Ideal S4 .f32) : FVec Ideal S4 .f32 :=
  unflat (F := Ideal)
    (G1 (truncf .bf16 (flat (F := Ideal) q) Cert.KernelIdeal.Facts₀.bitsLt_bf16_f32)
        (truncf .bf16 (flat (F := Ideal) k) Cert.KernelIdeal.Facts₀.bitsLt_bf16_f32)
        (truncf .bf16 (onesAppended (F := Ideal) (flat v)) Cert.KernelIdeal.Facts₀.bitsLt_bf16_f32)
        (truncf .bf16 (pooled (F := Ideal) (flat q)) Cert.KernelIdeal.Facts₀.bitsLt_bf16_f32)
        (truncf .bf16 (pooled (F := Ideal) (flat k)) Cert.KernelIdeal.Facts₀.bitsLt_bf16_f32)
        (G0 (pooled (F := Ideal) (flat q)) (pooled (F := Ideal) (flat k)))
        (seedArr (F := Ideal) (G0 (pooled (F := Ideal) (flat q)) (pooled (F := Ideal) (flat k)))))

/-- The kernel program's result is the reference's last stage, given: the layout facts L1–L5, the averages' and the
    scalars' agreement (P, P', D), and the reference read slice by slice (R1–R4). -/
theorem kernelResult_eq (q k v : FVec Ideal S4 .f32)
    (L1 : ∀ (x : FVec Ideal S4 .f32) (b : Fin 256) (h : Fin 16), sl3 (flat (F := Ideal) x) (bh b h) = sl4 x b h)
    (L2 : ∀ (o : FVec Ideal Cert.KernelIdeal.S4096x256x64 .f32) (b : Fin 256) (h : Fin 16) (n : Fin 256) (e : Fin 64),
      unflat (F := Ideal) o (ix4 b h n e) = o (ix3 (bh b h) n e))
    (L3 : ∀ (b : Fin 256) (h : Fin 16), sl3 (onesAppended (F := Ideal) (flat v)) (bh b h) = withOnes (sl4 v b h))
    (L4 : ∀ (b : Fin 256) (h : Fin 16), sl4 (val_main_v162 (F := Ideal) v) b h = withOnes (sl4 v b h))
    (L5 : ∀ (t : FVec Ideal Cert.KernelIdeal.S4096x64x64 .f32) (β : Fin 4096), sl3 (seedArr (F := Ideal) t) β = seed (sl3 t β) (denom (F := Ideal) t ix0))
    (P : ∀ (b : Fin 256) (h : Fin 16), sl3 (pooled (F := Ideal) (flat q)) (bh b h) = sl4 (val_main_v4 (F := Ideal) q) b h)
    (P' : ∀ (b : Fin 256) (h : Fin 16), sl3 (pooled (F := Ideal) (flat k)) (bh b h) = sl4 (val_main_v9 (F := Ideal) k) b h)
    (D : ∀ (t : FVec Ideal Cert.KernelIdeal.S4096x64x64 .f32), (∀ b h, sl3 t (bh b h) = sl4 (val_main_v17 (F := Ideal) q k) b h) →
      denom (F := Ideal) t ix0 = val_main_v25 (F := Ideal) q k ix0)
    (R1 : ∀ (b : Fin 256) (h : Fin 16), sl4 (val_main_v17 (F := Ideal) q k) b h = temp (sl4 (val_main_v4 (F := Ideal) q) b h) (sl4 (val_main_v9 (F := Ideal) k) b h))
    (R2 : ∀ (b : Fin 256) (h : Fin 16), sl4 (val_main_v27 (F := Ideal) q k) b h = seed (sl4 (val_main_v17 (F := Ideal) q k) b h) (val_main_v25 (F := Ideal) q k ix0))
    (R3 : ∀ (b : Fin 256) (h : Fin 16), sl4 (val_main_v159 (F := Ideal) q k) b h = iter6 stepR (sl4 (val_main_v17 (F := Ideal) q k) b h) (sl4 (val_main_v27 (F := Ideal) q k) b h))
    (R4 : ∀ (b : Fin 256) (h : Fin 16), sl4 (val_main_v187 (F := Ideal) q k v) b h
      = attn (sl4 (val_main_v159 (F := Ideal) q k) b h) (sl4 q b h) (sl4 k b h) (sl4 (val_main_v162 (F := Ideal) v) b h) (sl4 (val_main_v4 (F := Ideal) q) b h) (sl4 (val_main_v9 (F := Ideal) k) b h)) :
    kernelResult q k v = val_main_v187 (F := Ideal) q k v := by
  funext I
  obtain ⟨b, h, n, e, rfl⟩ : ∃ (b : Fin 256) (h : Fin 16) (n : Fin 256) (e : Fin 64), I = ix4 b h n e := ⟨I 0, I 1, I 2, I 3, eq_ix4 I⟩
  -- the first region's array at every head is the reference's landmark kernel
  have hx : ∀ b h, sl3 (G0 (pooled (F := Ideal) (flat q)) (pooled (F := Ideal) (flat k))) (bh b h) = sl4 (val_main_v17 (F := Ideal) q k) b h := by
    intro b h
    rw [R1]
    show temp (sl3 (pooled (F := Ideal) (flat q)) (bh b h)) (sl3 (pooled (F := Ideal) (flat k)) (bh b h)) = _
    rw [P, P']
  -- the reference's side
  have hR : val_main_v187 (F := Ideal) q k v (ix4 b h n e)
      = attn (iter6 stepK (sl4 (val_main_v17 (F := Ideal) q k) b h) (sl4 (val_main_v27 (F := Ideal) q k) b h)) (sl4 q b h) (sl4 k b h) (withOnes (sl4 v b h))
          (sl4 (val_main_v4 (F := Ideal) q) b h) (sl4 (val_main_v9 (F := Ideal) k) b h) n e := by
    show sl4 (val_main_v187 (F := Ideal) q k v) b h n e = _
    rw [R4, R3, L4, iter6_stepR_eq]
  rw [hR]
  -- the kernel's side
  unfold kernelResult
  rw [L2]
  show attn (iter6 stepK (sl3 (G0 (pooled (F := Ideal) (flat q)) (pooled (F := Ideal) (flat k))) (bh b h))
        (sl3 (seedArr (F := Ideal) (G0 (pooled (F := Ideal) (flat q)) (pooled (F := Ideal) (flat k)))) (bh b h)))
      (sl3 (flat (F := Ideal) q) (bh b h)) (sl3 (flat (F := Ideal) k) (bh b h)) (sl3 (onesAppended (F := Ideal) (flat v)) (bh b h))
      (sl3 (pooled (F := Ideal) (flat q)) (bh b h)) (sl3 (pooled (F := Ideal) (flat k)) (bh b h)) n e = _
  rw [L5, D _ hx, hx, L1, L1, L3, P, P', ← R2]

end Cert.Landmark.Bridge

end
-- ==== Proof.KValue.lean ====
/-
  The kernel program's result as a function of its three arguments.

  Composing the read-backs (KRead.lean) with the two regions' arrays (KArr.lean): at the end of @main the result
  buffer holds `Bridge.kernelResult q k v` — the second region's array `G1` of (q, k, [v | 1], the two averages, the first
  region's array `G0` of the averages, its seed), laid back out on 256 x 16 heads — where q, k, v are the launch contents of
  the three argument buffers. The two hypotheses are what the two kernel bodies leave in their output blocks, head by head.
-/
import proofs.«114225_j21509196218786_1_alg».proof.Proof.KRead
import proofs.«114225_j21509196218786_1_alg».proof.Proof.KArr
import proofs.«114225_j21509196218786_1_alg».proof.Proof.Bridge

noncomputable section

namespace Cert.Landmark.KValue

open Cert.KernelIdeal Cert.KernelIdeal.Gen Cert.Landmark Cert.Landmark.KHost Cert.Landmark.KArr Cert.Landmark.KRead Cert.Landmark.Bridge
open Idealize.ShloMosaic Idealize.ShloMosaic.TcCoe Idealize.SL.Sem

variable (m : (ℓ : Loc nD τ sig) → Buf (Elt Ideal) ℓ) (ρ : Dev nD → PrngReg)

theorem result_eq
    (hT : ∀ (x0 x1 : Vec Ideal S128x64x64 .f32) (c' : Fin 128), sl3 (out0_2 (F := Ideal) x0 x1) c' = temp (sl3 x0 c') (sl3 x1 c'))
    (hB : ∀ (x0 x1 : Vec Ideal S16x256x64 .bf16) (x2 : Vec Ideal S16x256x65 .bf16) (x3 x4 : Vec Ideal S16x64x64 .bf16)
      (x5 x6 : Vec Ideal S16x64x64 .f32) (c' : Fin 16),
      sl3 (out1_7 (F := Ideal) x0 x1 x2 x3 x4 x5 x6) c'
        = attn (iter6 stepK (sl3 x5 c') (sl3 x6 c')) (sl3 x0 c') (sl3 x1 c') (sl3 x2 c') (sl3 x3 c') (sl3 x4 c'))
    (c : Dev nD) :
    W5 m ρ c (Proc.devRef .tc main_v33)
      = kernelResult (m ((c : Thread nD τ).loc main_arg0)) (m ((c : Thread nD τ).loc main_arg1)) (m ((c : Thread nD τ).loc main_arg2)) := by
  rw [W5_v33, final1 (V3 m ρ) hB c]
  show unflat (F := Ideal) (G1 (W3 m ρ c (Proc.devRef .tc main_v27)) (W3 m ρ c (Proc.devRef .tc main_v28)) (W3 m ρ c (Proc.devRef .tc main_v29))
      (W3 m ρ c (Proc.devRef .tc main_v30)) (W3 m ρ c (Proc.devRef .tc main_v31)) (W3 m ρ c (Proc.devRef .tc main_v13)) (W3 m ρ c (Proc.devRef .tc main_v23))) = _
  rw [W3_v27, W3_v28, W3_v29, W3_v30, W3_v31, W3_v13, W3_v23, W2_v0, W2_v1, W2_v2, W2_v7, W2_v12, W2_v13,
    W1_v0, W1_v1, W1_v2, W1_v7, W1_v12, final0 (V1 m ρ) hT c]
  show _ = kernelResult _ _ _
  unfold kernelResult
  have e7 : V1 m ρ c (Pipeline.arrRef spec0 0) = pooled (F := Ideal) (flat (m ((c : Thread nD τ).loc main_arg0))) := W1_v7 m ρ c
  have e12 : V1 m ρ c (Pipeline.arrRef spec0 1) = pooled (F := Ideal) (flat (m ((c : Thread nD τ).loc main_arg1))) := W1_v12 m ρ c
  rw [e7, e12]

end Cert.Landmark.KValue

end
-- ==== Proof.KerOps.lean ====
import proofs.«114225_j21509196218786_1_alg».proof.Proof.Spec
import proofs.«114225_j21509196218786_1_alg».proof.Proof.Gen.KernelIdeal.Frame
import Idealize.ShloMosaic.Lib.Pipeline.Value
import Idealize.ShloMosaic.Lib.ValueLayout
import Idealize.ShloMosaic.Lib.IdealHost

/-
  The kernel's operations read slice by slice.

  Every array of the two kernel bodies has a leading batch axis (the heads of one block), and every operation acts on
  each head separately. Reading an array at one value `c` of that axis gives a matrix (`sl3`), and each operation
  becomes the matrix operation of the same name on the slices: a batched product into the zero accumulator is the
  product (or the product with the transpose) of the slices, a pointwise operation is the pointwise operation, the
  broadcast scalar multiple of the identity is `c I`, a column slice is a column, and so on. The sums are over
  `Fin n`: the contraction index of a product has one axis, and the sum is re-indexed along it.
-/

noncomputable section

namespace Cert.Landmark.Ker

open Idealize.ShloMosaic Idealize.ShloMosaic.ValueIdx
open Cert.KernelIdeal Cert.KernelIdeal.Gen Cert.Landmark

/-- The zero offsets of a whole-block rectangle. -/
theorem hz3 : (![0, 0, 0] : Fin 3 → Nat) = fun _ => 0 := funext fun a => by fin_cases a <;> rfl

/-! ## Matrix operations the bodies use beside the products -/

/-- A - B entry by entry. -/
def msub {a b : ℕ} (A B : Mat a b) : Mat a b := fun i j => A i j - B i j

/-- w A for a scalar given by its f32 word. -/
def mscale {a b : ℕ} (w : BitVec 32) (A : Mat a b) : Mat a b := fun i j => W w * A i j

/-- w I. -/
def cI (w : BitVec 32) : Mat 64 64 := fun i j => W w * eye i j

theorem cIsub_eq (w : BitVec 32) (A : Mat 64 64) : cIsub w A = msub (cI w) A := rfl

theorem stepK_eq (x z : Mat 64 64) : stepK x z = mscale 0x3E800000#32 (mm z (nsT x z)) := rfl

/-! ## The seven batched products, entry by entry and slice by slice

At output entry (c, i, j) and contraction position k the left operand is read at (c, i, k) and the right one at
(c, k, j), or at (c, j, k) when both last axes are contracted. -/

theorem mmT128_apply {φ₁ φ₂ : FTy} (prec : Option ContractPrecision) (a : FVec Ideal S128x64x64 φ₁) (b : FVec Ideal S128x64x64 φ₂)
    (c : Fin 128) (i : Fin 64) (j : Fin 64) :
    matmul dot_S128x64x64_S128x64x64_S128x64x64_2_2_1_1_0_0 prec a b (constant S128x64x64 .f32 0x00000000#32) (ix3 c i j)
      = ∑ k : Fin 64, a (ix3 c i k) * b (ix3 c j k) := by
  refine (Ideal.matmul_constant_zero_apply dot_S128x64x64_S128x64x64_S128x64x64_2_2_1_1_0_0 prec a b (ix3 c i j)).trans ?_
  rw [← Equiv.sum_comp (contrEquiv1 dot_S128x64x64_S128x64x64_S128x64x64_2_2_1_1_0_0 64 rfl rfl).symm]
  refine Finset.sum_congr rfl fun k _ => ?_
  have hk := contrEquiv1_symm_val dot_S128x64x64_S128x64x64_S128x64x64_2_2_1_1_0_0 64 rfl rfl k
  generalize (contrEquiv1 dot_S128x64x64_S128x64x64_S128x64x64_2_2_1_1_0_0 64 rfl rfl).symm k = q at hk
  have el : dot_S128x64x64_S128x64x64_S128x64x64_2_2_1_1_0_0.lhsIdx (ix3 c i j) q = ix3 c i k := funext fun ax => Fin.ext (
    match ax with
    | ⟨0, _⟩ => by
      show (dot_S128x64x64_S128x64x64_S128x64x64_2_2_1_1_0_0.lhsIdx (ix3 c i j) q 0).val = c.val
      unfold DotDims.lhsIdx
      rw [dif_pos (show (0 : Fin S128x64x64.rank) ∈ dot_S128x64x64_S128x64x64_S128x64x64_2_2_1_1_0_0.lhsBatch by decide)]
      rfl
    | ⟨1, _⟩ => by
      show (dot_S128x64x64_S128x64x64_S128x64x64_2_2_1_1_0_0.lhsIdx (ix3 c i j) q 1).val = i.val
      unfold DotDims.lhsIdx
      rw [dif_neg (show ¬(1 : Fin S128x64x64.rank) ∈ dot_S128x64x64_S128x64x64_S128x64x64_2_2_1_1_0_0.lhsBatch by decide), dif_pos (show (1 : Fin S128x64x64.rank) ∈ dot_S128x64x64_S128x64x64_S128x64x64_2_2_1_1_0_0.lhsNonContracting by decide)]
      rfl
    | ⟨2, _⟩ => (dot_S128x64x64_S128x64x64_S128x64x64_2_2_1_1_0_0.lhsIdx_val_of_single rfl (ix3 c i j) q).trans hk)
  have er : dot_S128x64x64_S128x64x64_S128x64x64_2_2_1_1_0_0.rhsIdx (ix3 c i j) q = ix3 c j k := funext fun ax => Fin.ext (
    match ax with
    | ⟨0, _⟩ => by
      show (dot_S128x64x64_S128x64x64_S128x64x64_2_2_1_1_0_0.rhsIdx (ix3 c i j) q 0).val = c.val
      unfold DotDims.rhsIdx
      rw [dif_pos (show (0 : Fin S128x64x64.rank) ∈ dot_S128x64x64_S128x64x64_S128x64x64_2_2_1_1_0_0.rhsBatch by decide)]
      rfl
    | ⟨1, _⟩ => by
      show (dot_S128x64x64_S128x64x64_S128x64x64_2_2_1_1_0_0.rhsIdx (ix3 c i j) q 1).val = j.val
      unfold DotDims.rhsIdx
      rw [dif_neg (show ¬(1 : Fin S128x64x64.rank) ∈ dot_S128x64x64_S128x64x64_S128x64x64_2_2_1_1_0_0.rhsBatch by decide), dif_pos (show (1 : Fin S128x64x64.rank) ∈ dot_S128x64x64_S128x64x64_S128x64x64_2_2_1_1_0_0.rhsNonContracting by decide)]
      rfl
    | ⟨2, _⟩ => (dot_S128x64x64_S128x64x64_S128x64x64_2_2_1_1_0_0.rhsIdx_val_of_single rfl (ix3 c i j) q).trans hk)
  rw [el, er]

/-- Slice by slice: the batched product is the product with the transpose of the slices. -/
theorem sl3_mmT128 {φ₁ φ₂ : FTy} (prec : Option ContractPrecision) (a : FVec Ideal S128x64x64 φ₁) (b : FVec Ideal S128x64x64 φ₂) (c : Fin 128) :
    sl3 (matmul dot_S128x64x64_S128x64x64_S128x64x64_2_2_1_1_0_0 prec a b (constant S128x64x64 .f32 0x00000000#32)) c = mmT (sl3 a c) (sl3 b c) :=
  funext fun i => funext fun j => mmT128_apply prec a b c i j

theorem mm16_apply {φ₁ φ₂ : FTy} (prec : Option ContractPrecision) (a : FVec Ideal S16x64x64 φ₁) (b : FVec Ideal S16x64x64 φ₂)
    (c : Fin 16) (i : Fin 64) (j : Fin 64) :
    matmul dot_S16x64x64_S16x64x64_S16x64x64_2_1_1_2_0_0 prec a b (constant S16x64x64 .f32 0x00000000#32) (ix3 c i j)
      = ∑ k : Fin 64, a (ix3 c i k) * b (ix3 c k j) := by
  refine (Ideal.matmul_constant_zero_apply dot_S16x64x64_S16x64x64_S16x64x64_2_1_1_2_0_0 prec a b (ix3 c i j)).trans ?_
  rw [← Equiv.sum_comp (contrEquiv1 dot_S16x64x64_S16x64x64_S16x64x64_2_1_1_2_0_0 64 rfl rfl).symm]
  refine Finset.sum_congr rfl fun k _ => ?_
  have hk := contrEquiv1_symm_val dot_S16x64x64_S16x64x64_S16x64x64_2_1_1_2_0_0 64 rfl rfl k
  generalize (contrEquiv1 dot_S16x64x64_S16x64x64_S16x64x64_2_1_1_2_0_0 64 rfl rfl).symm k = q at hk
  have el : dot_S16x64x64_S16x64x64_S16x64x64_2_1_1_2_0_0.lhsIdx (ix3 c i j) q = ix3 c i k := funext fun ax => Fin.ext (
    match ax with
    | ⟨0, _⟩ => by
      show (dot_S16x64x64_S16x64x64_S16x64x64_2_1_1_2_0_0.lhsIdx (ix3 c i j) q 0).val = c.val
      unfold DotDims.lhsIdx
      rw [dif_pos (show (0 : Fin S16x64x64.rank) ∈ dot_S16x64x64_S16x64x64_S16x64x64_2_1_1_2_0_0.lhsBatch by decide)]
      rfl
    | ⟨1, _⟩ => by
      show (dot_S16x64x64_S16x64x64_S16x64x64_2_1_1_2_0_0.lhsIdx (ix3 c i j) q 1).val = i.val
      unfold DotDims.lhsIdx
      rw [dif_neg (show ¬(1 : Fin S16x64x64.rank) ∈ dot_S16x64x64_S16x64x64_S16x64x64_2_1_1_2_0_0.lhsBatch by decide), dif_pos (show (1 : Fin S16x64x64.rank) ∈ dot_S16x64x64_S16x64x64_S16x64x64_2_1_1_2_0_0.lhsNonContracting by decide)]
      rfl
    | ⟨2, _⟩ => (dot_S16x64x64_S16x64x64_S16x64x64_2_1_1_2_0_0.lhsIdx_val_of_single rfl (ix3 c i j) q).trans hk)
  have er : dot_S16x64x64_S16x64x64_S16x64x64_2_1_1_2_0_0.rhsIdx (ix3 c i j) q = ix3 c k j := funext fun ax => Fin.ext (
    match ax with
    | ⟨0, _⟩ => by
      show (dot_S16x64x64_S16x64x64_S16x64x64_2_1_1_2_0_0.rhsIdx (ix3 c i j) q 0).val = c.val
      unfold DotDims.rhsIdx
      rw [dif_pos (show (0 : Fin S16x64x64.rank) ∈ dot_S16x64x64_S16x64x64_S16x64x64_2_1_1_2_0_0.rhsBatch by decide)]
      rfl
    | ⟨1, _⟩ => (dot_S16x64x64_S16x64x64_S16x64x64_2_1_1_2_0_0.rhsIdx_val_of_single rfl (ix3 c i j) q).trans hk
    | ⟨2, _⟩ => by
      show (dot_S16x64x64_S16x64x64_S16x64x64_2_1_1_2_0_0.rhsIdx (ix3 c i j) q 2).val = j.val
      unfold DotDims.rhsIdx
      rw [dif_neg (show ¬(2 : Fin S16x64x64.rank) ∈ dot_S16x64x64_S16x64x64_S16x64x64_2_1_1_2_0_0.rhsBatch by decide), dif_pos (show (2 : Fin S16x64x64.rank) ∈ dot_S16x64x64_S16x64x64_S16x64x64_2_1_1_2_0_0.rhsNonContracting by decide)]
      rfl)
  rw [el, er]

/-- Slice by slice: the batched product is the product of the slices. -/
theorem sl3_mm16 {φ₁ φ₂ : FTy} (prec : Option ContractPrecision) (a : FVec Ideal S16x64x64 φ₁) (b : FVec Ideal S16x64x64 φ₂) (c : Fin 16) :
    sl3 (matmul dot_S16x64x64_S16x64x64_S16x64x64_2_1_1_2_0_0 prec a b (constant S16x64x64 .f32 0x00000000#32)) c = mm (sl3 a c) (sl3 b c) :=
  funext fun i => funext fun j => mm16_apply prec a b c i j

theorem mmTqmk_apply {φ₁ φ₂ : FTy} (prec : Option ContractPrecision) (a : FVec Ideal S16x64x64 φ₁) (b : FVec Ideal S16x256x64 φ₂)
    (c : Fin 16) (i : Fin 64) (j : Fin 256) :
    matmul dot_S16x64x64_S16x256x64_S16x64x256_2_2_1_1_0_0 prec a b (constant S16x64x256 .f32 0x00000000#32) (ix3 c i j)
      = ∑ k : Fin 64, a (ix3 c i k) * b (ix3 c j k) := by
  refine (Ideal.matmul_constant_zero_apply dot_S16x64x64_S16x256x64_S16x64x256_2_2_1_1_0_0 prec a b (ix3 c i j)).trans ?_
  rw [← Equiv.sum_comp (contrEquiv1 dot_S16x64x64_S16x256x64_S16x64x256_2_2_1_1_0_0 64 rfl rfl).symm]
  refine Finset.sum_congr rfl fun k _ => ?_
  have hk := contrEquiv1_symm_val dot_S16x64x64_S16x256x64_S16x64x256_2_2_1_1_0_0 64 rfl rfl k
  generalize (contrEquiv1 dot_S16x64x64_S16x256x64_S16x64x256_2_2_1_1_0_0 64 rfl rfl).symm k = q at hk
  have el : dot_S16x64x64_S16x256x64_S16x64x256_2_2_1_1_0_0.lhsIdx (ix3 c i j) q = ix3 c i k := funext fun ax => Fin.ext (
    match ax with
    | ⟨0, _⟩ => by
      show (dot_S16x64x64_S16x256x64_S16x64x256_2_2_1_1_0_0.lhsIdx (ix3 c i j) q 0).val = c.val
      unfold DotDims.lhsIdx
      rw [dif_pos (show (0 : Fin S16x64x64.rank) ∈ dot_S16x64x64_S16x256x64_S16x64x256_2_2_1_1_0_0.lhsBatch by decide)]
      rfl
    | ⟨1, _⟩ => by
      show (dot_S16x64x64_S16x256x64_S16x64x256_2_2_1_1_0_0.lhsIdx (ix3 c i j) q 1).val = i.val
      unfold DotDims.lhsIdx
      rw [dif_neg (show ¬(1 : Fin S16x64x64.rank) ∈ dot_S16x64x64_S16x256x64_S16x64x256_2_2_1_1_0_0.lhsBatch by decide), dif_pos (show (1 : Fin S16x64x64.rank) ∈ dot_S16x64x64_S16x256x64_S16x64x256_2_2_1_1_0_0.lhsNonContracting by decide)]
      rfl
    | ⟨2, _⟩ => (dot_S16x64x64_S16x256x64_S16x64x256_2_2_1_1_0_0.lhsIdx_val_of_single rfl (ix3 c i j) q).trans hk)
  have er : dot_S16x64x64_S16x256x64_S16x64x256_2_2_1_1_0_0.rhsIdx (ix3 c i j) q = ix3 c j k := funext fun ax => Fin.ext (
    match ax with
    | ⟨0, _⟩ => by
      show (dot_S16x64x64_S16x256x64_S16x64x256_2_2_1_1_0_0.rhsIdx (ix3 c i j) q 0).val = c.val
      unfold DotDims.rhsIdx
      rw [dif_pos (show (0 : Fin S16x256x64.rank) ∈ dot_S16x64x64_S16x256x64_S16x64x256_2_2_1_1_0_0.rhsBatch by decide)]
      rfl
    | ⟨1, _⟩ => by
      show (dot_S16x64x64_S16x256x64_S16x64x256_2_2_1_1_0_0.rhsIdx (ix3 c i j) q 1).val = j.val
      unfold DotDims.rhsIdx
      rw [dif_neg (show ¬(1 : Fin S16x256x64.rank) ∈ dot_S16x64x64_S16x256x64_S16x64x256_2_2_1_1_0_0.rhsBatch by decide), dif_pos (show (1 : Fin S16x256x64.rank) ∈ dot_S16x64x64_S16x256x64_S16x64x256_2_2_1_1_0_0.rhsNonContracting by decide)]
      rfl
    | ⟨2, _⟩ => (dot_S16x64x64_S16x256x64_S16x64x256_2_2_1_1_0_0.rhsIdx_val_of_single rfl (ix3 c i j) q).trans hk)
  rw [el, er]

/-- Slice by slice: the batched product is the product with the transpose of the slices. -/
theorem sl3_mmTqmk {φ₁ φ₂ : FTy} (prec : Option ContractPrecision) (a : FVec Ideal S16x64x64 φ₁) (b : FVec Ideal S16x256x64 φ₂) (c : Fin 16) :
    sl3 (matmul dot_S16x64x64_S16x256x64_S16x64x256_2_2_1_1_0_0 prec a b (constant S16x64x256 .f32 0x00000000#32)) c = mmT (sl3 a c) (sl3 b c) :=
  funext fun i => funext fun j => mmTqmk_apply prec a b c i j

theorem mmkv_apply {φ₁ φ₂ : FTy} (prec : Option ContractPrecision) (a : FVec Ideal S16x64x256 φ₁) (b : FVec Ideal S16x256x65 φ₂)
    (c : Fin 16) (i : Fin 64) (j : Fin 65) :
    matmul dot_S16x64x256_S16x256x65_S16x64x65_2_1_1_2_0_0 prec a b (constant S16x64x65 .f32 0x00000000#32) (ix3 c i j)
      = ∑ k : Fin 256, a (ix3 c i k) * b (ix3 c k j) := by
  refine (Ideal.matmul_constant_zero_apply dot_S16x64x256_S16x256x65_S16x64x65_2_1_1_2_0_0 prec a b (ix3 c i j)).trans ?_
  rw [← Equiv.sum_comp (contrEquiv1 dot_S16x64x256_S16x256x65_S16x64x65_2_1_1_2_0_0 256 rfl rfl).symm]
  refine Finset.sum_congr rfl fun k _ => ?_
  have hk := contrEquiv1_symm_val dot_S16x64x256_S16x256x65_S16x64x65_2_1_1_2_0_0 256 rfl rfl k
  generalize (contrEquiv1 dot_S16x64x256_S16x256x65_S16x64x65_2_1_1_2_0_0 256 rfl rfl).symm k = q at hk
  have el : dot_S16x64x256_S16x256x65_S16x64x65_2_1_1_2_0_0.lhsIdx (ix3 c i j) q = ix3 c i k := funext fun ax => Fin.ext (
    match ax with
    | ⟨0, _⟩ => by
      show (dot_S16x64x256_S16x256x65_S16x64x65_2_1_1_2_0_0.lhsIdx (ix3 c i j) q 0).val = c.val
      unfold DotDims.lhsIdx
      rw [dif_pos (show (0 : Fin S16x64x256.rank) ∈ dot_S16x64x256_S16x256x65_S16x64x65_2_1_1_2_0_0.lhsBatch by decide)]
      rfl
    | ⟨1, _⟩ => by
      show (dot_S16x64x256_S16x256x65_S16x64x65_2_1_1_2_0_0.lhsIdx (ix3 c i j) q 1).val = i.val
      unfold DotDims.lhsIdx
      rw [dif_neg (show ¬(1 : Fin S16x64x256.rank) ∈ dot_S16x64x256_S16x256x65_S16x64x65_2_1_1_2_0_0.lhsBatch by decide), dif_pos (show (1 : Fin S16x64x256.rank) ∈ dot_S16x64x256_S16x256x65_S16x64x65_2_1_1_2_0_0.lhsNonContracting by decide)]
      rfl
    | ⟨2, _⟩ => (dot_S16x64x256_S16x256x65_S16x64x65_2_1_1_2_0_0.lhsIdx_val_of_single rfl (ix3 c i j) q).trans hk)
  have er : dot_S16x64x256_S16x256x65_S16x64x65_2_1_1_2_0_0.rhsIdx (ix3 c i j) q = ix3 c k j := funext fun ax => Fin.ext (
    match ax with
    | ⟨0, _⟩ => by
      show (dot_S16x64x256_S16x256x65_S16x64x65_2_1_1_2_0_0.rhsIdx (ix3 c i j) q 0).val = c.val
      unfold DotDims.rhsIdx
      rw [dif_pos (show (0 : Fin S16x256x65.rank) ∈ dot_S16x64x256_S16x256x65_S16x64x65_2_1_1_2_0_0.rhsBatch by decide)]
      rfl
    | ⟨1, _⟩ => (dot_S16x64x256_S16x256x65_S16x64x65_2_1_1_2_0_0.rhsIdx_val_of_single rfl (ix3 c i j) q).trans hk
    | ⟨2, _⟩ => by
      show (dot_S16x64x256_S16x256x65_S16x64x65_2_1_1_2_0_0.rhsIdx (ix3 c i j) q 2).val = j.val
      unfold DotDims.rhsIdx
      rw [dif_neg (show ¬(2 : Fin S16x256x65.rank) ∈ dot_S16x64x256_S16x256x65_S16x64x65_2_1_1_2_0_0.rhsBatch by decide), dif_pos (show (2 : Fin S16x256x65.rank) ∈ dot_S16x64x256_S16x256x65_S16x64x65_2_1_1_2_0_0.rhsNonContracting by decide)]
      rfl)
  rw [el, er]

/-- Slice by slice: the batched product is the product of the slices. -/
theorem sl3_mmkv {φ₁ φ₂ : FTy} (prec : Option ContractPrecision) (a : FVec Ideal S16x64x256 φ₁) (b : FVec Ideal S16x256x65 φ₂) (c : Fin 16) :
    sl3 (matmul dot_S16x64x256_S16x256x65_S16x64x65_2_1_1_2_0_0 prec a b (constant S16x64x65 .f32 0x00000000#32)) c = mm (sl3 a c) (sl3 b c) :=
  funext fun i => funext fun j => mmkv_apply prec a b c i j

theorem mmTqkm_apply {φ₁ φ₂ : FTy} (prec : Option ContractPrecision) (a : FVec Ideal S16x256x64 φ₁) (b : FVec Ideal S16x64x64 φ₂)
    (c : Fin 16) (i : Fin 256) (j : Fin 64) :
    matmul dot_S16x256x64_S16x64x64_S16x256x64_2_2_1_1_0_0 prec a b (constant S16x256x64 .f32 0x00000000#32) (ix3 c i j)
      = ∑ k : Fin 64, a (ix3 c i k) * b (ix3 c j k) := by
  refine (Ideal.matmul_constant_zero_apply dot_S16x256x64_S16x64x64_S16x256x64_2_2_1_1_0_0 prec a b (ix3 c i j)).trans ?_
  rw [← Equiv.sum_comp (contrEquiv1 dot_S16x256x64_S16x64x64_S16x256x64_2_2_1_1_0_0 64 rfl rfl).symm]
  refine Finset.sum_congr rfl fun k _ => ?_
  have hk := contrEquiv1_symm_val dot_S16x256x64_S16x64x64_S16x256x64_2_2_1_1_0_0 64 rfl rfl k
  generalize (contrEquiv1 dot_S16x256x64_S16x64x64_S16x256x64_2_2_1_1_0_0 64 rfl rfl).symm k = q at hk
  have el : dot_S16x256x64_S16x64x64_S16x256x64_2_2_1_1_0_0.lhsIdx (ix3 c i j) q = ix3 c i k := funext fun ax => Fin.ext (
    match ax with
    | ⟨0, _⟩ => by
      show (dot_S16x256x64_S16x64x64_S16x256x64_2_2_1_1_0_0.lhsIdx (ix3 c i j) q 0).val = c.val
      unfold DotDims.lhsIdx
      rw [dif_pos (show (0 : Fin S16x256x64.rank) ∈ dot_S16x256x64_S16x64x64_S16x256x64_2_2_1_1_0_0.lhsBatch by decide)]
      rfl
    | ⟨1, _⟩ => by
      show (dot_S16x256x64_S16x64x64_S16x256x64_2_2_1_1_0_0.lhsIdx (ix3 c i j) q 1).val = i.val
      unfold DotDims.lhsIdx
      rw [dif_neg (show ¬(1 : Fin S16x256x64.rank) ∈ dot_S16x256x64_S16x64x64_S16x256x64_2_2_1_1_0_0.lhsBatch by decide), dif_pos (show (1 : Fin S16x256x64.rank) ∈ dot_S16x256x64_S16x64x64_S16x256x64_2_2_1_1_0_0.lhsNonContracting by decide)]
      rfl
    | ⟨2, _⟩ => (dot_S16x256x64_S16x64x64_S16x256x64_2_2_1_1_0_0.lhsIdx_val_of_single rfl (ix3 c i j) q).trans hk)
  have er : dot_S16x256x64_S16x64x64_S16x256x64_2_2_1_1_0_0.rhsIdx (ix3 c i j) q = ix3 c j k := funext fun ax => Fin.ext (
    match ax with
    | ⟨0, _⟩ => by
      show (dot_S16x256x64_S16x64x64_S16x256x64_2_2_1_1_0_0.rhsIdx (ix3 c i j) q 0).val = c.val
      unfold DotDims.rhsIdx
      rw [dif_pos (show (0 : Fin S16x64x64.rank) ∈ dot_S16x256x64_S16x64x64_S16x256x64_2_2_1_1_0_0.rhsBatch by decide)]
      rfl
    | ⟨1, _⟩ => by
      show (dot_S16x256x64_S16x64x64_S16x256x64_2_2_1_1_0_0.rhsIdx (ix3 c i j) q 1).val = j.val
      unfold DotDims.rhsIdx
      rw [dif_neg (show ¬(1 : Fin S16x64x64.rank) ∈ dot_S16x256x64_S16x64x64_S16x256x64_2_2_1_1_0_0.rhsBatch by decide), dif_pos (show (1 : Fin S16x64x64.rank) ∈ dot_S16x256x64_S16x64x64_S16x256x64_2_2_1_1_0_0.rhsNonContracting by decide)]
      rfl
    | ⟨2, _⟩ => (dot_S16x256x64_S16x64x64_S16x256x64_2_2_1_1_0_0.rhsIdx_val_of_single rfl (ix3 c i j) q).trans hk)
  rw [el, er]

/-- Slice by slice: the batched product is the product with the transpose of the slices. -/
theorem sl3_mmTqkm {φ₁ φ₂ : FTy} (prec : Option ContractPrecision) (a : FVec Ideal S16x256x64 φ₁) (b : FVec Ideal S16x64x64 φ₂) (c : Fin 16) :
    sl3 (matmul dot_S16x256x64_S16x64x64_S16x256x64_2_2_1_1_0_0 prec a b (constant S16x256x64 .f32 0x00000000#32)) c = mmT (sl3 a c) (sl3 b c) :=
  funext fun i => funext fun j => mmTqkm_apply prec a b c i j

theorem mmqkp_apply {φ₁ φ₂ : FTy} (prec : Option ContractPrecision) (a : FVec Ideal S16x256x64 φ₁) (b : FVec Ideal S16x64x64 φ₂)
    (c : Fin 16) (i : Fin 256) (j : Fin 64) :
    matmul dot_S16x256x64_S16x64x64_S16x256x64_2_1_1_2_0_0 prec a b (constant S16x256x64 .f32 0x00000000#32) (ix3 c i j)
      = ∑ k : Fin 64, a (ix3 c i k) * b (ix3 c k j) := by
  refine (Ideal.matmul_constant_zero_apply dot_S16x256x64_S16x64x64_S16x256x64_2_1_1_2_0_0 prec a b (ix3 c i j)).trans ?_
  rw [← Equiv.sum_comp (contrEquiv1 dot_S16x256x64_S16x64x64_S16x256x64_2_1_1_2_0_0 64 rfl rfl).symm]
  refine Finset.sum_congr rfl fun k _ => ?_
  have hk := contrEquiv1_symm_val dot_S16x256x64_S16x64x64_S16x256x64_2_1_1_2_0_0 64 rfl rfl k
  generalize (contrEquiv1 dot_S16x256x64_S16x64x64_S16x256x64_2_1_1_2_0_0 64 rfl rfl).symm k = q at hk
  have el : dot_S16x256x64_S16x64x64_S16x256x64_2_1_1_2_0_0.lhsIdx (ix3 c i j) q = ix3 c i k := funext fun ax => Fin.ext (
    match ax with
    | ⟨0, _⟩ => by
      show (dot_S16x256x64_S16x64x64_S16x256x64_2_1_1_2_0_0.lhsIdx (ix3 c i j) q 0).val = c.val
      unfold DotDims.lhsIdx
      rw [dif_pos (show (0 : Fin S16x256x64.rank) ∈ dot_S16x256x64_S16x64x64_S16x256x64_2_1_1_2_0_0.lhsBatch by decide)]
      rfl
    | ⟨1, _⟩ => by
      show (dot_S16x256x64_S16x64x64_S16x256x64_2_1_1_2_0_0.lhsIdx (ix3 c i j) q 1).val = i.val
      unfold DotDims.lhsIdx
      rw [dif_neg (show ¬(1 : Fin S16x256x64.rank) ∈ dot_S16x256x64_S16x64x64_S16x256x64_2_1_1_2_0_0.lhsBatch by decide), dif_pos (show (1 : Fin S16x256x64.rank) ∈ dot_S16x256x64_S16x64x64_S16x256x64_2_1_1_2_0_0.lhsNonContracting by decide)]
      rfl
    | ⟨2, _⟩ => (dot_S16x256x64_S16x64x64_S16x256x64_2_1_1_2_0_0.lhsIdx_val_of_single rfl (ix3 c i j) q).trans hk)
  have er : dot_S16x256x64_S16x64x64_S16x256x64_2_1_1_2_0_0.rhsIdx (ix3 c i j) q = ix3 c k j := funext fun ax => Fin.ext (
    match ax with
    | ⟨0, _⟩ => by
      show (dot_S16x256x64_S16x64x64_S16x256x64_2_1_1_2_0_0.rhsIdx (ix3 c i j) q 0).val = c.val
      unfold DotDims.rhsIdx
      rw [dif_pos (show (0 : Fin S16x64x64.rank) ∈ dot_S16x256x64_S16x64x64_S16x256x64_2_1_1_2_0_0.rhsBatch by decide)]
      rfl
    | ⟨1, _⟩ => (dot_S16x256x64_S16x64x64_S16x256x64_2_1_1_2_0_0.rhsIdx_val_of_single rfl (ix3 c i j) q).trans hk
    | ⟨2, _⟩ => by
      show (dot_S16x256x64_S16x64x64_S16x256x64_2_1_1_2_0_0.rhsIdx (ix3 c i j) q 2).val = j.val
      unfold DotDims.rhsIdx
      rw [dif_neg (show ¬(2 : Fin S16x64x64.rank) ∈ dot_S16x256x64_S16x64x64_S16x256x64_2_1_1_2_0_0.rhsBatch by decide), dif_pos (show (2 : Fin S16x64x64.rank) ∈ dot_S16x256x64_S16x64x64_S16x256x64_2_1_1_2_0_0.rhsNonContracting by decide)]
      rfl)
  rw [el, er]

/-- Slice by slice: the batched product is the product of the slices. -/
theorem sl3_mmqkp {φ₁ φ₂ : FTy} (prec : Option ContractPrecision) (a : FVec Ideal S16x256x64 φ₁) (b : FVec Ideal S16x64x64 φ₂) (c : Fin 16) :
    sl3 (matmul dot_S16x256x64_S16x64x64_S16x256x64_2_1_1_2_0_0 prec a b (constant S16x256x64 .f32 0x00000000#32)) c = mm (sl3 a c) (sl3 b c) :=
  funext fun i => funext fun j => mmqkp_apply prec a b c i j

theorem mmlast_apply {φ₁ φ₂ : FTy} (prec : Option ContractPrecision) (a : FVec Ideal S16x256x64 φ₁) (b : FVec Ideal S16x64x65 φ₂)
    (c : Fin 16) (i : Fin 256) (j : Fin 65) :
    matmul dot_S16x256x64_S16x64x65_S16x256x65_2_1_1_2_0_0 prec a b (constant S16x256x65 .f32 0x00000000#32) (ix3 c i j)
      = ∑ k : Fin 64, a (ix3 c i k) * b (ix3 c k j) := by
  refine (Ideal.matmul_constant_zero_apply dot_S16x256x64_S16x64x65_S16x256x65_2_1_1_2_0_0 prec a b (ix3 c i j)).trans ?_
  rw [← Equiv.sum_comp (contrEquiv1 dot_S16x256x64_S16x64x65_S16x256x65_2_1_1_2_0_0 64 rfl rfl).symm]
  refine Finset.sum_congr rfl fun k _ => ?_
  have hk := contrEquiv1_symm_val dot_S16x256x64_S16x64x65_S16x256x65_2_1_1_2_0_0 64 rfl rfl k
  generalize (contrEquiv1 dot_S16x256x64_S16x64x65_S16x256x65_2_1_1_2_0_0 64 rfl rfl).symm k = q at hk
  have el : dot_S16x256x64_S16x64x65_S16x256x65_2_1_1_2_0_0.lhsIdx (ix3 c i j) q = ix3 c i k := funext fun ax => Fin.ext (
    match ax with
    | ⟨0, _⟩ => by
      show (dot_S16x256x64_S16x64x65_S16x256x65_2_1_1_2_0_0.lhsIdx (ix3 c i j) q 0).val = c.val
      unfold DotDims.lhsIdx
      rw [dif_pos (show (0 : Fin S16x256x64.rank) ∈ dot_S16x256x64_S16x64x65_S16x256x65_2_1_1_2_0_0.lhsBatch by decide)]
      rfl
    | ⟨1, _⟩ => by
      show (dot_S16x256x64_S16x64x65_S16x256x65_2_1_1_2_0_0.lhsIdx (ix3 c i j) q 1).val = i.val
      unfold DotDims.lhsIdx
      rw [dif_neg (show ¬(1 : Fin S16x256x64.rank) ∈ dot_S16x256x64_S16x64x65_S16x256x65_2_1_1_2_0_0.lhsBatch by decide), dif_pos (show (1 : Fin S16x256x64.rank) ∈ dot_S16x256x64_S16x64x65_S16x256x65_2_1_1_2_0_0.lhsNonContracting by decide)]
      rfl
    | ⟨2, _⟩ => (dot_S16x256x64_S16x64x65_S16x256x65_2_1_1_2_0_0.lhsIdx_val_of_single rfl (ix3 c i j) q).trans hk)
  have er : dot_S16x256x64_S16x64x65_S16x256x65_2_1_1_2_0_0.rhsIdx (ix3 c i j) q = ix3 c k j := funext fun ax => Fin.ext (
    match ax with
    | ⟨0, _⟩ => by
      show (dot_S16x256x64_S16x64x65_S16x256x65_2_1_1_2_0_0.rhsIdx (ix3 c i j) q 0).val = c.val
      unfold DotDims.rhsIdx
      rw [dif_pos (show (0 : Fin S16x64x65.rank) ∈ dot_S16x256x64_S16x64x65_S16x256x65_2_1_1_2_0_0.rhsBatch by decide)]
      rfl
    | ⟨1, _⟩ => (dot_S16x256x64_S16x64x65_S16x256x65_2_1_1_2_0_0.rhsIdx_val_of_single rfl (ix3 c i j) q).trans hk
    | ⟨2, _⟩ => by
      show (dot_S16x256x64_S16x64x65_S16x256x65_2_1_1_2_0_0.rhsIdx (ix3 c i j) q 2).val = j.val
      unfold DotDims.rhsIdx
      rw [dif_neg (show ¬(2 : Fin S16x64x65.rank) ∈ dot_S16x256x64_S16x64x65_S16x256x65_2_1_1_2_0_0.rhsBatch by decide), dif_pos (show (2 : Fin S16x64x65.rank) ∈ dot_S16x256x64_S16x64x65_S16x256x65_2_1_1_2_0_0.rhsNonContracting by decide)]
      rfl)
  rw [el, er]

/-- Slice by slice: the batched product is the product of the slices. -/
theorem sl3_mmlast {φ₁ φ₂ : FTy} (prec : Option ContractPrecision) (a : FVec Ideal S16x256x64 φ₁) (b : FVec Ideal S16x64x65 φ₂) (c : Fin 16) :
    sl3 (matmul dot_S16x256x64_S16x64x65_S16x256x65_2_1_1_2_0_0 prec a b (constant S16x256x65 .f32 0x00000000#32)) c = mm (sl3 a c) (sl3 b c) :=
  funext fun i => funext fun j => mmlast_apply prec a b c i j

/-! ## Pointwise operations, slice by slice (all by unfolding) -/

theorem sl3_act {B M N : ℕ} (v : FVec Ideal ⟨3, ![B, M, N]⟩ .f32) (c : Fin B) :
    sl3 (addf (exp (minimumf v (broadcast ⟨3, ![B, M, N]⟩ (Scalar.ofBits .f32 0x40A00000#32))))
      (maximumf (subf v (broadcast ⟨3, ![B, M, N]⟩ (Scalar.ofBits .f32 0x40A00000#32)))
        (broadcast ⟨3, ![B, M, N]⟩ (Scalar.ofBits .f32 0x00000000#32)))) c = actM (sl3 v c) := rfl

theorem sl3_subf {B M N : ℕ} (a b : FVec Ideal ⟨3, ![B, M, N]⟩ .f32) (c : Fin B) :
    sl3 (subf a b) c = msub (sl3 a c) (sl3 b c) := rfl

theorem sl3_scale {B M N : ℕ} (w : BitVec 32) (a : FVec Ideal ⟨3, ![B, M, N]⟩ .f32) (c : Fin B) :
    sl3 (mulf (broadcast ⟨3, ![B, M, N]⟩ (Scalar.ofBits .f32 w)) a) c = mscale w (sl3 a c) := rfl

theorem sl3_addScalar {B M N : ℕ} (w : BitVec 32) (a : FVec Ideal ⟨3, ![B, M, N]⟩ .f32) (c : Fin B) :
    sl3 (addf a (broadcast ⟨3, ![B, M, N]⟩ (Scalar.ofBits .f32 w))) c = fun n e => sl3 a c n e + W w := rfl

theorem sl3_divf {B M N : ℕ} (a b : FVec Ideal ⟨3, ![B, M, N]⟩ .f32) (c : Fin B) :
    sl3 (divf a b) c = fun n e => Ideal.div (sl3 a c n e) (sl3 b c n e) := rfl

/-- Narrowing to bf16 changes nothing on the extended reals. -/
theorem sl3_truncf {B M N : ℕ} (a : FVec Ideal ⟨3, ![B, M, N]⟩ .f32) (h : FTy.bf16.bits < FTy.f32.bits) (c : Fin B) :
    sl3 (truncf .bf16 a h : FVec Ideal ⟨3, ![B, M, N]⟩ .bf16) c = sl3 a c := rfl

/-! ## The identity matrix and its scalar multiples -/

/-- The comparison of the two coordinates, as words, decides their equality: both are below 2³². -/
theorem cmpi_coords (i j : Fin 64) :
    IntOp.cmpi .eq (BitVec.ofNat 32 i.val) (BitVec.ofNat 32 j.val) = if i = j then 1#1 else 0#1 := by
  by_cases h : i = j
  · subst h; simp [IntOp.cmpi]
  · have hv : i.val ≠ j.val := fun e => h (Fin.ext e)
    have hne : BitVec.ofNat 32 i.val ≠ BitVec.ofNat 32 j.val := by
      intro e
      have := congrArg BitVec.toNat e
      simp only [BitVec.toNat_ofNat] at this
      have hi := i.isLt; have hj := j.isLt
      omega
    rw [if_neg h]
    show BitVec.ofBool (BitVec.ofNat 32 i.val == BitVec.ofNat 32 j.val) = 0#1
    rw [beq_eq_false_iff_ne.mpr hne]
    rfl

/-- select (row == column) 1.0 0.0 is the identity matrix. -/
theorem pay9_read (i j : Fin 64) : k1_pay9 (F := Ideal) (ix2 i j) = eye i j := by
  unfold k1_pay9
  show Scalar.select (IntOp.cmpi .eq (iota .tc S64x64 32 [0] iota_S64x64_d0_w32 (ix2 i j)) (iota .tc S64x64 32 [1] iota_S64x64_d1_w32 (ix2 i j)))
      (W 0x3F800000#32) (W 0x00000000#32) = eye i j
  rw [iota_single_apply, iota_single_apply]
  show Scalar.select (IntOp.cmpi .eq (BitVec.ofNat 32 i.val) (BitVec.ofNat 32 j.val)) _ _ = _
  have h1 : W 0x3F800000#32 = 1 := Ideal.ofBits_one_f32
  rw [cmpi_coords, h1, W_zero]
  unfold eye
  by_cases h : i = j
  · rw [if_pos h, if_pos h]; exact select_one _ _
  · rw [if_neg h, if_neg h]; exact select_zero _ _

/-- A matrix w I broadcast along a new leading batch axis: every slice is w I. -/
theorem sl3_cI (w : BitVec 32) (I : FVec Ideal S64x64 .f32) (hI : ∀ i j, I (ix2 i j) = eye i j) (c : Fin 16) :
    sl3 (broadcastTo S16x64x64 (shapeCast S1x64x64 (mulf (broadcast S64x64 (Scalar.ofBits .f32 w)) I) shapeCasts_S64x64_S1x64x64)
      broadcasts_S1x64x64_S16x64x64) c = cI w := by
  funext i j
  show broadcastTo S16x64x64 _ broadcasts_S1x64x64_S16x64x64 (ix3 c i j) = _
  refine (broadcastTo_apply _ broadcasts_S1x64x64_S16x64x64 (ix3 c i j) (ix3 (0 : Fin 1) i j) ?_).trans ?_
  · intro a
    match a with
    | ⟨0, _⟩ => rfl
    | ⟨1, _⟩ => rfl
    | ⟨2, _⟩ => rfl
  · refine (shapeCast_ab_1ab_apply _ shapeCasts_S64x64_S1x64x64 (0 : Fin 1) i j).trans ?_
    show W w * I (ix2 i j) = W w * eye i j
    rw [hI]

/-! ## The two column slices and the column broadcast of the last step -/

/-- The first 64 of 65 columns. -/
theorem sl3_sliceLeft (x : FVec Ideal S16x256x65 .f32) (c : Fin 16) :
    sl3 (extractStridedSlice S16x256x64 ![0, 0, 0] x slices_S16x256x65_o0_0_0_S16x256x64) c
      = fun n e => sl3 x c n (Fin.castSucc e) := by
  funext n e
  show extractStridedSlice S16x256x64 ![0, 0, 0] x slices_S16x256x65_o0_0_0_S16x256x64 (ix3 c n e) = x (ix3 c n (Fin.castSucc e))
  refine extractStridedSlice_apply _ x _ (ix3 c n e) (ix3 c n (Fin.castSucc e)) fun a => ?_
  match a with
  | ⟨0, _⟩ => exact (Nat.zero_add _).symm
  | ⟨1, _⟩ => exact (Nat.zero_add _).symm
  | ⟨2, _⟩ => exact (Nat.zero_add _).symm

/-- The last column, kept as a 256 x 1 matrix. -/
theorem sl3_sliceLast (x : FVec Ideal S16x256x65 .f32) (c : Fin 16) :
    sl3 (extractStridedSlice S16x256x1 ![0, 0, 64] x slices_S16x256x65_o0_0_64_S16x256x1) c
      = fun n _ => sl3 x c n (Fin.last 64) := by
  funext n u
  show extractStridedSlice S16x256x1 ![0, 0, 64] x slices_S16x256x65_o0_0_64_S16x256x1 (ix3 c n u) = x (ix3 c n (Fin.last 64))
  refine extractStridedSlice_apply _ x _ (ix3 c n u) (ix3 c n (Fin.last 64)) fun a => ?_
  match a with
  | ⟨0, _⟩ => exact (Nat.zero_add _).symm
  | ⟨1, _⟩ => exact (Nat.zero_add _).symm
  | ⟨2, _⟩ =>
    show 64 = 64 + u.val
    have := u.isLt
    omega

/-- A 256 x 1 column repeated along 64 columns. -/
theorem sl3_bcastCol (y : FVec Ideal S16x256x1 .f32) (c : Fin 16) :
    sl3 (broadcastTo S16x256x64 y broadcasts_S16x256x1_S16x256x64) c = fun n _ => sl3 y c n 0 := by
  funext n e
  show broadcastTo S16x256x64 y broadcasts_S16x256x1_S16x256x64 (ix3 c n e) = y (ix3 c n (0 : Fin 1))
  refine broadcastTo_apply y broadcasts_S16x256x1_S16x256x64 (ix3 c n e) (ix3 c n (0 : Fin 1)) fun a => ?_
  match a with
  | ⟨0, _⟩ => rfl
  | ⟨1, _⟩ => rfl
  | ⟨2, _⟩ => rfl

end Cert.Landmark.Ker

end
-- ==== Proof.KerBody.lean ====
import proofs.«114225_j21509196218786_1_alg».proof.Proof.KerOps

/-
  The two kernel bodies, one head at a time.

  Each body stores one value, a function of the blocks it loads, and every operation in it treats the heads of a block
  separately. So the slice of the stored value at head `c` is a function of the slices of the loaded blocks at `c`:
  for the first body the landmark kernel act (qm kmᵀ), for the second the attention output built on six steps of the
  pseudo-inverse iteration. The second body is read in stretches that do not follow the iteration: a stretch ends in
  the middle of a step. What a stretch hands on is the current iterate z, the product x z, the product
  (x z)(7 I - x z) and the matrix 15 I; the next stretch finishes that step, 13 I - x z (15 I - ...), the product with
  z, the factor ¼, and runs one more whole step. Three such stretches after the opening one make six steps.
-/

noncomputable section

namespace Cert.Landmark.Ker

open Idealize.ShloMosaic Idealize.ShloMosaic.ValueIdx
open Cert.KernelIdeal Cert.KernelIdeal.Gen Cert.Landmark

/-! ## The first body: the landmark kernel -/

theorem pay0_read (x0 x1 : Vec Ideal S128x64x64 .f32) (c : Fin 128) :
    sl3 (k0_pay1 x0 x1) c = temp (sl3 x0 c) (sl3 x1 c) := by
  unfold k0_pay1
  rw [shapeCast_self, shapeCast_self]
  simp only [sl3_act, sl3_mmT128]
  rfl

theorem temp_block (x0 x1 : Vec Ideal S128x64x64 .f32) (c : Fin 128) :
    sl3 (out0_2 (F := Ideal) x0 x1) c = temp (sl3 x0 c) (sl3 x1 c) := by
  unfold out0_2
  rw [View.canon_unit_zero hz3]
  simp only [View.ld_unit_zero (S := S128x64x64) hz3]
  exact pay0_read x0 x1 c

/-! ## The second body: the loads -/

theorem pay2_read (x : Vec Ideal S16x256x64 .bf16) : k1_pay2 x = x := by unfold k1_pay2; exact shapeCast_self _ _
theorem pay3_read (x : Vec Ideal S16x256x64 .bf16) : k1_pay3 x = x := by unfold k1_pay3; exact shapeCast_self _ _
theorem pay4_read (x : Vec Ideal S16x256x65 .bf16) : k1_pay4 x = x := by unfold k1_pay4; exact shapeCast_self _ _
theorem pay5_read (x : Vec Ideal S16x64x64 .bf16) : k1_pay5 x = x := by unfold k1_pay5; exact shapeCast_self _ _
theorem pay6_read (x : Vec Ideal S16x64x64 .bf16) : k1_pay6 x = x := by unfold k1_pay6; exact shapeCast_self _ _
theorem pay7_read (x : Vec Ideal S16x64x64 .f32) : k1_pay7 x = x := by unfold k1_pay7; exact shapeCast_self _ _
theorem pay8_read (x : Vec Ideal S16x64x64 .f32) : k1_pay8 x = x := by unfold k1_pay8; exact shapeCast_self _ _

/-! ## The opening stretch: x z₀, (x z₀)(7 I - x z₀), 15 I -/

theorem pay10_read (x z : Vec Ideal S16x64x64 .f32) (c : Fin 16) :
    sl3 (k1_pay10 x z) c = mm (sl3 x c) (sl3 z c) := by
  unfold k1_pay10
  rw [pay7_read, pay8_read]
  exact sl3_mm16 _ x z c

theorem pay11_read (x z : Vec Ideal S16x64x64 .f32) (c : Fin 16) :
    sl3 (k1_pay11 x z) c = mm (mm (sl3 x c) (sl3 z c)) (cIsub 0x40E00000#32 (mm (sl3 x c) (sl3 z c))) := by
  unfold k1_pay11
  simp only [sl3_mm16, sl3_subf, sl3_cI _ _ pay9_read, pay10_read, cIsub_eq]

theorem pay12_read (c : Fin 16) : sl3 (k1_pay12 (F := Ideal)) c = cI 0x41700000#32 := by
  unfold k1_pay12
  exact sl3_cI _ _ pay9_read c

/-! ## A stretch: the rest of one step, then a whole step -/

/-- From z, x z, (x z)(7 I - x z) and 15 I: two steps on from z. -/
theorem pay13_read (x z : FVec Ideal S16x64x64 .f32) (I : FVec Ideal S64x64 .f32) (xz w c15 : FVec Ideal S16x64x64 .f32) (c : Fin 16) (X Z : Mat 64 64)
    (hI : ∀ i j, I (ix2 i j) = eye i j) (hx : sl3 x c = X) (hz : sl3 z c = Z)
    (hxz : sl3 xz c = mm X Z) (hw : sl3 w c = mm (mm X Z) (cIsub 0x40E00000#32 (mm X Z)))
    (hc : sl3 c15 c = cI 0x41700000#32) :
    sl3 (k1_pay13 x z I xz w c15) c = stepK X (stepK X Z) := by
  unfold k1_pay13
  simp only [sl3_scale, sl3_mm16, sl3_subf, sl3_cI _ I hI, hx, hz, hxz, hw, hc, stepK_eq, nsT, cIsub_eq]

/-- The next product x z'' for the result z'' of the stretch. -/
theorem pay14_read (x z : FVec Ideal S16x64x64 .f32) (I : FVec Ideal S64x64 .f32) (xz w c15 : FVec Ideal S16x64x64 .f32) (c : Fin 16) :
    sl3 (k1_pay14 x z I xz w c15) c = mm (sl3 x c) (sl3 (k1_pay13 x z I xz w c15) c) := by
  unfold k1_pay14
  exact sl3_mm16 _ x _ c

/-- (x z'')(7 I - x z''). -/
theorem pay15_read (x z : FVec Ideal S16x64x64 .f32) (I : FVec Ideal S64x64 .f32) (xz w c15 : FVec Ideal S16x64x64 .f32) (c : Fin 16) (hI : ∀ i j, I (ix2 i j) = eye i j) :
    sl3 (k1_pay15 x z I xz w c15) c
      = mm (sl3 (k1_pay14 x z I xz w c15) c) (cIsub 0x40E00000#32 (sl3 (k1_pay14 x z I xz w c15) c)) := by
  unfold k1_pay15
  simp only [sl3_mm16, sl3_subf, sl3_cI _ I hI, cIsub_eq]

/-- 15 I on every head. -/
theorem pay16_read (I : FVec Ideal S64x64 .f32) (c : Fin 16) (hI : ∀ i j, I (ix2 i j) = eye i j) :
    sl3 (k1_pay16 I) c = cI 0x41700000#32 := by
  unfold k1_pay16
  exact sl3_cI _ I hI c

/-- The same stretch again. -/
theorem pay17_read (x : FVec Ideal S16x64x64 .f32) (I : FVec Ideal S64x64 .f32) (z xz w c15 : FVec Ideal S16x64x64 .f32) (c : Fin 16) (X Z : Mat 64 64)
    (hI : ∀ i j, I (ix2 i j) = eye i j) (hx : sl3 x c = X) (hz : sl3 z c = Z)
    (hxz : sl3 xz c = mm X Z) (hw : sl3 w c = mm (mm X Z) (cIsub 0x40E00000#32 (mm X Z)))
    (hc : sl3 c15 c = cI 0x41700000#32) :
    sl3 (k1_pay17 x I z xz w c15) c = stepK X (stepK X Z) := by
  unfold k1_pay17
  simp only [sl3_scale, sl3_mm16, sl3_subf, sl3_cI _ I hI, hx, hz, hxz, hw, hc, stepK_eq, nsT, cIsub_eq]

/-- The next product x z'' for the result z'' of the stretch. -/
theorem pay18_read (x : FVec Ideal S16x64x64 .f32) (I : FVec Ideal S64x64 .f32) (z xz w c15 : FVec Ideal S16x64x64 .f32) (c : Fin 16) :
    sl3 (k1_pay18 x I z xz w c15) c = mm (sl3 x c) (sl3 (k1_pay17 x I z xz w c15) c) := by
  unfold k1_pay18
  exact sl3_mm16 _ x _ c

/-- (x z'')(7 I - x z''). -/
theorem pay19_read (x : FVec Ideal S16x64x64 .f32) (I : FVec Ideal S64x64 .f32) (z xz w c15 : FVec Ideal S16x64x64 .f32) (c : Fin 16) (hI : ∀ i j, I (ix2 i j) = eye i j) :
    sl3 (k1_pay19 x I z xz w c15) c
      = mm (sl3 (k1_pay18 x I z xz w c15) c) (cIsub 0x40E00000#32 (sl3 (k1_pay18 x I z xz w c15) c)) := by
  unfold k1_pay19
  simp only [sl3_mm16, sl3_subf, sl3_cI _ I hI, cIsub_eq]

/-- 15 I on every head. -/
theorem pay20_read (I : FVec Ideal S64x64 .f32) (c : Fin 16) (hI : ∀ i j, I (ix2 i j) = eye i j) :
    sl3 (k1_pay20 I) c = cI 0x41700000#32 := by
  unfold k1_pay20
  exact sl3_cI _ I hI c

/-- The same stretch a third time; its result is narrowed to bf16, which changes nothing here. -/
theorem pay21_read (x : FVec Ideal S16x64x64 .f32) (I : FVec Ideal S64x64 .f32) (z xz w c15 : FVec Ideal S16x64x64 .f32) (c : Fin 16) (X Z : Mat 64 64)
    (hI : ∀ i j, I (ix2 i j) = eye i j) (hx : sl3 x c = X) (hz : sl3 z c = Z)
    (hxz : sl3 xz c = mm X Z) (hw : sl3 w c = mm (mm X Z) (cIsub 0x40E00000#32 (mm X Z)))
    (hc : sl3 c15 c = cI 0x41700000#32) :
    sl3 (k1_pay21 x I z xz w c15) c = stepK X (stepK X Z) := by
  unfold k1_pay21
  simp only [sl3_truncf, sl3_scale, sl3_mm16, sl3_subf, sl3_cI _ I hI, hx, hz, hxz, hw, hc, stepK_eq, nsT, cIsub_eq]

/-! ## The tail: the two kernels against the landmarks and the keys, the products, the normalisation -/

/-- act (qm kᵀ). -/
theorem pay22_read (k : FVec Ideal S16x256x64 .bf16) (qm : FVec Ideal S16x64x64 .bf16) (c : Fin 16) :
    sl3 (k1_pay22 k qm) c = actM (mmT (sl3 qm c) (sl3 k c)) := by
  unfold k1_pay22
  simp only [sl3_truncf, sl3_act, sl3_mmTqmk]

/-- The output for one head with the key kernel `A` = act (qm kᵀ) given. -/
def attnA (pinv : Mat 64 64) (q : Mat 256 64) (v1 : Mat 256 65) (km : Mat 64 64) (A : Mat 64 256) : Mat 256 64 := fun n e =>
  Ideal.div (mm (mm (actM (mmT q km)) pinv) (mm A v1) n (Fin.castSucc e))
    (mm (mm (actM (mmT q km)) pinv) (mm A v1) n (Fin.last 64) + W 0x2B8CBCCC#32)

theorem attn_eq (pinv : Mat 64 64) (q k : Mat 256 64) (v1 : Mat 256 65) (qm km : Mat 64 64) :
    attn pinv q k v1 qm km = attnA pinv q v1 km (actM (mmT qm k)) := rfl

theorem pay1_read (q : FVec Ideal S16x256x64 .bf16) (v1 : FVec Ideal S16x256x65 .bf16) (km pinv : FVec Ideal S16x64x64 .bf16)
    (A : FVec Ideal S16x64x256 .bf16) (c : Fin 16) :
    sl3 (k1_pay1 q v1 km pinv A (constant S16x64x65 .f32 0x00000000#32)) c
      = attnA (sl3 pinv c) (sl3 q c) (sl3 v1 c) (sl3 km c) (sl3 A c) := by
  unfold k1_pay1
  simp only [sl3_divf, sl3_sliceLeft, sl3_bcastCol, sl3_addScalar, sl3_sliceLast, sl3_mmlast, sl3_truncf, sl3_mmqkp,
    sl3_act, sl3_mmTqkm, sl3_mmkv]
  rfl

/-! ## The second body assembled -/

theorem main_block (x0 x1 : Vec Ideal S16x256x64 .bf16) (x2 : Vec Ideal S16x256x65 .bf16) (x3 x4 : Vec Ideal S16x64x64 .bf16)
    (x5 x6 : Vec Ideal S16x64x64 .f32) (c : Fin 16) :
    sl3 (out1_7 (F := Ideal) x0 x1 x2 x3 x4 x5 x6) c
      = attn (iter6 stepK (sl3 x5 c) (sl3 x6 c)) (sl3 x0 c) (sl3 x1 c) (sl3 x2 c) (sl3 x3 c) (sl3 x4 c) := by
  unfold out1_7
  rw [View.canon_unit_zero hz3]
  simp only [View.ld_unit_zero (S := S16x256x64) hz3, View.ld_unit_zero (S := S16x256x65) hz3,
    View.ld_unit_zero (S := S16x64x64) hz3]
  rw [pay2_read, pay3_read, pay4_read, pay5_read, pay6_read, pay7_read, pay8_read]
  -- the opening stretch
  have h9 : ∀ i j, k1_pay9 (F := Ideal) (ix2 i j) = eye i j := pay9_read
  have h10 := pay10_read x5 x6 c
  have h11 := pay11_read x5 x6 c
  have h12 := pay12_read c
  generalize k1_pay9 (F := Ideal) = I at h9 ⊢
  generalize k1_pay10 x5 x6 = a10 at h10 ⊢
  generalize k1_pay11 x5 x6 = a11 at h11 ⊢
  generalize k1_pay12 (F := Ideal) = a12 at h12 ⊢
  -- steps 1 and 2
  have h13 := pay13_read x5 x6 I a10 a11 a12 c _ _ h9 rfl rfl h10 h11 h12
  have h14 := pay14_read x5 x6 I a10 a11 a12 c
  have h15 := pay15_read x5 x6 I a10 a11 a12 c h9
  have h16 := pay16_read I c h9
  rw [h13] at h14
  rw [h14] at h15
  generalize k1_pay13 x5 x6 I a10 a11 a12 = b13 at h13 ⊢
  generalize k1_pay14 x5 x6 I a10 a11 a12 = b14 at h14 ⊢
  generalize k1_pay15 x5 x6 I a10 a11 a12 = b15 at h15 ⊢
  generalize k1_pay16 I = b16 at h16 ⊢
  -- steps 3 and 4
  have h17 := pay17_read x5 I b13 b14 b15 b16 c _ _ h9 rfl h13 h14 h15 h16
  have h18 := pay18_read x5 I b13 b14 b15 b16 c
  have h19 := pay19_read x5 I b13 b14 b15 b16 c h9
  have h20 := pay20_read I c h9
  rw [h17] at h18
  rw [h18] at h19
  generalize k1_pay17 x5 I b13 b14 b15 b16 = c17 at h17 ⊢
  generalize k1_pay18 x5 I b13 b14 b15 b16 = c18 at h18 ⊢
  generalize k1_pay19 x5 I b13 b14 b15 b16 = c19 at h19 ⊢
  generalize k1_pay20 I = c20 at h20 ⊢
  -- steps 5 and 6
  have h21 := pay21_read x5 I c17 c18 c19 c20 c _ _ h9 rfl h17 h18 h19 h20
  generalize k1_pay21 x5 I c17 c18 c19 c20 = pinv at h21 ⊢
  -- the tail
  rw [pay1_read, pay22_read, h21, attn_eq]
  rfl

end Cert.Landmark.Ker

end
-- ==== Proof.RefOps.lean ====
/-
  The reference program, one operation at a time, read on one head.

  The program works on arrays of shape [256, 16, r, c]: 256 · 16 independent heads, each an r x c matrix of extended
  reals. Below, every kind of operation the program uses is read on the slice of its result at one head (b, h):
  a batched product is the matrix product (A B, or A Bᵀ when both last axes are contracted) of the operands' slices,
  a broadcast scalar is that scalar in every entry, the broadcast 64 x 64 identity is the identity in every head,
  and the pointwise operations act entry by entry.
-/
import proofs.«114225_j21509196218786_1_alg».proof.Proof.RefRead
import proofs.«114225_j21509196218786_1_alg».proof.Proof.Spec

noncomputable section

namespace Cert.Landmark.Ref

open Cert.ReferenceIdeal Cert.ReferenceIdeal.Gen Cert.ReferenceIdeal.ReadP Idealize.ShloMosaic Idealize.ShloMosaic.ValueIdx Idealize.ShloMosaic.StableHlo Cert.Landmark

/-- A rank-4 (or lower) f32 array of extended reals of the given shape. -/
abbrev Arr (S : Shape) := FVec Ideal S .f32

/-- A batched product contracting both operands' last axes: slice by slice it is A Bᵀ (64 x 64 times (64 x 64)ᵀ). -/
theorem sl4_dot_mmT_64_64 (X : Arr S256x16x64x64) (Z : Arr S256x16x64x64) (b : Fin 256) (h : Fin 16) :
    sl4 (Host.dotGeneral (F := Ideal) dot_S256x16x64x64_S256x16x64x64_S256x16x64x64_3_3_2_2_01_01 none X Z : Arr S256x16x64x64) b h = mmT (sl4 X b h) (sl4 Z b h) := by
  funext i j
  show Host.dotGeneral (F := Ideal) dot_S256x16x64x64_S256x16x64x64_S256x16x64x64_3_3_2_2_01_01 none X Z (ix4 b h i j) = ∑ t : Fin 64, X (ix4 b h i t) * Z (ix4 b h j t)
  simp only [Host.dotGeneral]
  rw [Ideal.dotGeneral_apply, ← Equiv.sum_comp (ValueIdx.contrEquiv1 dot_S256x16x64x64_S256x16x64x64_S256x16x64x64_3_3_2_2_01_01 64 rfl rfl).symm]
  refine Finset.sum_congr rfl fun t _ => ?_
  have hk := ValueIdx.contrEquiv1_symm_val dot_S256x16x64x64_S256x16x64x64_S256x16x64x64_3_3_2_2_01_01 64 rfl rfl t
  have el : dot_S256x16x64x64_S256x16x64x64_S256x16x64x64_3_3_2_2_01_01.lhsIdx (ix4 b h i j) ((ValueIdx.contrEquiv1 dot_S256x16x64x64_S256x16x64x64_S256x16x64x64_3_3_2_2_01_01 64 rfl rfl).symm t) = ix4 b h i t := funext fun a => Fin.ext (by
    match a with
    | ⟨0, _⟩ => exact lhs_main_v10_0 _ _
    | ⟨1, _⟩ => exact lhs_main_v10_1 _ _
    | ⟨2, _⟩ => exact lhs_main_v10_2 _ _
    | ⟨3, _⟩ => exact (lhs_main_v10_3 _ _).trans hk)
  have er : dot_S256x16x64x64_S256x16x64x64_S256x16x64x64_3_3_2_2_01_01.rhsIdx (ix4 b h i j) ((ValueIdx.contrEquiv1 dot_S256x16x64x64_S256x16x64x64_S256x16x64x64_3_3_2_2_01_01 64 rfl rfl).symm t) = ix4 b h j t := funext fun a => Fin.ext (by
    match a with
    | ⟨0, _⟩ => exact rhs_main_v10_0 _ _
    | ⟨1, _⟩ => exact rhs_main_v10_1 _ _
    | ⟨2, _⟩ => exact rhs_main_v10_2 _ _
    | ⟨3, _⟩ => exact (rhs_main_v10_3 _ _).trans hk)
  rw [el, er]

/-- A batched product contracting the left operand's last axis with the right operand's row axis: slice by slice it is the matrix product (64 x 64 times 64 x 64). -/
theorem sl4_dot_mm_64_64 (X : Arr S256x16x64x64) (Z : Arr S256x16x64x64) (b : Fin 256) (h : Fin 16) :
    sl4 (Host.dotGeneral (F := Ideal) dot_S256x16x64x64_S256x16x64x64_S256x16x64x64_3_2_2_3_01_01 none X Z : Arr S256x16x64x64) b h = mm (sl4 X b h) (sl4 Z b h) := by
  funext i j
  show Host.dotGeneral (F := Ideal) dot_S256x16x64x64_S256x16x64x64_S256x16x64x64_3_2_2_3_01_01 none X Z (ix4 b h i j) = ∑ t : Fin 64, X (ix4 b h i t) * Z (ix4 b h t j)
  simp only [Host.dotGeneral]
  rw [Ideal.dotGeneral_apply, ← Equiv.sum_comp (ValueIdx.contrEquiv1 dot_S256x16x64x64_S256x16x64x64_S256x16x64x64_3_2_2_3_01_01 64 rfl rfl).symm]
  refine Finset.sum_congr rfl fun t _ => ?_
  have hk := ValueIdx.contrEquiv1_symm_val dot_S256x16x64x64_S256x16x64x64_S256x16x64x64_3_2_2_3_01_01 64 rfl rfl t
  have el : dot_S256x16x64x64_S256x16x64x64_S256x16x64x64_3_2_2_3_01_01.lhsIdx (ix4 b h i j) ((ValueIdx.contrEquiv1 dot_S256x16x64x64_S256x16x64x64_S256x16x64x64_3_2_2_3_01_01 64 rfl rfl).symm t) = ix4 b h i t := funext fun a => Fin.ext (by
    match a with
    | ⟨0, _⟩ => exact lhs_main_v34_0 _ _
    | ⟨1, _⟩ => exact lhs_main_v34_1 _ _
    | ⟨2, _⟩ => exact lhs_main_v34_2 _ _
    | ⟨3, _⟩ => exact (lhs_main_v34_3 _ _).trans hk)
  have er : dot_S256x16x64x64_S256x16x64x64_S256x16x64x64_3_2_2_3_01_01.rhsIdx (ix4 b h i j) ((ValueIdx.contrEquiv1 dot_S256x16x64x64_S256x16x64x64_S256x16x64x64_3_2_2_3_01_01 64 rfl rfl).symm t) = ix4 b h t j := funext fun a => Fin.ext (by
    match a with
    | ⟨0, _⟩ => exact rhs_main_v34_0 _ _
    | ⟨1, _⟩ => exact rhs_main_v34_1 _ _
    | ⟨2, _⟩ => exact (rhs_main_v34_2 _ _).trans hk
    | ⟨3, _⟩ => exact rhs_main_v34_3 _ _)
  rw [el, er]

/-- A batched product contracting both operands' last axes: slice by slice it is A Bᵀ (64 x 64 times (256 x 64)ᵀ). -/
theorem sl4_dot_mmT_64_256 (X : Arr S256x16x64x64) (Z : Arr S256x16x256x64) (b : Fin 256) (h : Fin 16) :
    sl4 (Host.dotGeneral (F := Ideal) dot_S256x16x64x64_S256x16x256x64_S256x16x64x256_3_3_2_2_01_01 none X Z : Arr S256x16x64x256) b h = mmT (sl4 X b h) (sl4 Z b h) := by
  funext i j
  show Host.dotGeneral (F := Ideal) dot_S256x16x64x64_S256x16x256x64_S256x16x64x256_3_3_2_2_01_01 none X Z (ix4 b h i j) = ∑ t : Fin 64, X (ix4 b h i t) * Z (ix4 b h j t)
  simp only [Host.dotGeneral]
  rw [Ideal.dotGeneral_apply, ← Equiv.sum_comp (ValueIdx.contrEquiv1 dot_S256x16x64x64_S256x16x256x64_S256x16x64x256_3_3_2_2_01_01 64 rfl rfl).symm]
  refine Finset.sum_congr rfl fun t _ => ?_
  have hk := ValueIdx.contrEquiv1_symm_val dot_S256x16x64x64_S256x16x256x64_S256x16x64x256_3_3_2_2_01_01 64 rfl rfl t
  have el : dot_S256x16x64x64_S256x16x256x64_S256x16x64x256_3_3_2_2_01_01.lhsIdx (ix4 b h i j) ((ValueIdx.contrEquiv1 dot_S256x16x64x64_S256x16x256x64_S256x16x64x256_3_3_2_2_01_01 64 rfl rfl).symm t) = ix4 b h i t := funext fun a => Fin.ext (by
    match a with
    | ⟨0, _⟩ => exact lhs_main_v163_0 _ _
    | ⟨1, _⟩ => exact lhs_main_v163_1 _ _
    | ⟨2, _⟩ => exact lhs_main_v163_2 _ _
    | ⟨3, _⟩ => exact (lhs_main_v163_3 _ _).trans hk)
  have er : dot_S256x16x64x64_S256x16x256x64_S256x16x64x256_3_3_2_2_01_01.rhsIdx (ix4 b h i j) ((ValueIdx.contrEquiv1 dot_S256x16x64x64_S256x16x256x64_S256x16x64x256_3_3_2_2_01_01 64 rfl rfl).symm t) = ix4 b h j t := funext fun a => Fin.ext (by
    match a with
    | ⟨0, _⟩ => exact rhs_main_v163_0 _ _
    | ⟨1, _⟩ => exact rhs_main_v163_1 _ _
    | ⟨2, _⟩ => exact rhs_main_v163_2 _ _
    | ⟨3, _⟩ => exact (rhs_main_v163_3 _ _).trans hk)
  rw [el, er]

/-- A batched product contracting the left operand's last axis with the right operand's row axis: slice by slice it is the matrix product (64 x 256 times 256 x 65). -/
theorem sl4_dot_mm_64_256_65 (X : Arr S256x16x64x256) (Z : Arr S256x16x256x65) (b : Fin 256) (h : Fin 16) :
    sl4 (Host.dotGeneral (F := Ideal) dot_S256x16x64x256_S256x16x256x65_S256x16x64x65_3_2_2_3_01_01 none X Z : Arr S256x16x64x65) b h = mm (sl4 X b h) (sl4 Z b h) := by
  funext i j
  show Host.dotGeneral (F := Ideal) dot_S256x16x64x256_S256x16x256x65_S256x16x64x65_3_2_2_3_01_01 none X Z (ix4 b h i j) = ∑ t : Fin 256, X (ix4 b h i t) * Z (ix4 b h t j)
  simp only [Host.dotGeneral]
  rw [Ideal.dotGeneral_apply, ← Equiv.sum_comp (ValueIdx.contrEquiv1 dot_S256x16x64x256_S256x16x256x65_S256x16x64x65_3_2_2_3_01_01 256 rfl rfl).symm]
  refine Finset.sum_congr rfl fun t _ => ?_
  have hk := ValueIdx.contrEquiv1_symm_val dot_S256x16x64x256_S256x16x256x65_S256x16x64x65_3_2_2_3_01_01 256 rfl rfl t
  have el : dot_S256x16x64x256_S256x16x256x65_S256x16x64x65_3_2_2_3_01_01.lhsIdx (ix4 b h i j) ((ValueIdx.contrEquiv1 dot_S256x16x64x256_S256x16x256x65_S256x16x64x65_3_2_2_3_01_01 256 rfl rfl).symm t) = ix4 b h i t := funext fun a => Fin.ext (by
    match a with
    | ⟨0, _⟩ => exact lhs_main_v171_0 _ _
    | ⟨1, _⟩ => exact lhs_main_v171_1 _ _
    | ⟨2, _⟩ => exact lhs_main_v171_2 _ _
    | ⟨3, _⟩ => exact (lhs_main_v171_3 _ _).trans hk)
  have er : dot_S256x16x64x256_S256x16x256x65_S256x16x64x65_3_2_2_3_01_01.rhsIdx (ix4 b h i j) ((ValueIdx.contrEquiv1 dot_S256x16x64x256_S256x16x256x65_S256x16x64x65_3_2_2_3_01_01 256 rfl rfl).symm t) = ix4 b h t j := funext fun a => Fin.ext (by
    match a with
    | ⟨0, _⟩ => exact rhs_main_v171_0 _ _
    | ⟨1, _⟩ => exact rhs_main_v171_1 _ _
    | ⟨2, _⟩ => exact (rhs_main_v171_2 _ _).trans hk
    | ⟨3, _⟩ => exact rhs_main_v171_3 _ _)
  rw [el, er]

/-- A batched product contracting both operands' last axes: slice by slice it is A Bᵀ (256 x 64 times (64 x 64)ᵀ). -/
theorem sl4_dot_mmT_256_64 (X : Arr S256x16x256x64) (Z : Arr S256x16x64x64) (b : Fin 256) (h : Fin 16) :
    sl4 (Host.dotGeneral (F := Ideal) dot_S256x16x256x64_S256x16x64x64_S256x16x256x64_3_3_2_2_01_01 none X Z : Arr S256x16x256x64) b h = mmT (sl4 X b h) (sl4 Z b h) := by
  funext i j
  show Host.dotGeneral (F := Ideal) dot_S256x16x256x64_S256x16x64x64_S256x16x256x64_3_3_2_2_01_01 none X Z (ix4 b h i j) = ∑ t : Fin 64, X (ix4 b h i t) * Z (ix4 b h j t)
  simp only [Host.dotGeneral]
  rw [Ideal.dotGeneral_apply, ← Equiv.sum_comp (ValueIdx.contrEquiv1 dot_S256x16x256x64_S256x16x64x64_S256x16x256x64_3_3_2_2_01_01 64 rfl rfl).symm]
  refine Finset.sum_congr rfl fun t _ => ?_
  have hk := ValueIdx.contrEquiv1_symm_val dot_S256x16x256x64_S256x16x64x64_S256x16x256x64_3_3_2_2_01_01 64 rfl rfl t
  have el : dot_S256x16x256x64_S256x16x64x64_S256x16x256x64_3_3_2_2_01_01.lhsIdx (ix4 b h i j) ((ValueIdx.contrEquiv1 dot_S256x16x256x64_S256x16x64x64_S256x16x256x64_3_3_2_2_01_01 64 rfl rfl).symm t) = ix4 b h i t := funext fun a => Fin.ext (by
    match a with
    | ⟨0, _⟩ => exact lhs_main_v172_0 _ _
    | ⟨1, _⟩ => exact lhs_main_v172_1 _ _
    | ⟨2, _⟩ => exact lhs_main_v172_2 _ _
    | ⟨3, _⟩ => exact (lhs_main_v172_3 _ _).trans hk)
  have er : dot_S256x16x256x64_S256x16x64x64_S256x16x256x64_3_3_2_2_01_01.rhsIdx (ix4 b h i j) ((ValueIdx.contrEquiv1 dot_S256x16x256x64_S256x16x64x64_S256x16x256x64_3_3_2_2_01_01 64 rfl rfl).symm t) = ix4 b h j t := funext fun a => Fin.ext (by
    match a with
    | ⟨0, _⟩ => exact rhs_main_v172_0 _ _
    | ⟨1, _⟩ => exact rhs_main_v172_1 _ _
    | ⟨2, _⟩ => exact rhs_main_v172_2 _ _
    | ⟨3, _⟩ => exact (rhs_main_v172_3 _ _).trans hk)
  rw [el, er]

/-- A batched product contracting the left operand's last axis with the right operand's row axis: slice by slice it is the matrix product (256 x 64 times 64 x 64). -/
theorem sl4_dot_mm_256_64_64 (X : Arr S256x16x256x64) (Z : Arr S256x16x64x64) (b : Fin 256) (h : Fin 16) :
    sl4 (Host.dotGeneral (F := Ideal) dot_S256x16x256x64_S256x16x64x64_S256x16x256x64_3_2_2_3_01_01 none X Z : Arr S256x16x256x64) b h = mm (sl4 X b h) (sl4 Z b h) := by
  funext i j
  show Host.dotGeneral (F := Ideal) dot_S256x16x256x64_S256x16x64x64_S256x16x256x64_3_2_2_3_01_01 none X Z (ix4 b h i j) = ∑ t : Fin 64, X (ix4 b h i t) * Z (ix4 b h t j)
  simp only [Host.dotGeneral]
  rw [Ideal.dotGeneral_apply, ← Equiv.sum_comp (ValueIdx.contrEquiv1 dot_S256x16x256x64_S256x16x64x64_S256x16x256x64_3_2_2_3_01_01 64 rfl rfl).symm]
  refine Finset.sum_congr rfl fun t _ => ?_
  have hk := ValueIdx.contrEquiv1_symm_val dot_S256x16x256x64_S256x16x64x64_S256x16x256x64_3_2_2_3_01_01 64 rfl rfl t
  have el : dot_S256x16x256x64_S256x16x64x64_S256x16x256x64_3_2_2_3_01_01.lhsIdx (ix4 b h i j) ((ValueIdx.contrEquiv1 dot_S256x16x256x64_S256x16x64x64_S256x16x256x64_3_2_2_3_01_01 64 rfl rfl).symm t) = ix4 b h i t := funext fun a => Fin.ext (by
    match a with
    | ⟨0, _⟩ => exact lhs_main_v180_0 _ _
    | ⟨1, _⟩ => exact lhs_main_v180_1 _ _
    | ⟨2, _⟩ => exact lhs_main_v180_2 _ _
    | ⟨3, _⟩ => exact (lhs_main_v180_3 _ _).trans hk)
  have er : dot_S256x16x256x64_S256x16x64x64_S256x16x256x64_3_2_2_3_01_01.rhsIdx (ix4 b h i j) ((ValueIdx.contrEquiv1 dot_S256x16x256x64_S256x16x64x64_S256x16x256x64_3_2_2_3_01_01 64 rfl rfl).symm t) = ix4 b h t j := funext fun a => Fin.ext (by
    match a with
    | ⟨0, _⟩ => exact rhs_main_v180_0 _ _
    | ⟨1, _⟩ => exact rhs_main_v180_1 _ _
    | ⟨2, _⟩ => exact (rhs_main_v180_2 _ _).trans hk
    | ⟨3, _⟩ => exact rhs_main_v180_3 _ _)
  rw [el, er]

/-- A batched product contracting the left operand's last axis with the right operand's row axis: slice by slice it is the matrix product (256 x 64 times 64 x 65). -/
theorem sl4_dot_mm_256_64_65 (X : Arr S256x16x256x64) (Z : Arr S256x16x64x65) (b : Fin 256) (h : Fin 16) :
    sl4 (Host.dotGeneral (F := Ideal) dot_S256x16x256x64_S256x16x64x65_S256x16x256x65_3_2_2_3_01_01 none X Z : Arr S256x16x256x65) b h = mm (sl4 X b h) (sl4 Z b h) := by
  funext i j
  show Host.dotGeneral (F := Ideal) dot_S256x16x256x64_S256x16x64x65_S256x16x256x65_3_2_2_3_01_01 none X Z (ix4 b h i j) = ∑ t : Fin 64, X (ix4 b h i t) * Z (ix4 b h t j)
  simp only [Host.dotGeneral]
  rw [Ideal.dotGeneral_apply, ← Equiv.sum_comp (ValueIdx.contrEquiv1 dot_S256x16x256x64_S256x16x64x65_S256x16x256x65_3_2_2_3_01_01 64 rfl rfl).symm]
  refine Finset.sum_congr rfl fun t _ => ?_
  have hk := ValueIdx.contrEquiv1_symm_val dot_S256x16x256x64_S256x16x64x65_S256x16x256x65_3_2_2_3_01_01 64 rfl rfl t
  have el : dot_S256x16x256x64_S256x16x64x65_S256x16x256x65_3_2_2_3_01_01.lhsIdx (ix4 b h i j) ((ValueIdx.contrEquiv1 dot_S256x16x256x64_S256x16x64x65_S256x16x256x65_3_2_2_3_01_01 64 rfl rfl).symm t) = ix4 b h i t := funext fun a => Fin.ext (by
    match a with
    | ⟨0, _⟩ => exact lhs_main_v181_0 _ _
    | ⟨1, _⟩ => exact lhs_main_v181_1 _ _
    | ⟨2, _⟩ => exact lhs_main_v181_2 _ _
    | ⟨3, _⟩ => exact (lhs_main_v181_3 _ _).trans hk)
  have er : dot_S256x16x256x64_S256x16x64x65_S256x16x256x65_3_2_2_3_01_01.rhsIdx (ix4 b h i j) ((ValueIdx.contrEquiv1 dot_S256x16x256x64_S256x16x64x65_S256x16x256x65_3_2_2_3_01_01 64 rfl rfl).symm t) = ix4 b h t j := funext fun a => Fin.ext (by
    match a with
    | ⟨0, _⟩ => exact rhs_main_v181_0 _ _
    | ⟨1, _⟩ => exact rhs_main_v181_1 _ _
    | ⟨2, _⟩ => exact (rhs_main_v181_2 _ _).trans hk
    | ⟨3, _⟩ => exact rhs_main_v181_3 _ _)
  rw [el, er]

/-! ## Broadcasts and the pointwise operations, read slice by slice -/

/-- A scalar broadcast to any shape reads the scalar everywhere. -/
theorem bcast0_apply {S : Shape} (bc : S_.BroadcastsInDim S (![] : Fin 0 → Fin S.rank)) (c : Arr S_) (idx : S.Idx) :
    broadcastInDim S ![] bc c idx = c ix0 :=
  broadcastInDim_apply _ bc c idx ix0 (fun a => a.elim0)

/-- A 64 x 64 matrix broadcast over the 256 x 16 heads reads, in every head, the matrix itself. -/
theorem bcastM_apply (M : Arr S64x64) (b : Fin 256) (h : Fin 16) (i j : Fin 64) :
    broadcastInDim S256x16x64x64 ![0, 1, 2, 3] bcast_S1x1x64x64_S256x16x64x64_0_1_2_3
      (broadcastInDim S1x1x64x64 ![2, 3] bcast_S64x64_S1x1x64x64_2_3 M) (ix4 b h i j) = M (ix2 i j) := by
  refine (broadcastInDim_apply _ bcast_S1x1x64x64_S256x16x64x64_0_1_2_3 _ (ix4 b h i j) (ix4 (0 : Fin 1) (0 : Fin 1) i j) (fun a => match a with
    | ⟨0, _⟩ => by show 0 = if (1 : Nat) = 1 then 0 else b.val; rw [if_pos rfl]
    | ⟨1, _⟩ => by show 0 = if (1 : Nat) = 1 then 0 else h.val; rw [if_pos rfl]
    | ⟨2, _⟩ => by show i.val = if (64 : Nat) = 1 then 0 else i.val; rw [if_neg (by decide)]
    | ⟨3, _⟩ => by show j.val = if (64 : Nat) = 1 then 0 else j.val; rw [if_neg (by decide)])).trans ?_
  exact broadcastInDim_apply _ bcast_S64x64_S1x1x64x64_2_3 M (ix4 (0 : Fin 1) (0 : Fin 1) i j) (ix2 i j) (fun a => match a with
    | ⟨0, _⟩ => by show i.val = if (64 : Nat) = 1 then 0 else i.val; rw [if_neg (by decide)]
    | ⟨1, _⟩ => by show j.val = if (64 : Nat) = 1 then 0 else j.val; rw [if_neg (by decide)])

/-- The 64 x 64 array "row index + 0 = column index", converted to a float, is the identity matrix. -/
theorem eye_apply (i j : Fin 64) : val_main_v33 (F := Ideal) (ix2 i j) = eye i j := by
  rw [val_main_v33_apply, val_main_v32_apply, val_main_v31_apply, val_main_v30_apply, val_main_c_apply, val_main_v28_apply, val_main_v29_apply]
  show (((IntOp.cmpi .eq (IntOp.addi (BitVec.ofNat 32 i.val) 0#32) (BitVec.ofNat 32 j.val)).toNat : ℝ) : EReal) = if i = j then 1 else 0
  by_cases hij : i = j
  · subst hij
    simp [IntOp.cmpi, IntOp.addi]
  · have hne : ¬ (BitVec.ofNat 32 i.val = BitVec.ofNat 32 j.val) := by
      intro he
      apply hij
      have := congrArg BitVec.toNat he
      simp only [BitVec.toNat_ofNat] at this
      apply Fin.ext
      have hi := i.isLt
      have hj := j.isLt
      omega
    simp [IntOp.cmpi, IntOp.addi, hne, hij]

/-- ¼ z, slice by slice. -/
theorem sl4_quarter (Z : Arr S256x16x64x64) (b : Fin 256) (h : Fin 16) :
    sl4 (mulf (broadcastInDim S256x16x64x64 ![] bcast_S_S256x16x64x64 (constant (F := Ideal) S_ .f32 0x3E800000#32)) Z : Arr S256x16x64x64) b h
      = fun i j => W 0x3E800000#32 * sl4 Z b h i j := by
  funext i j
  show broadcastInDim S256x16x64x64 ![] bcast_S_S256x16x64x64 (constant (F := Ideal) S_ .f32 0x3E800000#32) (ix4 b h i j) * Z (ix4 b h i j) = _
  rw [bcast0_apply]
  rfl

/-- c I - Y, slice by slice: the identity scaled by the word c, broadcast over the heads, minus Y. -/
theorem sl4_cIsub (c : BitVec 32) (Y : Arr S256x16x64x64) (b : Fin 256) (h : Fin 16) :
    sl4 (subf (broadcastInDim S256x16x64x64 ![0, 1, 2, 3] bcast_S1x1x64x64_S256x16x64x64_0_1_2_3
          (broadcastInDim S1x1x64x64 ![2, 3] bcast_S64x64_S1x1x64x64_2_3
            (mulf (broadcastInDim S64x64 ![] bcast_S_S64x64 (constant (F := Ideal) S_ .f32 c)) (val_main_v33 (F := Ideal))))) Y : Arr S256x16x64x64) b h
      = cIsub c (sl4 Y b h) := by
  funext i j
  show broadcastInDim S256x16x64x64 ![0, 1, 2, 3] bcast_S1x1x64x64_S256x16x64x64_0_1_2_3
          (broadcastInDim S1x1x64x64 ![2, 3] bcast_S64x64_S1x1x64x64_2_3
            (mulf (broadcastInDim S64x64 ![] bcast_S_S64x64 (constant (F := Ideal) S_ .f32 c)) (val_main_v33 (F := Ideal)))) (ix4 b h i j) - Y (ix4 b h i j)
      = W c * eye i j - Y (ix4 b h i j)
  rw [bcastM_apply]
  show broadcastInDim S64x64 ![] bcast_S_S64x64 (constant (F := Ideal) S_ .f32 c) (ix2 i j) * val_main_v33 (F := Ideal) (ix2 i j) - _ = _
  rw [bcast0_apply, eye_apply]
  rfl

end Cert.Landmark.Ref

end
-- ==== Proof.RefChain.lean ====
/-
  The reference program, stage by stage, on one head.

  For the head (b, h), with qm, km the 2 x 2-patch averages of q and k (64 x 64), the program computes
      x    = act (qm kmᵀ)                                   (`ref_temp`)
      z₀   = xᵀ / d,  d one scalar shared by every head      (`ref_seed`)
      zₙ₊₁ = (¼ zₙ) (13 I - x zₙ (15 I - x zₙ (7 I - x zₙ)))   six times   (`sl4_v54` … `sl4_v159`, `ref_pinv`)
      out  = the first 64 columns of P over (its last column + ε),
             P = act (q kmᵀ) z₆ (act (qm kᵀ) [v | 1])          (`ref_out`)
  Each statement equates the slice at (b, h) of one array of the program with the matrix expression of the slices of
  the arrays it is computed from; the averages qm, km, the scalar d and the array [v | 1] are left as they are.
-/
import proofs.«114225_j21509196218786_1_alg».proof.Proof.RefOps

noncomputable section

namespace Cert.Landmark.Ref

open Cert.ReferenceIdeal Cert.ReferenceIdeal.Gen Cert.ReferenceIdeal.ReadP Idealize.ShloMosaic Idealize.ShloMosaic.ValueIdx Idealize.ShloMosaic.StableHlo Cert.Landmark

variable (q k v : Arr S256x16x256x64) (b : Fin 256) (h : Fin 16)

/-- The landmark kernel before the activation: qm kmᵀ. -/
theorem sl4_v10 : sl4 (val_main_v10 (F := Ideal) q k) b h
    = mmT (sl4 (val_main_v4 (F := Ideal) q) b h) (sl4 (val_main_v9 (F := Ideal) k) b h) := by
  unfold val_main_v10
  exact sl4_dot_mmT_64_64 _ _ b h

/-- Entry by entry the kernel is the activation of the product. -/
theorem v17_eq_act (idx : S256x16x64x64.Idx) :
    val_main_v17 (F := Ideal) q k idx = act (val_main_v10 (F := Ideal) q k idx) := by
  rw [val_main_v17_apply, val_main_v13_apply, val_main_v16_apply, val_main_v12_apply, val_main_v15_apply, val_main_v11_apply,
    val_main_v14_apply, val_main_call0_v0_apply]
  rfl

/-- The landmark kernel of one head: x = act (qm kmᵀ). -/
theorem ref_temp : sl4 (val_main_v17 (F := Ideal) q k) b h
    = temp (sl4 (val_main_v4 (F := Ideal) q) b h) (sl4 (val_main_v9 (F := Ideal) k) b h) := by
  funext i j
  show val_main_v17 (F := Ideal) q k (ix4 b h i j) = act (mmT (sl4 (val_main_v4 (F := Ideal) q) b h) (sl4 (val_main_v9 (F := Ideal) k) b h) i j)
  rw [v17_eq_act, ← sl4_v10]
  rfl

/-- The seed of one head: z₀ = xᵀ / d. -/
theorem ref_seed : sl4 (val_main_v27 (F := Ideal) q k) b h
    = seed (sl4 (val_main_v17 (F := Ideal) q k) b h) (val_main_v25 (F := Ideal) q k ValueIdx.ix0) := by
  funext i j
  show val_main_v27 (F := Ideal) q k (ix4 b h i j) = Ideal.div (val_main_v17 (F := Ideal) q k (ix4 b h j i)) (val_main_v25 (F := Ideal) q k ValueIdx.ix0)
  rw [val_main_v27_apply, val_main_v21_apply, val_main_v26_apply]
  have e : idx_main_v21 (ix4 b h i j) = ix4 b h j i := funext fun a => match a with
    | ⟨0, _⟩ => rfl
    | ⟨1, _⟩ => rfl
    | ⟨2, _⟩ => rfl
    | ⟨3, _⟩ => rfl
  rw [e]
  rfl

/-! ## The six iterations -/

/-- Iteration 1: the new iterate is one step, with the factor ¼ on z, from the kernel x and the previous iterate. -/
theorem sl4_v54 : sl4 (val_main_v54 (F := Ideal) q k) b h
    = stepR (sl4 (val_main_v17 (F := Ideal) q k) b h) (sl4 (val_main_v27 (F := Ideal) q k) b h) := by
  unfold val_main_v54 val_main_v53 val_main_v52 val_main_v51 val_main_v50 val_main_v49 val_main_v48 val_main_v47 val_main_v46 val_main_v45 val_main_v44 val_main_v43 val_main_v42 val_main_v41 val_main_cst_13 val_main_v40 val_main_v39 val_main_cst_12 val_main_v38 val_main_v37 val_main_cst_11 val_main_v36 val_main_v35 val_main_cst_10 val_main_v34
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-- Iteration 2: the new iterate is one step, with the factor ¼ on z, from the kernel x and the previous iterate. -/
theorem sl4_v75 : sl4 (val_main_v75 (F := Ideal) q k) b h
    = stepR (sl4 (val_main_v17 (F := Ideal) q k) b h) (sl4 (val_main_v54 (F := Ideal) q k) b h) := by
  unfold val_main_v75 val_main_v74 val_main_v73 val_main_v72 val_main_v71 val_main_v70 val_main_v69 val_main_v68 val_main_v67 val_main_v66 val_main_v65 val_main_v64 val_main_v63 val_main_v62 val_main_cst_17 val_main_v61 val_main_v60 val_main_cst_16 val_main_v59 val_main_v58 val_main_cst_15 val_main_v57 val_main_v56 val_main_cst_14 val_main_v55
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-- Iteration 3: the new iterate is one step, with the factor ¼ on z, from the kernel x and the previous iterate. -/
theorem sl4_v96 : sl4 (val_main_v96 (F := Ideal) q k) b h
    = stepR (sl4 (val_main_v17 (F := Ideal) q k) b h) (sl4 (val_main_v75 (F := Ideal) q k) b h) := by
  unfold val_main_v96 val_main_v95 val_main_v94 val_main_v93 val_main_v92 val_main_v91 val_main_v90 val_main_v89 val_main_v88 val_main_v87 val_main_v86 val_main_v85 val_main_v84 val_main_v83 val_main_cst_21 val_main_v82 val_main_v81 val_main_cst_20 val_main_v80 val_main_v79 val_main_cst_19 val_main_v78 val_main_v77 val_main_cst_18 val_main_v76
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-- Iteration 4: the new iterate is one step, with the factor ¼ on z, from the kernel x and the previous iterate. -/
theorem sl4_v117 : sl4 (val_main_v117 (F := Ideal) q k) b h
    = stepR (sl4 (val_main_v17 (F := Ideal) q k) b h) (sl4 (val_main_v96 (F := Ideal) q k) b h) := by
  unfold val_main_v117 val_main_v116 val_main_v115 val_main_v114 val_main_v113 val_main_v112 val_main_v111 val_main_v110 val_main_v109 val_main_v108 val_main_v107 val_main_v106 val_main_v105 val_main_v104 val_main_cst_25 val_main_v103 val_main_v102 val_main_cst_24 val_main_v101 val_main_v100 val_main_cst_23 val_main_v99 val_main_v98 val_main_cst_22 val_main_v97
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-- Iteration 5: the new iterate is one step, with the factor ¼ on z, from the kernel x and the previous iterate. -/
theorem sl4_v138 : sl4 (val_main_v138 (F := Ideal) q k) b h
    = stepR (sl4 (val_main_v17 (F := Ideal) q k) b h) (sl4 (val_main_v117 (F := Ideal) q k) b h) := by
  unfold val_main_v138 val_main_v137 val_main_v136 val_main_v135 val_main_v134 val_main_v133 val_main_v132 val_main_v131 val_main_v130 val_main_v129 val_main_v128 val_main_v127 val_main_v126 val_main_v125 val_main_cst_29 val_main_v124 val_main_v123 val_main_cst_28 val_main_v122 val_main_v121 val_main_cst_27 val_main_v120 val_main_v119 val_main_cst_26 val_main_v118
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-- Iteration 6: the new iterate is one step, with the factor ¼ on z, from the kernel x and the previous iterate. -/
theorem sl4_v159 : sl4 (val_main_v159 (F := Ideal) q k) b h
    = stepR (sl4 (val_main_v17 (F := Ideal) q k) b h) (sl4 (val_main_v138 (F := Ideal) q k) b h) := by
  unfold val_main_v159 val_main_v158 val_main_v157 val_main_v156 val_main_v155 val_main_v154 val_main_v153 val_main_v152 val_main_v151 val_main_v150 val_main_v149 val_main_v148 val_main_v147 val_main_v146 val_main_cst_33 val_main_v145 val_main_v144 val_main_cst_32 val_main_v143 val_main_v142 val_main_cst_31 val_main_v141 val_main_v140 val_main_cst_30 val_main_v139
  rw [sl4_dot_mm_64_64, sl4_quarter, sl4_cIsub, sl4_dot_mm_64_64, sl4_dot_mm_64_64, sl4_cIsub, sl4_dot_mm_64_64,
    sl4_dot_mm_64_64, sl4_cIsub, sl4_dot_mm_64_64]
  rfl

/-! ## The pseudo-inverse: six steps from the seed -/

/-- The pseudo-inverse of one head: six steps, each with the factor ¼ on z, from the seed. -/
theorem ref_pinv : sl4 (val_main_v159 (F := Ideal) q k) b h
    = iter6 stepR (sl4 (val_main_v17 (F := Ideal) q k) b h) (sl4 (val_main_v27 (F := Ideal) q k) b h) := by
  rw [sl4_v159, sl4_v138, sl4_v117, sl4_v96, sl4_v75, sl4_v54]
  rfl

/-! ## The output -/

/-- qm kᵀ, 64 x 256. -/
theorem sl4_v163 : sl4 (val_main_v163 (F := Ideal) q k) b h
    = mmT (sl4 (val_main_v4 (F := Ideal) q) b h) (sl4 k b h) := by
  unfold val_main_v163
  exact sl4_dot_mmT_64_256 _ _ b h

/-- Entry by entry, the activation of qm kᵀ. -/
theorem v170_eq_act (idx : S256x16x64x256.Idx) :
    val_main_v170 (F := Ideal) q k idx = act (val_main_v163 (F := Ideal) q k idx) := by
  rw [val_main_v170_apply, val_main_v166_apply, val_main_v169_apply, val_main_v165_apply, val_main_v168_apply, val_main_v164_apply,
    val_main_v167_apply, val_main_call1_v0_apply]
  rfl

/-- act (qm kᵀ). -/
theorem sl4_v170 : sl4 (val_main_v170 (F := Ideal) q k) b h
    = actM (mmT (sl4 (val_main_v4 (F := Ideal) q) b h) (sl4 k b h)) := by
  funext i j
  show val_main_v170 (F := Ideal) q k (ix4 b h i j) = act (mmT (sl4 (val_main_v4 (F := Ideal) q) b h) (sl4 k b h) i j)
  rw [v170_eq_act, ← sl4_v163]
  rfl

/-- act (qm kᵀ) [v | 1], 64 x 65. -/
theorem sl4_v171 : sl4 (val_main_v171 (F := Ideal) q k v) b h
    = mm (sl4 (val_main_v170 (F := Ideal) q k) b h) (sl4 (val_main_v162 (F := Ideal) v) b h) := by
  unfold val_main_v171
  exact sl4_dot_mm_64_256_65 _ _ b h

/-- q kmᵀ, 256 x 64. -/
theorem sl4_v172 : sl4 (val_main_v172 (F := Ideal) q k) b h
    = mmT (sl4 q b h) (sl4 (val_main_v9 (F := Ideal) k) b h) := by
  unfold val_main_v172
  exact sl4_dot_mmT_256_64 _ _ b h

/-- Entry by entry, the activation of q kmᵀ. -/
theorem v179_eq_act (idx : S256x16x256x64.Idx) :
    val_main_v179 (F := Ideal) q k idx = act (val_main_v172 (F := Ideal) q k idx) := by
  rw [val_main_v179_apply, val_main_v175_apply, val_main_v178_apply, val_main_v174_apply, val_main_v177_apply, val_main_v173_apply,
    val_main_v176_apply, val_main_call2_v0_apply]
  rfl

/-- act (q kmᵀ). -/
theorem sl4_v179 : sl4 (val_main_v179 (F := Ideal) q k) b h
    = actM (mmT (sl4 q b h) (sl4 (val_main_v9 (F := Ideal) k) b h)) := by
  funext i j
  show val_main_v179 (F := Ideal) q k (ix4 b h i j) = act (mmT (sl4 q b h) (sl4 (val_main_v9 (F := Ideal) k) b h) i j)
  rw [v179_eq_act, ← sl4_v172]
  rfl

/-- act (q kmᵀ) times the pseudo-inverse, 256 x 64. -/
theorem sl4_v180 : sl4 (val_main_v180 (F := Ideal) q k) b h
    = mm (sl4 (val_main_v179 (F := Ideal) q k) b h) (sl4 (val_main_v159 (F := Ideal) q k) b h) := by
  unfold val_main_v180
  exact sl4_dot_mm_256_64_64 _ _ b h

/-- The full product P, 256 x 65. -/
theorem sl4_v181 : sl4 (val_main_v181 (F := Ideal) q k v) b h
    = mm (sl4 (val_main_v180 (F := Ideal) q k) b h) (sl4 (val_main_v171 (F := Ideal) q k v) b h) := by
  unfold val_main_v181
  exact sl4_dot_mm_256_64_65 _ _ b h

/-- The output of one head: the first 64 columns of P = act (q kmᵀ) z₆ (act (qm kᵀ) [v | 1]) over its last column plus ε. -/
theorem ref_out : sl4 (val_main_v187 (F := Ideal) q k v) b h
    = attn (sl4 (val_main_v159 (F := Ideal) q k) b h) (sl4 q b h) (sl4 k b h) (sl4 (val_main_v162 (F := Ideal) v) b h)
        (sl4 (val_main_v4 (F := Ideal) q) b h) (sl4 (val_main_v9 (F := Ideal) k) b h) := by
  have hP : sl4 (val_main_v181 (F := Ideal) q k v) b h
      = mm (mm (actM (mmT (sl4 q b h) (sl4 (val_main_v9 (F := Ideal) k) b h))) (sl4 (val_main_v159 (F := Ideal) q k) b h))
          (mm (actM (mmT (sl4 (val_main_v4 (F := Ideal) q) b h) (sl4 k b h))) (sl4 (val_main_v162 (F := Ideal) v) b h)) := by
    rw [sl4_v181, sl4_v180, sl4_v179, sl4_v171, sl4_v170]
  funext n e
  show val_main_v187 (F := Ideal) q k v (ix4 b h n e) = _
  rw [val_main_v187_apply, val_main_v182_apply, val_main_v186_apply, val_main_v185_apply, val_main_v183_apply, val_main_v184_apply]
  have e1 : idx_main_v182 (ix4 b h n e) = ix4 b h n (Fin.castSucc e) := funext fun a => match a with
    | ⟨0, _⟩ => rfl
    | ⟨1, _⟩ => rfl
    | ⟨2, _⟩ => rfl
    | ⟨3, _⟩ => rfl
  have e2 : idx_main_v183 (idx_main_v186 (ix4 b h n e)) = ix4 b h n (Fin.last 64) := funext fun a => match a with
    | ⟨0, _⟩ => rfl
    | ⟨1, _⟩ => rfl
    | ⟨2, _⟩ => rfl
    | ⟨3, _⟩ => rfl
  rw [e1, e2]
  show Ideal.div (sl4 (val_main_v181 (F := Ideal) q k v) b h n (Fin.castSucc e))
      (sl4 (val_main_v181 (F := Ideal) q k v) b h n (Fin.last 64) + W 0x2B8CBCCC#32) = _
  rw [hP]
  rfl

end Cert.Landmark.Ref

end
-- ==== Proof.HostLayout.lean ====
/-
  The two programs lay the 256 x 16 heads out differently: one along a single axis of 4096 (head (b, h) at 16 b + h),
  the other along two axes. A reshape keeps every element at its row-major position, and the position of
  (16 b + h, n, e) in [4096, 256, 64] is the position of (b, h, n, e) in [256, 16, 256, 64]; so the slice of the
  flattened array at 16 b + h is the slice of the original at (b, h). The same reading gives the way back, the column
  of ones appended to v in either layout, and the seed: each head's matrix transposed and divided by one scalar.
-/
import proofs.«114225_j21509196218786_1_alg».proof.Proof.KHost
import proofs.«114225_j21509196218786_1_alg».proof.Proof.RefRead
import proofs.«114225_j21509196218786_1_alg».proof.Proof.Spec
import Idealize.ShloMosaic.Lib.Pipeline.Value
import Idealize.ShloMosaic.Lib.ValueIdx

noncomputable section

namespace Cert.Landmark.Host

open Cert.Landmark Cert.Landmark.KHost Cert.ReferenceIdeal.ReadP Idealize.ShloMosaic Idealize.ShloMosaic.ValueIdx

variable (q k v : FVec Ideal Cert.KernelIdeal.S256x16x256x64 .f32) (b : Fin 256) (h : Fin 16)

/-- The flattened array's slice at 16 b + h is the original's slice at (b, h). -/
theorem flat_slice : sl3 (flat (F := Ideal) q) (bh b h) = sl4 q b h := by
  funext i j
  unfold sl3 sl4 flat
  refine shapeCast_apply q _ (ix3 (bh b h) i j) (ix4 b h i j) ?_
  rewrite [Shape.rowMajor_val_four, Shape.rowMajor_val_three]
  show ((b.val * 16 + h.val) * 256 + i.val) * 64 + j.val = ((16 * b.val + h.val) * 256 + i.val) * 64 + j.val
  omega

/-- Laid back out on two head axes, the element at (b, h, n, e) is the one at (16 b + h, n, e). -/
theorem unflat_apply (o : FVec Ideal Cert.KernelIdeal.S4096x256x64 .f32) (n : Fin 256) (e : Fin 64) :
    unflat (F := Ideal) o (ValueIdx.ix4 b h n e) = o (ValueIdx.ix3 (bh b h) n e) := by
  unfold unflat
  refine shapeCast_apply o _ (ix4 b h n e) (ix3 (bh b h) n e) ?_
  rewrite [Shape.rowMajor_val_four, Shape.rowMajor_val_three]
  show ((16 * b.val + h.val) * 256 + n.val) * 64 + e.val = ((b.val * 16 + h.val) * 256 + n.val) * 64 + e.val
  omega

/-- The host's division read at an index: the quotient of the two elements. -/
theorem hostDivf_apply {s : Shape} (a c : FVec Ideal s .f32) (i : s.Idx) : Host.divf a c i = Ideal.div (a i) (c i) :=
  (show Host.divf a c i = FloatOps.hostDivf (a i) (c i) from rfl).trans (Ideal.hostDivf_def _ _)

/-- The seed of one head: its matrix transposed, every entry divided by the one scalar d. -/
theorem seed_slice (t : FVec Ideal Cert.KernelIdeal.S4096x64x64 .f32) (β : Fin 4096) :
    sl3 (seedArr (F := Ideal) t) β = seed (sl3 t β) (denom (F := Ideal) t ValueIdx.ix0) := by
  funext i j
  unfold sl3 seed seedArr
  generalize denom (F := Ideal) t = d
  have e1 : transpose Cert.KernelIdeal.S4096x64x64 [0, 2, 1] t Cert.KernelIdeal.Facts₀.transposes_S4096x64x64_S4096x64x64_0_2_1
      (ix3 β i j) = t (ix3 β j i) :=
    transpose_apply [0, 2, 1] t _ (ix3 β i j) (ix3 β j i) (fun a => match a with
      | ⟨0, _⟩ => rfl
      | ⟨1, _⟩ => rfl
      | ⟨2, _⟩ => rfl)
  have e2 : broadcastInDim Cert.KernelIdeal.S4096x64x64 ![] Cert.KernelIdeal.Facts₀.bcast_S_S4096x64x64 d (ix3 β i j) = d ix0 :=
    broadcastInDim_apply _ _ d (ix3 β i j) ix0 (fun a => a.elim0)
  rw [hostDivf_apply, e1, e2]

/-- The column of ones appended along the last axis, read at an index of the [4096, 256, 65] array: the array itself
    in the first 64 columns, the word 1.0 in the last. -/
theorem onesAppended_apply (x : FVec Ideal Cert.KernelIdeal.S4096x256x64 .f32) (β : Fin 4096) (n : Fin 256) (e : Fin 65) :
    onesAppended (F := Ideal) x (ix3 β n e) = if h : e.val < 64 then x (ix3 β n ⟨e.val, h⟩) else W 0x3F800000#32 := by
  unfold onesAppended
  by_cases he : e.val < 64
  · rw [dif_pos he]
    exact concatenate_pair_apply_left _ x _ _ (ix3 β n e) rfl (ix3 β n ⟨e.val, he⟩) (fun a => match a with
      | ⟨0, _⟩ => rfl
      | ⟨1, _⟩ => rfl
      | ⟨2, _⟩ => rfl)
  · rw [dif_neg he]
    have hlt := e.isLt
    refine (concatenate_pair_apply_right (s₂ := ⟨3, ![4096, 256, 1]⟩) _ x _ _ (ix3 β n e) rfl rfl (ix3 β n (⟨0, Nat.one_pos⟩ : Fin 1)) (fun a => match a with
      | ⟨0, _⟩ => fun _ => rfl
      | ⟨1, _⟩ => fun _ => rfl
      | ⟨2, _⟩ => fun hne => absurd rfl hne) (by show 0 + 64 = e.val; omega)).trans ?_
    exact broadcastInDim_apply _ _ _ (ix3 β n (⟨0, Nat.one_pos⟩ : Fin 1)) ix0 (fun a => a.elim0)

/-- In the flattened layout: head (b, h)'s slice of [v | 1] is the head's v with the column of ones. -/
theorem ones_ker : sl3 (onesAppended (F := Ideal) (flat v)) (bh b h) = withOnes (sl4 v b h) := by
  funext n e
  unfold sl3 withOnes
  rw [onesAppended_apply]
  by_cases he : e.val < 64
  · rw [dif_pos he, dif_pos he]
    exact congrFun (congrFun (flat_slice v b h) n) ⟨e.val, he⟩
  · rw [dif_neg he, dif_neg he]

/-- In the layout with two head axes: the same. -/
theorem ones_ref : sl4 (val_main_v162 (F := Ideal) v) b h = withOnes (sl4 v b h) := by
  funext n e
  unfold sl4 withOnes val_main_v162
  by_cases he : e.val < 64
  · rw [dif_pos he]
    exact concatenate_pair_apply_left _ v _ _ (ix4 b h n e) rfl (ix4 b h n ⟨e.val, he⟩) (fun a => match a with
      | ⟨0, _⟩ => rfl
      | ⟨1, _⟩ => rfl
      | ⟨2, _⟩ => rfl
      | ⟨3, _⟩ => rfl)
  · rw [dif_neg he]
    have hlt := e.isLt
    refine (concatenate_pair_apply_right (s₂ := ⟨4, ![256, 16, 256, 1]⟩) _ v _ _ (ix4 b h n e) rfl rfl (ix4 b h n (⟨0, Nat.one_pos⟩ : Fin 1)) (fun a => match a with
      | ⟨0, _⟩ => fun _ => rfl
      | ⟨1, _⟩ => fun _ => rfl
      | ⟨2, _⟩ => fun _ => rfl
      | ⟨3, _⟩ => fun hne => absurd rfl hne) (by show 0 + 64 = e.val; omega)).trans ?_
    rw [val_main_v161_apply]
    rfl

end Cert.Landmark.Host

end
-- ==== Proof.HostDenom.lean ====
/-
  The scalar d of the seed is (largest row sum of |x|) x (largest column sum of |x|) + 1e-15, the two maxima taken over
  every head at once. One program holds the row (column) sums in a [4096, 64] array, head (b, h) at 16 b + h; the other
  in a [256, 16, 64] array. A maximum over all entries does not depend on the order: it is the fold of max over the set
  of all indices, and the bijection (b, h, i) ↦ (16 b + h, i) carries one array onto the other entry by entry. So the
  two maxima agree as soon as the sums do, and the sums agree because the heads' matrices do.
-/
import proofs.«114225_j21509196218786_1_alg».proof.Proof.KHost
import proofs.«114225_j21509196218786_1_alg».proof.Proof.RefRead
import proofs.«114225_j21509196218786_1_alg».proof.Proof.Spec
import Idealize.ShloMosaic.Lib.Pipeline.Value
import Idealize.ShloMosaic.Lib.ValueIdx

noncomputable section

namespace Cert.Landmark.Host

open Cert.Landmark Cert.Landmark.KHost Cert.ReferenceIdeal.ReadP Idealize.ShloMosaic Idealize.ShloMosaic.ValueIdx

/-- A fold of a commutative associative operation over all of a finite type, transported along a bijection. -/
theorem fold_univ_equiv {α β γ : Type} [Fintype α] [Fintype β] (op : γ → γ → γ) [Std.Commutative op] [Std.Associative op]
    (e : α ≃ β) (init : γ) (f : β → γ) (g : α → γ) (hfg : ∀ a, g a = f (e a)) :
    (Finset.univ : Finset β).fold op init f = (Finset.univ : Finset α).fold op init g := by
  rw [← Finset.map_univ_equiv e, Finset.fold_map]
  exact Finset.fold_congr (fun a _ => (hfg a).symm)

/-- A maximum over every axis, into the rank-0 shape: the fold of max over all indices, in any order. -/
theorem reduce_max_all {s : Shape} {axes : List (Fin s.rank)} (x : FVec Ideal s .f32) (init : FVec Ideal ⟨0, ![]⟩ .f32)
    (hr : s.ReducesTo axes ⟨0, ![]⟩) (hu : 0 < (⟨0, ![]⟩ : Shape).numel) :
    Host.reduce FloatOps.maximumf x init hr hu ix0
      = (Finset.univ : Finset s.Idx).fold FloatOps.maximumf (init (Shape.Idx.first hu)) x := by
  rw [Host.reduce_eq_fold, Finset.filter_true_of_mem (fun i _ => funext fun a => a.elim0)]

/-- (b, h, i) ↦ (16 b + h, i): the bijection between the index sets of [256, 16, 64] and [4096, 64] that keeps row-major
    positions. -/
def headEquiv : (⟨3, ![256, 16, 64]⟩ : Shape).Idx ≃ (⟨2, ![4096, 64]⟩ : Shape).Idx :=
  Shape.reshapeEquiv (s := ⟨2, ![4096, 64]⟩) (s' := ⟨3, ![256, 16, 64]⟩) (by decide)

theorem headEquiv_apply (b : Fin 256) (h : Fin 16) (i : Fin 64) : headEquiv (ix3 b h i) = ix2 (bh b h) i := by
  unfold headEquiv
  refine Shape.reshapeEquiv_eq_of_rowMajor _ ?_
  rewrite [Shape.rowMajor_val_two, Shape.rowMajor_val_three]
  show (16 * b.val + h.val) * 64 + i.val = (b.val * 16 + h.val) * 64 + i.val
  omega

/-- Two arrays of sums that agree head by head have the same largest entry. -/
theorem maxAll_eq (s1 : FVec Ideal Cert.KernelIdeal.S4096x64 .f32) (s2 : FVec Ideal Cert.ReferenceIdeal.S256x16x64 .f32)
    (hR : Cert.ReferenceIdeal.S256x16x64.ReducesTo [0, 1, 2] Cert.ReferenceIdeal.S_) (hu : 0 < Cert.ReferenceIdeal.S_.numel)
    (hs : ∀ (b : Fin 256) (h : Fin 16) (i : Fin 64), s1 (ix2 (bh b h) i) = s2 (ix3 b h i)) :
    maxAll (F := Ideal) s1 ix0
      = Host.reduce FloatOps.maximumf s2 (constant (F := Ideal) Cert.ReferenceIdeal.S_ .f32 0xFF800000#32) hR hu ix0 := by
  unfold maxAll
  rw [reduce_max_all, reduce_max_all, constant_apply]
  refine fold_univ_equiv FloatOps.maximumf headEquiv _ s1 s2 (fun a => ?_)
  obtain ⟨b, h, i, rfl⟩ : ∃ (b : Fin 256) (h : Fin 16) (i : Fin 64), a = ix3 b h i := ⟨a 0, a 1, a 2, eq_ix3 a⟩
  rw [headEquiv_apply]
  exact (hs b h i).symm

/-- A sum along the last axis of a [4096, 64, 64] array, read at (β, i). -/
theorem sumLast_apply (y : FVec Ideal Cert.KernelIdeal.S4096x64x64 .f32) (β : Fin 4096) (i : Fin 64) :
    Host.reduceAdd y (constant (F := Ideal) Cert.KernelIdeal.S_ .f32 0x00000000#32)
        Cert.KernelIdeal.Facts₀.reducesTo_S4096x64x64_S4096x64_d2 Cert.KernelIdeal.Facts₀.h_S_ (ix2 β i)
      = W 0x00000000#32 + ∑ c : Fin 64, y (ix3 β i c) := by
  simp only [Host.reduceAdd, Ideal.hostReduceAdd_def]
  rw [Ideal.hostReduceAdd_single Cert.KernelIdeal.Facts₀.reducesTo_S4096x64x64_S4096x64_d2 (by decide)]
  refine congrArg (_ + ·) (Finset.sum_congr rfl fun c _ => ?_)
  exact congrArg y (funext fun a => Fin.ext (by match a with | ⟨0, _⟩ => rfl | ⟨1, _⟩ => rfl | ⟨2, _⟩ => rfl))

/-- A sum along the middle axis of a [4096, 64, 64] array, read at (β, i). -/
theorem sumMid_apply (y : FVec Ideal Cert.KernelIdeal.S4096x64x64 .f32) (β : Fin 4096) (i : Fin 64) :
    Host.reduceAdd y (constant (F := Ideal) Cert.KernelIdeal.S_ .f32 0x00000000#32)
        Cert.KernelIdeal.Facts₀.reducesTo_S4096x64x64_S4096x64_d1 Cert.KernelIdeal.Facts₀.h_S_ (ix2 β i)
      = W 0x00000000#32 + ∑ c : Fin 64, y (ix3 β c i) := by
  simp only [Host.reduceAdd, Ideal.hostReduceAdd_def]
  rw [Ideal.hostReduceAdd_single Cert.KernelIdeal.Facts₀.reducesTo_S4096x64x64_S4096x64_d1 (by decide)]
  refine congrArg (_ + ·) (Finset.sum_congr rfl fun c _ => ?_)
  exact congrArg y (funext fun a => Fin.ext (by match a with | ⟨0, _⟩ => rfl | ⟨1, _⟩ => rfl | ⟨2, _⟩ => rfl))

variable (q k : FVec Ideal Cert.KernelIdeal.S256x16x256x64 .f32)

/-- The scalar d is the same in the two programs, given that the landmark kernels agree head by head. -/
theorem denom_eq (t : FVec Ideal Cert.KernelIdeal.S4096x64x64 .f32)
    (ht : ∀ b h, sl3 t (bh b h) = sl4 (val_main_v17 (F := Ideal) q k) b h) :
    denom (F := Ideal) t ValueIdx.ix0 = val_main_v25 (F := Ideal) q k ValueIdx.ix0 := by
  have hel : ∀ (b : Fin 256) (h : Fin 16) (i j : Fin 64),
      Host.absf t (ix3 (bh b h) i j) = val_main_v18 (F := Ideal) q k (ix4 b h i j) := fun b h i j =>
    congrArg FloatOps.hostAbsf (congrFun (congrFun (ht b h) i) j)
  have h1 : maxAll (F := Ideal) (absSumLast (F := Ideal) t) ix0 = val_main_v22 (F := Ideal) q k ix0 := by
    unfold val_main_v22 val_main_cst_7
    refine maxAll_eq _ _ _ _ (fun b h i => ?_)
    unfold absSumLast
    rw [sumLast_apply, val_main_v19_apply]
    refine congrArg (_ + ·) (Finset.sum_congr rfl fun c _ => ?_)
    exact hel b h i c
  have h2 : maxAll (F := Ideal) (absSumMid (F := Ideal) t) ix0 = val_main_v23 (F := Ideal) q k ix0 := by
    unfold val_main_v23 val_main_cst_8
    refine maxAll_eq _ _ _ _ (fun b h i => ?_)
    unfold absSumMid
    rw [sumMid_apply, val_main_v20_apply]
    refine congrArg (_ + ·) (Finset.sum_congr rfl fun c _ => ?_)
    exact hel b h c i
  unfold denom
  rw [addf_apply, mulf_apply, h1, h2, val_main_v25_apply, val_main_v24_apply, Ideal.addf_def, Ideal.mulf_def]
  rfl

end Cert.Landmark.Host

end
-- ==== Proof.HostPool.lean ====
/-
  The 2 x 2 averaging of the 256 = 16 x 16 positions of one head down to 64 landmarks. Both programs regroup the
  positions as 8 x 2 x 8 x 2, add over the two axes of size 2 and divide by 4; one does it on an array whose heads lie
  along a single axis of 4096, the other on an array with two head axes. A reshape keeps every element at its row-major
  position, so in either layout the regrouped array at (head, l₁, a, l₂, c, e) is the input at position
  ((2 l₁ + a) 8 + l₂) 2 + c of that head; and the elements that a sum over the two small axes collects at
  (head, l₁, l₂, e) are exactly the four with a, c ∈ {0, 1}. Hence both averages are the same sum of the same four
  entries of the same head, divided by the same word 4.
-/
import proofs.«114225_j21509196218786_1_alg».proof.Proof.HostLayout
import Idealize.ShloMosaic.Lib.ValueIdxRank6

noncomputable section

namespace Cert.Landmark.Host

open Cert.Landmark Cert.Landmark.KHost Cert.ReferenceIdeal.ReadP Idealize.ShloMosaic Idealize.ShloMosaic.ValueIdx

/-! ## Rank-7 indices -/

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g

/-! ## The four positions of a 2 x 2 patch -/

/-- Position ((2 l₁ + a) 8 + l₂) 2 + c of the 256 = 8 x 2 x 8 x 2 positions. -/
def patch (l1 l2 : Fin 8) (p : Fin 2 × Fin 2) : Fin 256 :=
  ⟨((l1.val * 2 + p.1.val) * 8 + l2.val) * 2 + p.2.val, by
    have := l1.isLt; have := l2.isLt; have := p.1.isLt; have := p.2.isLt; omega⟩

/-! ## The indices a sum over the two small axes collects -/

/-- Heads along one axis: the indices of [4096, 8, 2, 8, 2, 64] that lose their coordinates on axes 2 and 4 to
    (β, l₁, l₂, e) are the four (β, l₁, a, l₂, c, e). -/
theorem sum_fiber6 (X : (⟨6, ![4096, 8, 2, 8, 2, 64]⟩ : Shape).Idx → EReal)
    (hK : (⟨6, ![4096, 8, 2, 8, 2, 64]⟩ : Shape).ReducesTo [2, 4] ⟨4, ![4096, 8, 8, 64]⟩)
    (β : Fin 4096) (l1 l2 : Fin 8) (e : Fin 64) :
    ∑ i ∈ Finset.univ.filter (fun i => hK.drop i = ix4 β l1 l2 e), X i
      = ∑ p : Fin 2 × Fin 2, X (ix6 β l1 p.1 l2 p.2 e) := by
  have hc : ∀ i : (⟨6, ![4096, 8, 2, 8, 2, 64]⟩ : Shape).Idx, hK.drop i = ix4 β l1 l2 e →
      (i 0).val = β.val ∧ (i 1).val = l1.val ∧ (i 3).val = l2.val ∧ (i 5).val = e.val := fun i hi =>
    ⟨(Shape.ReducesTo.drop_apply_val_of_eq hK i ⟨0, by decide⟩ ⟨0, by decide⟩).symm.trans
        (congrArg (fun f : (⟨4, ![4096, 8, 8, 64]⟩ : Shape).Idx => (f ⟨0, by decide⟩).val) hi),
      (Shape.ReducesTo.drop_apply_val_of_eq hK i ⟨1, by decide⟩ ⟨1, by decide⟩).symm.trans
        (congrArg (fun f : (⟨4, ![4096, 8, 8, 64]⟩ : Shape).Idx => (f ⟨1, by decide⟩).val) hi),
      (Shape.ReducesTo.drop_apply_val_of_eq hK i ⟨2, by decide⟩ ⟨3, by decide⟩).symm.trans
        (congrArg (fun f : (⟨4, ![4096, 8, 8, 64]⟩ : Shape).Idx => (f ⟨2, by decide⟩).val) hi),
      (Shape.ReducesTo.drop_apply_val_of_eq hK i ⟨3, by decide⟩ ⟨5, by decide⟩).symm.trans
        (congrArg (fun f : (⟨4, ![4096, 8, 8, 64]⟩ : Shape).Idx => (f ⟨3, by decide⟩).val) hi)⟩
  have hl : ∀ i : (⟨6, ![4096, 8, 2, 8, 2, 64]⟩ : Shape).Idx, hK.drop i = ix4 β l1 l2 e →
      ix6 β l1 (i 2 : Fin 2) l2 (i 4 : Fin 2) e = i := fun i hi => by
    obtain ⟨h0, h1, h3, h5⟩ := hc i hi
    funext x
    match x with
    | ⟨0, _⟩ => exact Fin.ext h0.symm
    | ⟨1, _⟩ => exact Fin.ext h1.symm
    | ⟨2, _⟩ => rfl
    | ⟨3, _⟩ => exact Fin.ext h3.symm
    | ⟨4, _⟩ => rfl
    | ⟨5, _⟩ => exact Fin.ext h5.symm
  refine Finset.sum_nbij' (fun i => ((i 2 : Fin 2), (i 4 : Fin 2))) (fun p => ix6 β l1 p.1 l2 p.2 e) ?_ ?_ ?_ ?_ ?_
  · intro i _; exact Finset.mem_univ _
  · intro p _
    refine Finset.mem_filter.2 ⟨Finset.mem_univ _, funext fun x => Fin.ext ?_⟩
    match x with
    | ⟨0, _⟩ => exact Shape.ReducesTo.drop_apply_val_of_eq hK _ ⟨0, by decide⟩ ⟨0, by decide⟩
    | ⟨1, _⟩ => exact Shape.ReducesTo.drop_apply_val_of_eq hK _ ⟨1, by decide⟩ ⟨1, by decide⟩
    | ⟨2, _⟩ => exact Shape.ReducesTo.drop_apply_val_of_eq hK _ ⟨2, by decide⟩ ⟨3, by decide⟩
    | ⟨3, _⟩ => exact Shape.ReducesTo.drop_apply_val_of_eq hK _ ⟨3, by decide⟩ ⟨5, by decide⟩
  · intro i hi; exact hl i (Finset.mem_filter.1 hi).2
  · intro p _; rfl
  · intro i hi; exact congrArg X (hl i (Finset.mem_filter.1 hi).2).symm

/-- Heads along two axes: the indices of [256, 16, 8, 2, 8, 2, 64] that lose their coordinates on axes 3 and 5 to
    (b, h, l₁, l₂, e) are the four (b, h, l₁, a, l₂, c, e). -/
theorem sum_fiber7 (X : (⟨7, ![256, 16, 8, 2, 8, 2, 64]⟩ : Shape).Idx → EReal)
    (hR : (⟨7, ![256, 16, 8, 2, 8, 2, 64]⟩ : Shape).ReducesTo [3, 5] ⟨5, ![256, 16, 8, 8, 64]⟩)
    (b : Fin 256) (h : Fin 16) (l1 l2 : Fin 8) (e : Fin 64) :
    ∑ i ∈ Finset.univ.filter (fun i => hR.drop i = ix5 b h l1 l2 e), X i
      = ∑ p : Fin 2 × Fin 2, X (ix7 b h l1 p.1 l2 p.2 e) := by
  have hc : ∀ i : (⟨7, ![256, 16, 8, 2, 8, 2, 64]⟩ : Shape).Idx, hR.drop i = ix5 b h l1 l2 e →
      (i 0).val = b.val ∧ (i 1).val = h.val ∧ (i 2).val = l1.val ∧ (i 4).val = l2.val ∧ (i 6).val = e.val := fun i hi =>
    ⟨(Shape.ReducesTo.drop_apply_val_of_eq hR i ⟨0, by decide⟩ ⟨0, by decide⟩).symm.trans
        (congrArg (fun f : (⟨5, ![256, 16, 8, 8, 64]⟩ : Shape).Idx => (f ⟨0, by decide⟩).val) hi),
      (Shape.ReducesTo.drop_apply_val_of_eq hR i ⟨1, by decide⟩ ⟨1, by decide⟩).symm.trans
        (congrArg (fun f : (⟨5, ![256, 16, 8, 8, 64]⟩ : Shape).Idx => (f ⟨1, by decide⟩).val) hi),
      (Shape.ReducesTo.drop_apply_val_of_eq hR i ⟨2, by decide⟩ ⟨2, by decide⟩).symm.trans
        (congrArg (fun f : (⟨5, ![256, 16, 8, 8, 64]⟩ : Shape).Idx => (f ⟨2, by decide⟩).val) hi),
      (Shape.ReducesTo.drop_apply_val_of_eq hR i ⟨3, by decide⟩ ⟨4, by decide⟩).symm.trans
        (congrArg (fun f : (⟨5, ![256, 16, 8, 8, 64]⟩ : Shape).Idx => (f ⟨3, by decide⟩).val) hi),
      (Shape.ReducesTo.drop_apply_val_of_eq hR i ⟨4, by decide⟩ ⟨6, by decide⟩).symm.trans
        (congrArg (fun f : (⟨5, ![256, 16, 8, 8, 64]⟩ : Shape).Idx => (f ⟨4, by decide⟩).val) hi)⟩
  have hl : ∀ i : (⟨7, ![256, 16, 8, 2, 8, 2, 64]⟩ : Shape).Idx, hR.drop i = ix5 b h l1 l2 e →
      ix7 b h l1 (i 3 : Fin 2) l2 (i 5 : Fin 2) e = i := fun i hi => by
    obtain ⟨h0, h1, h2, h4, h6⟩ := hc i hi
    funext x
    match x with
    | ⟨0, _⟩ => exact Fin.ext h0.symm
    | ⟨1, _⟩ => exact Fin.ext h1.symm
    | ⟨2, _⟩ => exact Fin.ext h2.symm
    | ⟨3, _⟩ => rfl
    | ⟨4, _⟩ => exact Fin.ext h4.symm
    | ⟨5, _⟩ => rfl
    | ⟨6, _⟩ => exact Fin.ext h6.symm
  refine Finset.sum_nbij' (fun i => ((i 3 : Fin 2), (i 5 : Fin 2))) (fun p => ix7 b h l1 p.1 l2 p.2 e) ?_ ?_ ?_ ?_ ?_
  · intro i _; exact Finset.mem_univ _
  · intro p _
    refine Finset.mem_filter.2 ⟨Finset.mem_univ _, funext fun x => Fin.ext ?_⟩
    match x with
    | ⟨0, _⟩ => exact Shape.ReducesTo.drop_apply_val_of_eq hR _ ⟨0, by decide⟩ ⟨0, by decide⟩
    | ⟨1, _⟩ => exact Shape.ReducesTo.drop_apply_val_of_eq hR _ ⟨1, by decide⟩ ⟨1, by decide⟩
    | ⟨2, _⟩ => exact Shape.ReducesTo.drop_apply_val_of_eq hR _ ⟨2, by decide⟩ ⟨2, by decide⟩
    | ⟨3, _⟩ => exact Shape.ReducesTo.drop_apply_val_of_eq hR _ ⟨3, by decide⟩ ⟨4, by decide⟩
    | ⟨4, _⟩ => exact Shape.ReducesTo.drop_apply_val_of_eq hR _ ⟨4, by decide⟩ ⟨6, by decide⟩
  · intro i hi; exact hl i (Finset.mem_filter.1 hi).2
  · intro p _; rfl
  · intro i hi; exact congrArg X (hl i (Finset.mem_filter.1 hi).2).symm

/-! ## The two sums of four -/

/-- Heads along one axis: the sum over the two small axes of the regrouped array, at (β, l₁, l₂, e), is the sum of the
    four entries of head β at the positions of the patch (l₁, l₂). -/
theorem pool_ker (x : FVec Ideal Cert.KernelIdeal.S4096x256x64 .f32)
    (hc : Cert.KernelIdeal.S4096x256x64.ShapeCasts Cert.KernelIdeal.S4096x8x2x8x2x64)
    (hK : Cert.KernelIdeal.S4096x8x2x8x2x64.ReducesTo [2, 4] Cert.KernelIdeal.S4096x8x8x64)
    (hu : 0 < Cert.KernelIdeal.S_.numel) (β : Fin 4096) (l1 l2 : Fin 8) (e : Fin 64) :
    Host.reduceAdd (shapeCast _ x hc) (constant (F := Ideal) Cert.KernelIdeal.S_ .f32 0x00000000#32) hK hu (ix4 β l1 l2 e)
      = W 0x00000000#32 + ∑ p : Fin 2 × Fin 2, x (ix3 β (patch l1 l2 p) e) := by
  simp only [Host.reduceAdd, Ideal.hostReduceAdd_def]
  unfold Ideal.hostReduceAdd
  rw [sum_fiber6]
  refine congrArg (_ + ·) (Finset.sum_congr rfl fun p _ => ?_)
  refine shapeCast_apply x hc (ix6 β l1 p.1 l2 p.2 e) (ix3 β (patch l1 l2 p) e) ?_
  rewrite [Shape.rowMajor_val_three, Shape.rowMajor_val_six]
  show (β.val * 256 + (((l1.val * 2 + p.1.val) * 8 + l2.val) * 2 + p.2.val)) * 64 + e.val
    = ((((β.val * 8 + l1.val) * 2 + p.1.val) * 8 + l2.val) * 2 + p.2.val) * 64 + e.val
  omega

/-- Heads along two axes: the same sum of the same four entries of head (b, h). -/
theorem pool_ref (x : FVec Ideal Cert.ReferenceIdeal.S256x16x256x64 .f32)
    (hc : Cert.ReferenceIdeal.S256x16x256x64.ShapeCasts Cert.ReferenceIdeal.S256x16x8x2x8x2x64)
    (hR : Cert.ReferenceIdeal.S256x16x8x2x8x2x64.ReducesTo [3, 5] Cert.ReferenceIdeal.S256x16x8x8x64)
    (hu : 0 < Cert.ReferenceIdeal.S_.numel) (b : Fin 256) (h : Fin 16) (l1 l2 : Fin 8) (e : Fin 64) :
    Host.reduceAdd (shapeCast _ x hc) (constant (F := Ideal) Cert.ReferenceIdeal.S_ .f32 0x00000000#32) hR hu (ix5 b h l1 l2 e)
      = W 0x00000000#32 + ∑ p : Fin 2 × Fin 2, x (ix4 b h (patch l1 l2 p) e) := by
  simp only [Host.reduceAdd, Ideal.hostReduceAdd_def]
  unfold Ideal.hostReduceAdd
  rw [sum_fiber7]
  refine congrArg (_ + ·) (Finset.sum_congr rfl fun p _ => ?_)
  refine shapeCast_apply x hc (ix7 b h l1 p.1 l2 p.2 e) (ix4 b h (patch l1 l2 p) e) ?_
  rewrite [Shape.rowMajor_val_four, rowMajor_val_seven]
  show ((b.val * 16 + h.val) * 256 + (((l1.val * 2 + p.1.val) * 8 + l2.val) * 2 + p.2.val)) * 64 + e.val
    = (((((b.val * 16 + h.val) * 8 + l1.val) * 2 + p.1.val) * 8 + l2.val) * 2 + p.2.val) * 64 + e.val
  omega

/-! ## The averaged arrays, head by head -/

/-- Landmark i of 64 is the patch (i / 8, i % 8). -/
def hi8 (i : Fin 64) : Fin 8 := ⟨i.val / 8, by have := i.isLt; omega⟩
def lo8 (i : Fin 64) : Fin 8 := ⟨i.val % 8, by omega⟩

/-- Heads along one axis: head (b, h)'s slice of the averaged array, entry by entry. -/
theorem pooled_ker_slice (x : FVec Ideal Cert.KernelIdeal.S256x16x256x64 .f32) (b : Fin 256) (h : Fin 16) :
    sl3 (pooled (F := Ideal) (flat (F := Ideal) x)) (bh b h)
      = fun i j => Ideal.div (W 0x00000000#32 + ∑ p : Fin 2 × Fin 2, x (ix4 b h (patch (hi8 i) (lo8 i) p) j)) (W 0x40800000#32) := by
  funext i j
  unfold sl3 pooled
  refine (shapeCast_apply _ _ (ix3 (bh b h) i j) (ix4 (bh b h) (hi8 i) (lo8 i) j) ?_).trans ?_
  · rewrite [Shape.rowMajor_val_four, Shape.rowMajor_val_three]
    show (((16 * b.val + h.val) * 8 + i.val / 8) * 8 + i.val % 8) * 64 + j.val = ((16 * b.val + h.val) * 64 + i.val) * 64 + j.val
    omega
  · have e2 : broadcastInDim Cert.KernelIdeal.S4096x8x8x64 ![] Cert.KernelIdeal.Facts₀.bcast_S_S4096x8x8x64
        (constant (F := Ideal) Cert.KernelIdeal.S_ .f32 0x40800000#32) (ix4 (bh b h) (hi8 i) (lo8 i) j) = W 0x40800000#32 :=
      broadcastInDim_apply _ _ _ (ix4 (bh b h) (hi8 i) (lo8 i) j) ix0 (fun a => a.elim0)
    rw [hostDivf_apply, pool_ker, e2]
    refine congrArg (fun s => Ideal.div (W 0x00000000#32 + s) (W 0x40800000#32)) (Finset.sum_congr rfl fun p _ => ?_)
    exact congrFun (congrFun (flat_slice x b h) (patch (hi8 i) (lo8 i) p)) j

/-- Heads along two axes: the same entries. Stated for the composition of operations itself, its shape facts as
    hypotheses, so that it applies to q and to k alike. -/
theorem pooled_ref_slice (x : FVec Ideal Cert.ReferenceIdeal.S256x16x256x64 .f32)
    (hc : Cert.ReferenceIdeal.S256x16x256x64.ShapeCasts Cert.ReferenceIdeal.S256x16x8x2x8x2x64)
    (hR : Cert.ReferenceIdeal.S256x16x8x2x8x2x64.ReducesTo [3, 5] Cert.ReferenceIdeal.S256x16x8x8x64)
    (hu : 0 < Cert.ReferenceIdeal.S_.numel)
    (hb : Cert.ReferenceIdeal.S_.BroadcastsInDim Cert.ReferenceIdeal.S256x16x8x8x64 (![] : Fin 0 → Fin Cert.ReferenceIdeal.S256x16x8x8x64.rank))
    (hc2 : Cert.ReferenceIdeal.S256x16x8x8x64.ShapeCasts Cert.ReferenceIdeal.S256x16x64x64) (b : Fin 256) (h : Fin 16) :
    sl4 (shapeCast Cert.ReferenceIdeal.S256x16x64x64
        (Host.divf (Host.reduceAdd (shapeCast _ x hc) (constant (F := Ideal) Cert.ReferenceIdeal.S_ .f32 0x00000000#32) hR hu)
          (broadcastInDim Cert.ReferenceIdeal.S256x16x8x8x64 ![] hb (constant (F := Ideal) Cert.ReferenceIdeal.S_ .f32 0x40800000#32)))
        hc2) b h
      = fun i j => Ideal.div (W 0x00000000#32 + ∑ p : Fin 2 × Fin 2, x (ix4 b h (patch (hi8 i) (lo8 i) p) j)) (W 0x40800000#32) := by
  funext i j
  unfold sl4
  refine (shapeCast_apply _ hc2 (ix4 b h i j) (ix5 b h (hi8 i) (lo8 i) j) ?_).trans ?_
  · rewrite [Shape.rowMajor_val_five, Shape.rowMajor_val_four]
    show (((b.val * 16 + h.val) * 8 + i.val / 8) * 8 + i.val % 8) * 64 + j.val = ((b.val * 16 + h.val) * 64 + i.val) * 64 + j.val
    omega
  · have e2 : broadcastInDim Cert.ReferenceIdeal.S256x16x8x8x64 ![] hb
        (constant (F := Ideal) Cert.ReferenceIdeal.S_ .f32 0x40800000#32) (ix5 b h (hi8 i) (lo8 i) j) = W 0x40800000#32 :=
      broadcastInDim_apply _ _ _ (ix5 b h (hi8 i) (lo8 i) j) ix0 (fun a => a.elim0)
    rw [hostDivf_apply, pool_ref, e2]

variable (q k : FVec Ideal Cert.KernelIdeal.S256x16x256x64 .f32) (b : Fin 256) (h : Fin 16)

/-- The landmarks of q: the two programs' averaged arrays agree head by head. -/
theorem pooled_eq : sl3 (pooled (F := Ideal) (flat q)) (bh b h) = sl4 (val_main_v4 (F := Ideal) q) b h := by
  refine (pooled_ker_slice q b h).trans ?_
  unfold val_main_v4 val_main_v3 val_main_v1 val_main_v0 val_main_v2 val_main_cst val_main_cst_0
  exact (pooled_ref_slice q _ _ _ _ _ b h).symm

/-- The landmarks of k: the same composition of operations on the other input. -/
theorem pooled_eq' : sl3 (pooled (F := Ideal) (flat k)) (bh b h) = sl4 (val_main_v9 (F := Ideal) k) b h := by
  refine (pooled_ker_slice k b h).trans ?_
  unfold val_main_v9 val_main_v8 val_main_v6 val_main_v5 val_main_v7 val_main_cst_1 val_main_cst_2
  exact (pooled_ref_slice k _ _ _ _ _ b h).symm

end Cert.Landmark.Host

end
-- ==== Proof.lean ====
/-
  Landmark attention with an iterated pseudo-inverse: the kernel program against its reference.

  For each of 256 x 16 heads: q, k, v are 256 x 64; averaging the 16 x 16 positions over 2 x 2 patches gives 64 landmarks,
  qm and km; with act x = exp (min x 5) + max (x - 5) 0 entry by entry, x = act (qm kmᵀ), the seed z₀ = xᵀ / d (d one scalar
  for all heads: the largest row sum of |x| times the largest column sum, plus 1e-15), six iterations
  z ↦ ¼ z (13 I - x z (15 I - x z (7 I - x z))), and out = P[:, :64] / (P[:, 64] + 1e-12) for
  P = act (q kmᵀ) z₆ (act (qm kᵀ) [v | 1]).

  The kernel program computes x in a first region (128 heads per block), d, the seed and [v | 1] on the host, and the
  iteration and the products in a second region (16 heads per block), on arrays whose heads are flattened to one axis of
  4096; the reference computes everything on [256,16,…] arrays. On the extended reals every float operation is exact and a
  change of format is the identity, so the two differ in ONE place: the reference multiplies z by ¼ before the product, the
  kernel multiplies the product. A nonnegative real factor distributes over any finite sum of extended reals
  (Spec.lean, `stepR_eq_stepK`), so the results are equal for ALL inputs: the finiteness precondition is not used.

  The pieces: Spec.lean (one head's function; the law), KerOps.lean / KerBody.lean (what each kernel body leaves in its output
  block, head by head), KArr.lean (each region's output array from its operand arrays: the blocks tile it), KHost.lean /
  KRead.lean (the host stretches as functions; each operand array read back through them), KRun.lean (the kernel program's run
  keeping its result), KValue.lean (its result as a function of its arguments), RefRead.lean / RefRun.lean (the reference one
  operation at a time, and its run), RefOps.lean / RefChain.lean (the reference's stages, head by head), Host*.lean (the two
  programs' averages, scalars d and layouts agree head by head), Bridge.lean (the assembly).
-/
import proofs.«114225_j21509196218786_1_alg».proof.Defs
import proofs.«114225_j21509196218786_1_alg».proof.Proof.Gen.Kernel
import proofs.«114225_j21509196218786_1_alg».proof.Proof.Gen.Kernel.Skeleton
import proofs.«114225_j21509196218786_1_alg».proof.Proof.Gen.Kernel.Launch
import proofs.«114225_j21509196218786_1_alg».proof.Proof.Gen.Kernel.Points
import proofs.«114225_j21509196218786_1_alg».proof.Proof.Gen.Kernel.Frame
import proofs.«114225_j21509196218786_1_alg».proof.Proof.Gen.KernelIdeal
import proofs.«114225_j21509196218786_1_alg».proof.Proof.Gen.KernelIdeal.Skeleton
import proofs.«114225_j21509196218786_1_alg».proof.Proof.Gen.KernelIdeal.Launch
import proofs.«114225_j21509196218786_1_alg».proof.Proof.Gen.KernelIdeal.Points
import proofs.«114225_j21509196218786_1_alg».proof.Proof.Gen.KernelIdeal.Frame
import proofs.«114225_j21509196218786_1_alg».proof.Proof.Gen.ReferenceIdeal
import proofs.«114225_j21509196218786_1_alg».proof.Proof.Gen.Pre_finite_inputs
import proofs.«114225_j21509196218786_1_alg».proof.Proof.KRun
import proofs.«114225_j21509196218786_1_alg».proof.Proof.KValue
import proofs.«114225_j21509196218786_1_alg».proof.Proof.KerBody
import proofs.«114225_j21509196218786_1_alg».proof.Proof.RefRun
import proofs.«114225_j21509196218786_1_alg».proof.Proof.RefChain
import proofs.«114225_j21509196218786_1_alg».proof.Proof.HostLayout
import proofs.«114225_j21509196218786_1_alg».proof.Proof.HostDenom
import proofs.«114225_j21509196218786_1_alg».proof.Proof.HostPool
import proofs.«114225_j21509196218786_1_alg».proof.Proof.Bridge
import Idealize.ShloMosaic.Adequacy
import Idealize.ShloMosaic.Init

noncomputable section

namespace Cert.Proof

open Idealize.ShloMosaic Idealize.ShloMosaic.TcCoe Idealize.SL.Sem
open Cert.Landmark Cert.Landmark.Bridge

/-! ## The two programs are one function of (q, k, v) -/

theorem result_eq (q k v : FVec Ideal S4 .f32) :
    kernelResult q k v = Cert.ReferenceIdeal.ReadP.val_main_v187 (F := Ideal) q k v :=
  kernelResult_eq q k v
    (fun x b h => Cert.Landmark.Host.flat_slice x b h)
    (fun o b h n e => Cert.Landmark.Host.unflat_apply b h o n e)
    (fun b h => Cert.Landmark.Host.ones_ker v b h)
    (fun b h => Cert.Landmark.Host.ones_ref v b h)
    (fun t β => Cert.Landmark.Host.seed_slice t β)
    (fun b h => Cert.Landmark.Host.pooled_eq q b h)
    (fun b h => Cert.Landmark.Host.pooled_eq' k b h)
    (fun t ht => Cert.Landmark.Host.denom_eq q k t ht)
    (fun b h => Cert.Landmark.Ref.ref_temp q k b h)
    (fun b h => Cert.Landmark.Ref.ref_seed q k b h)
    (fun b h => Cert.Landmark.Ref.ref_pinv q k b h)
    (fun b h => Cert.Landmark.Ref.ref_out q k v b h)

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization pass rewrote nothing: the idealized kernel is the kernel's own text read on the extended reals. -/
theorem preserves : Cert.preserves_Kernel_KernelIdeal := trivial

/-- Both programs end with their result buffers at `kernelResult` of the (agreeing) arguments: the kernel program by its
    run and the read-back of its result, the reference by its run and `result_eq`. -/
theorem algebraic : Cert.algebraic_KernelIdeal_ReferenceIdeal := by
  intro m ρ m' ρ' _ hagree
  refine ⟨fun c => kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Landmark.KValue.result_eq m ρ (fun x0 x1 c' => Cert.Landmark.Ker.temp_block x0 x1 c')
          (fun x0 x1 x2 x3 x4 x5 x6 c' => Cert.Landmark.Ker.main_block x0 x1 x2 x3 x4 x5 x6 c') c), (h c).2⟩)
      (Cert.KernelIdeal.Run.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ValueP.val_main_v187_eq, (hagree c).1, (hagree c).2.1, (hagree c).2.2]
    exact (result_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
